-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v67)) (v2 : (c : Dev Cert.KernelIdeal.nD) → Buf (Elt Ideal) ((c.tc : Thread Cert.KernelIdeal.nD Cert.KernelIdeal.τ).loc Cert.KernelIdeal.main_v97)) (v3 : (c : Dev Cert.KernelIdeal.nD) → Buf (Elt Ideal) ((c.tc : Thread Cert.KernelIdeal.nD Cert.KernelIdeal.τ).loc Cert.KernelIdeal.main_v30)) (v4 : (c : Dev Cert.KernelIdeal.nD) → Buf (Elt Ideal) ((c.tc : Thread Cert.KernelIdeal.nD Cert.KernelIdeal.τ).loc Cert.KernelIdeal.main_v60)) (v5 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_v97) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_v60) = v4 c
          ∧ r.2.mem ((c.tc : Thread Cert.KernelIdeal.nD Cert.KernelIdeal.τ).loc Cert.KernelIdeal.main_v90) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_v106) = v4 c
          ∧ r.2.mem ((c.tc : Thread Cert.ReferenceIdeal.nD Cert.ReferenceIdeal.τ).loc Cert.ReferenceIdeal.main_v136) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S3x128x1 : Shape := ⟨3, ![3, 128, 1]⟩
abbrev S3x128 : Shape := ⟨2, ![3, 128]⟩
abbrev S3x128x128 : Shape := ⟨3, ![3, 128, 128]⟩
abbrev S3x1x128 : Shape := ⟨3, ![3, 1, 128]⟩
abbrev S3x1 : Shape := ⟨2, ![3, 1]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S3x128x1 : S_.BroadcastsInDim S3x128x1 (![] : Fin 0 → Fin S3x128x1.rank)
  reducesTo_S3x128x1_S_d0_1_2 : S3x128x1.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x1x128 : S_.BroadcastsInDim S3x1x128 (![] : Fin 0 → Fin S3x1x128.rank)
  reducesTo_S3x1x128_S_d0_1_2 : S3x1x128.ReducesTo [0, 1, 2] S_
  bcast_S_S3x1 : S_.BroadcastsInDim S3x1 (![] : Fin 0 → Fin S3x1.rank)
  reducesTo_S3x1_S_d0_1 : S3x1.ReducesTo [0, 1] S_

variable [Facts]

def fn_part2 {F : FTy → Type} [FloatOps F] (main_arg7 : FVec F S3x1x128 .f32) (main_arg8 : FVec F S3x1 .f32) (main_v33 : IVec S_ 1) : IVec S_ 1 :=
  let main_v34 : FVec F S3x1x128 .f32 := Host.absf main_arg7
  let main_cst_12 : FVec F S_ .f32 := constant S_ .f32 0x7F800000#32
  let main_v35 : FVec F S3x1x128 .f32 := broadcastInDim S3x1x128 ![] bcast_S_S3x1x128 main_cst_12
  let main_v36 : IVec S3x1x128 1 := cmpf .olt main_v34 main_v35
  let main_c_13 : IVec S_ 1 := constantI S_ 1 1#1
  let main_v37 : IVec S_ 1 := (fun x v => Host.reduce IntOp.andi x v reducesTo_S3x1x128_S_d0_1_2 h_S_) main_v36 main_c_13
  let main_v38 : IVec S_ 1 := andi main_v33 main_v37
  let main_v39 : FVec F S3x1 .f32 := Host.absf main_arg8
  let main_cst_14 : FVec F S_ .f32 := constant S_ .f32 0x7F800000#32
  let main_v40 : FVec F S3x1 .f32 := broadcastInDim S3x1 ![] bcast_S_S3x1 main_cst_14
  let main_v41 : IVec S3x1 1 := cmpf .olt main_v39 main_v40
  let main_c_15 : IVec S_ 1 := constantI S_ 1 1#1
  let main_v42 : IVec S_ 1 := (fun x v => Host.reduce IntOp.andi x v reducesTo_S3x1_S_d0_1 h_S_) main_v41 main_c_15
  let main_v43 : IVec S_ 1 := andi main_v38 main_v42
  main_v43

def fn_part1 {F : FTy → Type} [FloatOps F] (main_arg4 : FVec F S3x128 .f32) (main_arg5 : FVec F S3x128x128 .f32) (main_arg6 : FVec F S3x128 .f32) (main_arg7 : FVec F S3x1x128 .f32) (main_arg8 : FVec F S3x1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg5
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg6
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg7 main_arg8 main_v33

def fn {F : FTy → Type} [FloatOps F] (main_arg0 : FVec F S262144 .f32) (main_arg1 : FVec F S3x128x1 .f32) (main_arg2 : FVec F S3x128 .f32) (main_arg3 : FVec F S3x128x128 .f32) (main_arg4 : FVec F S3x128 .f32) (main_arg5 : FVec F S3x128x128 .f32) (main_arg6 : FVec F S3x128 .f32) (main_arg7 : FVec F S3x1x128 .f32) (main_arg8 : FVec F S3x1 .f32) : IVec S_ 1 :=
  let main_v0 : FVec F S262144 .f32 := Host.absf main_arg0
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S3x128x1 .f32 := Host.absf main_arg1
  let main_cst_0 : FVec F S_ .f32 := constant S_ .f32 0x7F800000#32
  let main_v5 : FVec F S3x128x1 .f32 := broadcastInDim S3x128x1 ![] bcast_S_S3x128x1 main_cst_0
  let main_v6 : IVec S3x128x1 1 := cmpf .olt main_v4 main_v5
  let main_c_1 : IVec S_ 1 := constantI S_ 1 1#1
  let main_v7 : IVec S_ 1 := (fun x v => Host.reduce IntOp.andi x v reducesTo_S3x128x1_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_arg6 main_arg7 main_arg8 main_v13 main_v16
-- ==== Kernel.lean ====
abbrev S262144 : Shape := ⟨1, ![262144]⟩
abbrev S3x128x1 : Shape := ⟨3, ![3, 128, 1]⟩
abbrev S3x128 : Shape := ⟨2, ![3, 128]⟩
abbrev S3x128x128 : Shape := ⟨3, ![3, 128, 128]⟩
abbrev S3x1x128 : Shape := ⟨3, ![3, 1, 128]⟩
abbrev S3x1 : Shape := ⟨2, ![3, 1]⟩
abbrev S1x262144 : Shape := ⟨2, ![1, 262144]⟩
abbrev S3x1x1 : Shape := ⟨3, ![3, 1, 1]⟩
abbrev S3x1x262144 : Shape := ⟨3, ![3, 1, 262144]⟩
abbrev S1x4096 : Shape := ⟨2, ![1, 4096]⟩
abbrev S3x1x4096 : Shape := ⟨3, ![3, 1, 4096]⟩
abbrev S1x128x1 : Shape := ⟨3, ![1, 128, 1]⟩
abbrev S128x1 : Shape := ⟨2, ![128, 1]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S1x1x1 : Shape := ⟨3, ![1, 1, 1]⟩
abbrev S1x1 : Shape := ⟨2, ![1, 1]⟩
abbrev S128x4096 : Shape := ⟨2, ![128, 4096]⟩
abbrev S1x1x4096 : Shape := ⟨3, ![1, 1, 4096]⟩
abbrev S3x262144 : Shape := ⟨2, ![3, 262144]⟩
abbrev S1 : Shape := ⟨1, ![1]⟩
abbrev S_ : Shape := ⟨0, ![]⟩
abbrev S262143 : Shape := ⟨1, ![262143]⟩

abbrev nBuf : Space → Nat
  | .hbm => 117
  | .vmem => 14
  | .smem => 0
  | _ => 0

abbrev bufTy : (tb : Table) → Fin (tcTables nBuf tb) → BufTy
  | .hbm, ⟨0, _⟩ => ⟨S262144, .f32⟩
  | .hbm, ⟨1, _⟩ => ⟨S3x128x1, .f32⟩
  | .hbm, ⟨2, _⟩ => ⟨S3x128, .f32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S3x1x128, .f32⟩
  | .hbm, ⟨8, _⟩ => ⟨S3x1, .f32⟩
  | .hbm, ⟨9, _⟩ => ⟨S1x262144, .f32⟩
  | .hbm, ⟨10, _⟩ => ⟨S3x128x1, .f32⟩
  | .hbm, ⟨11, _⟩ => ⟨S3x128x1, .f32⟩
  | .hbm, ⟨12, _⟩ => ⟨S3x128x1, .f32⟩
  | .hbm, ⟨13, _⟩ => ⟨S3x1x1, .f32⟩
  | .hbm, ⟨14, _⟩ => ⟨S3x1x262144, .f32⟩
  | .hbm, ⟨15, _⟩ => ⟨S3x1x262144, .f32⟩
  | .hbm, ⟨16, _⟩ => ⟨S3x262144, .f32⟩
  | .hbm, ⟨17, _⟩ => ⟨S3x262144, .f32⟩
  | .hbm, ⟨18, _⟩ => ⟨S1x262144, .f32⟩
  | .hbm, ⟨19, _⟩ => ⟨S262144, .f32⟩
  | .hbm, ⟨20, _⟩ => ⟨S1x262144, .f32⟩
  | .hbm, ⟨21, _⟩ => ⟨S262144, .f32⟩
  | .hbm, ⟨22, _⟩ => ⟨S1, .f32⟩
  | .hbm, ⟨23, _⟩ => ⟨S_, .f32⟩
  | .hbm, ⟨24, _⟩ => ⟨S262144, .f32⟩
  | .hbm, ⟨25, _⟩ => ⟨S262144, .f32⟩
  | .hbm, ⟨26, _⟩ => ⟨S262144, .f32⟩
  | .hbm, ⟨27, _⟩ => ⟨S_, .f32⟩
  | .hbm, ⟨28, _⟩ => ⟨S262144, .f32⟩
  | .hbm, ⟨29, _⟩ => ⟨S262144, .f32⟩
  | .hbm, ⟨30, _⟩ => ⟨S262144, .f32⟩
  | .hbm, ⟨31, _⟩ => ⟨S1, .f32⟩
  | .hbm, ⟨32, _⟩ => ⟨S_, .f32⟩
  | .hbm, ⟨33, _⟩ => ⟨S_, .f32⟩
  | .hbm, ⟨34, _⟩ => ⟨S_, .i1⟩
  | .hbm, ⟨35, _⟩ => ⟨S1, .f32⟩
  | .hbm, ⟨36, _⟩ => ⟨S1, .f32⟩
  | .hbm, ⟨37, _⟩ => ⟨S1, .f32⟩
  | .hbm, ⟨38, _⟩ => ⟨S1, .f32⟩
  | .hbm, ⟨39, _⟩ => ⟨S1, .f32⟩
  | .hbm, ⟨40, _⟩ => ⟨S1, .f32⟩
  | .hbm, ⟨41, _⟩ => ⟨S262143, .f32⟩
  | .hbm, ⟨42, _⟩ => ⟨S262144, .f32⟩
  | .hbm, ⟨43, _⟩ => ⟨S1, .f32⟩
  | .hbm, ⟨44, _⟩ => ⟨S_, .f32⟩
  | .hbm, ⟨45, _⟩ => ⟨S262144, .f32⟩
  | .hbm, ⟨46, _⟩ => ⟨S262144, .f32⟩
  | .hbm, ⟨47, _⟩ => ⟨S262144, .f32⟩
  | .hbm, ⟨48, _⟩ => ⟨S_, .f32⟩
  | .hbm, ⟨49, _⟩ => ⟨S262144, .f32⟩
  | .hbm, ⟨50, _⟩ => ⟨S262144, .f32⟩
  | .hbm, ⟨51, _⟩ => ⟨S1x262144, .f32⟩
  | .hbm, ⟨52, _⟩ => ⟨S262144, .f32⟩
  | .hbm, ⟨53, _⟩ => ⟨S1x262144, .f32⟩
  | .hbm, ⟨54, _⟩ => ⟨S262144, .f32⟩
  | .hbm, ⟨55, _⟩ => ⟨S1, .f32⟩
  | .hbm, ⟨56, _⟩ => ⟨S_, .f32⟩
  | .hbm, ⟨57, _⟩ => ⟨S262144, .f32⟩
  | .hbm, ⟨58, _⟩ => ⟨S262144, .f32⟩
  | .hbm, ⟨59, _⟩ => ⟨S262144, .f32⟩
  | .hbm, ⟨60, _⟩ => ⟨S_, .f32⟩
  | .hbm, ⟨61, _⟩ => ⟨S262144, .f32⟩
  | .hbm, ⟨62, _⟩ => ⟨S262144, .f32⟩
  | .hbm, ⟨63, _⟩ => ⟨S262144, .f32⟩
  | .hbm, ⟨64, _⟩ => ⟨S1, .f32⟩
  | .hbm, ⟨65, _⟩ => ⟨S_, .f32⟩
  | .hbm, ⟨66, _⟩ => ⟨S_, .f32⟩
  | .hbm, ⟨67, _⟩ => ⟨S_, .i1⟩
  | .hbm, ⟨68, _⟩ => ⟨S1, .f32⟩
  | .hbm, ⟨69, _⟩ => ⟨S1, .f32⟩
  | .hbm, ⟨70, _⟩ => ⟨S1, .f32⟩
  | .hbm, ⟨71, _⟩ => ⟨S1, .f32⟩
  | .hbm, ⟨72, _⟩ => ⟨S1, .f32⟩
  | .hbm, ⟨73, _⟩ => ⟨S1, .f32⟩
  | .hbm, ⟨74, _⟩ => ⟨S262143, .f32⟩
  | .hbm, ⟨75, _⟩ => ⟨S262144, .f32⟩
  | .hbm, ⟨76, _⟩ => ⟨S1, .f32⟩
  | .hbm, ⟨77, _⟩ => ⟨S_, .f32⟩
  | .hbm, ⟨78, _⟩ => ⟨S262144, .f32⟩
  | .hbm, ⟨79, _⟩ => ⟨S262144, .f32⟩
  | .hbm, ⟨80, _⟩ => ⟨S262144, .f32⟩
  | .hbm, ⟨81, _⟩ => ⟨S_, .f32⟩
  | .hbm, ⟨82, _⟩ => ⟨S262144, .f32⟩
  | .hbm, ⟨83, _⟩ => ⟨S262144, .f32⟩
  | .hbm, ⟨84, _⟩ => ⟨S1x262144, .f32⟩
  | .hbm, ⟨85, _⟩ => ⟨S262144, .f32⟩
  | .hbm, ⟨86, _⟩ => ⟨S1x262144, .f32⟩
  | .hbm, ⟨87, _⟩ => ⟨S262144, .f32⟩
  | .hbm, ⟨88, _⟩ => ⟨S1, .f32⟩
  | .hbm, ⟨89, _⟩ => ⟨S_, .f32⟩
  | .hbm, ⟨90, _⟩ => ⟨S262144, .f32⟩
  | .hbm, ⟨91, _⟩ => ⟨S262144, .f32⟩
  | .hbm, ⟨92, _⟩ => ⟨S262144, .f32⟩
  | .hbm, ⟨93, _⟩ => ⟨S_, .f32⟩
  | .hbm, ⟨94, _⟩ => ⟨S262144, .f32⟩
  | .hbm, ⟨95, _⟩ => ⟨S262144, .f32⟩
  | .hbm, ⟨96, _⟩ => ⟨S262144, .f32⟩
  | .hbm, ⟨97, _⟩ => ⟨S1, .f32⟩
  | .hbm, ⟨98, _⟩ => ⟨S_, .f32⟩
  | .hbm, ⟨99, _⟩ => ⟨S_, .f32⟩
  | .hbm, ⟨100, _⟩ => ⟨S_, .i1⟩
  | .hbm, ⟨101, _⟩ => ⟨S1, .f32⟩
  | .hbm, ⟨102, _⟩ => ⟨S1, .f32⟩
  | .hbm, ⟨103, _⟩ => ⟨S1, .f32⟩
  | .hbm, ⟨104, _⟩ => ⟨S1, .f32⟩
  | .hbm, ⟨105, _⟩ => ⟨S1, .f32⟩
  | .hbm, ⟨106, _⟩ => ⟨S1, .f32⟩
  | .hbm, ⟨107, _⟩ => ⟨S262143, .f32⟩
  | .hbm, ⟨108, _⟩ => ⟨S262144, .f32⟩
  | .hbm, ⟨109, _⟩ => ⟨S1, .f32⟩
  | .hbm, ⟨110, _⟩ => ⟨S_, .f32⟩
  | .hbm, ⟨111, _⟩ => ⟨S262144, .f32⟩
  | .hbm, ⟨112, _⟩ => ⟨S262144, .f32⟩
  | .hbm, ⟨113, _⟩ => ⟨S262144, .f32⟩
  | .hbm, ⟨114, _⟩ => ⟨S_, .f32⟩
  | .hbm, ⟨115, _⟩ => ⟨S262144, .f32⟩
  | .hbm, ⟨116, _⟩ => ⟨S262144, .f32⟩
  | .local _ .vmem, ⟨0, _⟩ => ⟨S1x4096, .f32⟩
  | .local _ .vmem, ⟨1, _⟩ => ⟨S1x4096, .f32⟩
  | .local _ .vmem, ⟨2, _⟩ => ⟨S3x128x1, .f32⟩
  | .local _ .vmem, ⟨3, _⟩ => ⟨S3x128x1, .f32⟩
  | .local _ .vmem, ⟨4, _⟩ => ⟨S3x128x128, .f32⟩
  | .local _ .vmem, ⟨5, _⟩ => ⟨S3x128x1, .f32⟩
  | .local _ .vmem, ⟨6, _⟩ => ⟨S3x128x128, .f32⟩
  | .local _ .vmem, ⟨7, _⟩ => ⟨S3x128x1, .f32⟩
  | .local _ .vmem, ⟨8, _⟩ => ⟨S3x1x128, .f32⟩
  | .local _ .vmem, ⟨9, _⟩ => ⟨S3x1x1, .f32⟩
  | .local _ .vmem, ⟨10, _⟩ => ⟨S3x1x4096, .f32⟩
  | .local _ .vmem, ⟨11, _⟩ => ⟨S3x1x4096, .f32⟩
  | .local _ .vmem, ⟨12, _⟩ => ⟨S3x1x4096, .f32⟩
  | .local _ .vmem, ⟨13, _⟩ => ⟨S3x1x4096, .f32⟩
  | _, _ => ⟨S262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_2 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_3 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_4 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_5 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_6 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_7 : Ref sig .tc := ⟨.hbm, 114, rfl⟩
abbrev main_v96 : Ref sig .tc := ⟨.hbm, 115, rfl⟩
abbrev main_v97 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3x1x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x1x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S262144_S1x262144 : S262144.ShapeCasts S1x262144
  shapeCasts_S3x128_S3x128x1 : S3x128.ShapeCasts S3x128x1
  shapeCasts_S3x1_S3x1x1 : S3x1.ShapeCasts S3x1x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S3x128x1_S1x128x1_0_0_0 : ∀ a, (![0, 0, 0] : Fin 3 → Nat) a + S1x128x1.size a ≤ S3x128x1.size a
  h_S1x128x1 : 0 < S1x128x1.numel
  shapeCasts_S1x128x1_S128x1 : S1x128x1.ShapeCasts S128x1
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x1x128_S1x1x128_0_0_0 : ∀ a, (![0, 0, 0] : Fin 3 → Nat) a + S1x1x128.size a ≤ S3x1x128.size a
  h_S1x1x128 : 0 < S1x1x128.numel
  shapeCasts_S1x1x128_S1x128 : S1x1x128.ShapeCasts S1x128
  inb_S3x1x1_S1x1x1_0_0_0 : ∀ a, (![0, 0, 0] : Fin 3 → Nat) a + S1x1x1.size a ≤ S3x1x1.size a
  h_S1x1x1 : 0 < S1x1x1.numel
  shapeCasts_S1x1x1_S1x1 : S1x1x1.ShapeCasts S1x1
  broadcasts_S128x1_S128x4096 : S128x1.Broadcasts S128x4096
  broadcasts_S1x4096_S128x4096 : S1x4096.Broadcasts S128x4096
  shapeCasts_S128x1_S128x1 : S128x1.ShapeCasts S128x1
  bitsLt_bf16_f32 : FTy.bits .bf16 < FTy.bits .f32
  broadcasts_S1x1_S1x4096 : S1x1.Broadcasts S1x4096
  inb_S3x1x4096_S1x1x4096_0_0_0 : ∀ a, (![0, 0, 0] : Fin 3 → Nat) a + S1x1x4096.size a ≤ S3x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  inb_S3x128x1_S1x128x1_1_0_0 : ∀ a, (![1, 0, 0] : Fin 3 → Nat) a + S1x128x1.size a ≤ S3x128x1.size a
  inb_S3x128x128_S1x128x128_1_0_0 : ∀ a, (![1, 0, 0] : Fin 3 → Nat) a + S1x128x128.size a ≤ S3x128x128.size a
  inb_S3x1x128_S1x1x128_1_0_0 : ∀ a, (![1, 0, 0] : Fin 3 → Nat) a + S1x1x128.size a ≤ S3x1x128.size a
  inb_S3x1x1_S1x1x1_1_0_0 : ∀ a, (![1, 0, 0] : Fin 3 → Nat) a + S1x1x1.size a ≤ S3x1x1.size a
  inb_S3x1x4096_S1x1x4096_1_0_0 : ∀ a, (![1, 0, 0] : Fin 3 → Nat) a + S1x1x4096.size a ≤ S3x1x4096.size a
  inb_S3x128x1_S1x128x1_2_0_0 : ∀ a, (![2, 0, 0] : Fin 3 → Nat) a + S1x128x1.size a ≤ S3x128x1.size a
  inb_S3x128x128_S1x128x128_2_0_0 : ∀ a, (![2, 0, 0] : Fin 3 → Nat) a + S1x128x128.size a ≤ S3x128x128.size a
  inb_S3x1x128_S1x1x128_2_0_0 : ∀ a, (![2, 0, 0] : Fin 3 → Nat) a + S1x1x128.size a ≤ S3x1x128.size a
  inb_S3x1x1_S1x1x1_2_0_0 : ∀ a, (![2, 0, 0] : Fin 3 → Nat) a + S1x1x1.size a ≤ S3x1x1.size a
  inb_S3x1x4096_S1x1x4096_2_0_0 : ∀ a, (![2, 0, 0] : Fin 3 → Nat) a + S1x1x4096.size a ≤ S3x1x4096.size a
  shapeCasts_S3x1x262144_S3x262144 : S3x1x262144.ShapeCasts S3x262144
  slices_S3x262144_S1x262144_0_0 : S3x262144.Slices ![0, 0] S1x262144
  shapeCasts_S1x262144_S262144 : S1x262144.ShapeCasts S262144
  slices_S262144_S1_0 : S262144.Slices ![0] S1
  shapeCasts_S1_S_ : S1.ShapeCasts S_
  bcast_S_S262144 : S_.BroadcastsInDim S262144 (![] : Fin 0 → Fin S262144.rank)
  slices_S262144_S1_1 : S262144.Slices ![1] S1
  bcast_S_S1 : S_.BroadcastsInDim S1 (![] : Fin 0 → Fin S1.rank)
  slices_S262144_S262143_1 : S262144.Slices ![1] S262143
  concatenates_S1_S262143_S262144_d0 : Shape.Concatenates [S1, S262143] S262144 0
  slices_S3x262144_S1x262144_1_0 : S3x262144.Slices ![1, 0] S1x262144
  slices_S3x262144_S1x262144_2_0 : S3x262144.Slices ![2, 0] S1x262144
  dot_S128x128_S128x4096_S128x4096_1_0_0_1_n_n_wf : DotDims.WF S128x128 S128x4096 S128x4096 [1] [0] [0] [1] [] []
  dot_S1x128_S128x4096_S1x4096_1_0_0_1_n_n_wf : DotDims.WF S1x128 S128x4096 S1x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x262144.size a
  hwx0_0 : ∀ i : grid0.Coords, EltTy.bits .f32 = 32 ∨ (Rect.block (s := S1x262144) S1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x1.size a ≤ S3x128x1.size a
  hwx0_1 : ∀ i : grid0.Coords, EltTy.bits .f32 = 32 ∨ (Rect.block (s := S3x128x1) S3x128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x1.size a ≤ S3x128x1.size a
  hwx0_2 : ∀ i : grid0.Coords, EltTy.bits .f32 = 32 ∨ (Rect.block (s := S3x128x1) S3x128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .f32 = 32 ∨ (Rect.block (s := S3x128x128) S3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128x1.size a ≤ S3x128x1.size a
  hwx0_4 : ∀ i : grid0.Coords, EltTy.bits .f32 = 32 ∨ (Rect.block (s := S3x128x1) S3x128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128x128.size a ≤ S3x128x128.size a
  hwx0_5 : ∀ i : grid0.Coords, EltTy.bits .f32 = 32 ∨ (Rect.block (s := S3x128x128) S3x128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x128x1.size a ≤ S3x128x1.size a
  hwx0_6 : ∀ i : grid0.Coords, EltTy.bits .f32 = 32 ∨ (Rect.block (s := S3x128x1) S3x128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x1x128.size a ≤ S3x1x128.size a
  hwx0_7 : ∀ i : grid0.Coords, EltTy.bits .f32 = 32 ∨ (Rect.block (s := S3x1x128) S3x1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x1x1.size a ≤ S3x1x1.size a
  hwx0_8 : ∀ i : grid0.Coords, EltTy.bits .f32 = 32 ∨ (Rect.block (s := S3x1x1) S3x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3x1x4096.size a ≤ S3x1x262144.size a
  hwx0_9 : ∀ i : grid0.Coords, EltTy.bits .f32 = 32 ∨ (Rect.block (s := S3x1x262144) S3x1x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3x1x4096.size a ≤ S3x1x262144.size a
  hwx0_10 : ∀ i : grid0.Coords, EltTy.bits .f32 = 32 ∨ (Rect.block (s := S3x1x262144) S3x1x4096.size (cc0_transform_10 i) (hinb0_10 i)).WholeWords (EltTy.packing .f32)

variable [Facts₀]

def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf
def dot_S1x128_S128x4096_S1x4096_1_0_0_1_n_n : DotDims S1x128 S128x4096 S1x4096 where
  lhsContracting := [1]
  rhsContracting := [0]
  lhsNonContracting := [0]
  rhsNonContracting := [1]
  lhsBatch := []
  rhsBatch := []
  wf := dot_S1x128_S128x4096_S1x4096_1_0_0_1_n_n_wf

abbrev win0_0 : Pipeline.Window sig grid0 :=
  Pipeline.Window.ofSpec (Memref.whole main_v0) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S3x128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S3x128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3x1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S3x1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_0) S3x1x4096.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_1) S3x1x4096.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S262144 : Shape := ⟨1, ![262144]⟩
abbrev S3x128x1 : Shape := ⟨3, ![3, 128, 1]⟩
abbrev S3x128 : Shape := ⟨2, ![3, 128]⟩
abbrev S3x128x128 : Shape := ⟨3, ![3, 128, 128]⟩
abbrev S3x1x128 : Shape := ⟨3, ![3, 1, 128]⟩
abbrev S3x1 : Shape := ⟨2, ![3, 1]⟩
abbrev S_ : Shape := ⟨0, ![]⟩
abbrev S262144x1 : Shape := ⟨2, ![262144, 1]⟩
abbrev S1x262144x1 : Shape := ⟨3, ![1, 262144, 1]⟩
abbrev S3x262144x128 : Shape := ⟨3, ![3, 262144, 128]⟩
abbrev S262144x128 : Shape := ⟨2, ![262144, 128]⟩
abbrev S3x262144x1 : Shape := ⟨3, ![3, 262144, 1]⟩
abbrev S3x1x1 : Shape := ⟨3, ![3, 1, 1]⟩
abbrev S3x262144 : Shape := ⟨2, ![3, 262144]⟩
abbrev S1x262144 : Shape := ⟨2, ![1, 262144]⟩
abbrev S1 : Shape := ⟨1, ![1]⟩
abbrev S262143 : Shape := ⟨1, ![262143]⟩

abbrev nBuf : Space → Nat
  | .hbm => 175
  | .vmem => 0
  | .smem => 0
  | _ => 0

abbrev hbmTy0_0 (i : Nat) : BufTy := match i % 128 with
  | 0 => ⟨S262144, .f32⟩
  | 1 => ⟨S3x128x1, .f32⟩
  | 2 => ⟨S3x128, .f32⟩
  | 3 => ⟨S3x128x128, .f32⟩
  | 4 => ⟨S3x128, .f32⟩
  | 5 => ⟨S3x128x128, .f32⟩
  | 6 => ⟨S3x128, .f32⟩
  | 7 => ⟨S3x1x128, .f32⟩
  | 8 => ⟨S3x1, .f32⟩
  | 9 => ⟨S_, .f32⟩
  | 10 => ⟨S262144, .f32⟩
  | 11 => ⟨S262144x1, .f32⟩
  | 12 => ⟨S262144x1, .f32⟩
  | 13 => ⟨S3x128, .f32⟩
  | 14 => ⟨S3x1x128, .f32⟩
  | 15 => ⟨S1x262144x1, .f32⟩
  | 16 => ⟨S3x262144x128, .f32⟩
  | 17 => ⟨S3x262144x128, .f32⟩
  | 18 => ⟨S3x262144x128, .f32⟩
  | 19 => ⟨S1x262144x1, .f32⟩
  | 20 => ⟨S3x262144x128, .f32⟩
  | 21 => ⟨S3x262144x128, .f32⟩
  | 22 => ⟨S3x262144x128, .f32⟩
  | 23 => ⟨S3x1x128, .f32⟩
  | 24 => ⟨S3x262144x128, .f32⟩
  | 25 => ⟨S3x262144x128, .f32⟩
  | 26 => ⟨S_, .f32⟩
  | 27 => ⟨S3x262144x128, .f32⟩
  | 28 => ⟨S3x262144x128, .f32⟩
  | 29 => ⟨S_, .f32⟩
  | 30 => ⟨S3x262144x128, .f32⟩
  | 31 => ⟨S3x262144x128, .i1⟩
  | 32 => ⟨S_, .f32⟩
  | 33 => ⟨S262144x128, .f32⟩
  | 34 => ⟨S3x262144x128, .f32⟩
  | 35 => ⟨S3x262144x128, .f32⟩
  | 36 => ⟨S3x128x128, .f32⟩
  | 37 => ⟨S3x262144x128, .f32⟩
  | 38 => ⟨S3x262144x128, .f32⟩
  | 39 => ⟨S3x1x128, .f32⟩
  | 40 => ⟨S3x262144x128, .f32⟩
  | 41 => ⟨S3x262144x128, .f32⟩
  | 42 => ⟨S_, .f32⟩
  | 43 => ⟨S3x262144x128, .f32⟩
  | 44 => ⟨S3x262144x128, .f32⟩
  | 45 => ⟨S_, .f32⟩
  | 46 => ⟨S3x262144x128, .f32⟩
  | 47 => ⟨S3x262144x128, .i1⟩
  | 48 => ⟨S_, .f32⟩
  | 49 => ⟨S262144x128, .f32⟩
  | 50 => ⟨S3x262144x128, .f32⟩
  | 51 => ⟨S3x262144x128, .f32⟩
  | 52 => ⟨S3x128x128, .f32⟩
  | 53 => ⟨S3x262144x128, .f32⟩
  | 54 => ⟨S3x262144x128, .f32⟩
  | 55 => ⟨S3x1x128, .f32⟩
  | 56 => ⟨S3x262144x128, .f32⟩
  | 57 => ⟨S3x262144x128, .f32⟩
  | 58 => ⟨S_, .f32⟩
  | 59 => ⟨S3x262144x128, .f32⟩
  | 60 => ⟨S3x262144x128, .f32⟩
  | 61 => ⟨S_, .f32⟩
  | 62 => ⟨S3x262144x128, .f32⟩
  | 63 => ⟨S3x262144x128, .i1⟩
  | 64 => ⟨S_, .f32⟩
  | 65 => ⟨S262144x128, .f32⟩
  | 66 => ⟨S3x262144x128, .f32⟩
  | 67 => ⟨S3x262144x128, .f32⟩
  | 68 => ⟨S3x128x1, .f32⟩
  | 69 => ⟨S3x262144x1, .f32⟩
  | 70 => ⟨S3x262144x1, .f32⟩
  | 71 => ⟨S3x1x1, .f32⟩
  | 72 => ⟨S3x262144x1, .f32⟩
  | 73 => ⟨S3x262144x1, .f32⟩
  | 74 => ⟨S3x262144, .f32⟩
  | 75 => ⟨S3x262144, .f32⟩
  | 76 => ⟨S1x262144, .f32⟩
  | 77 => ⟨S262144, .f32⟩
  | 78 => ⟨S1x262144, .f32⟩
  | 79 => ⟨S262144, .f32⟩
  | 80 => ⟨S1, .f32⟩
  | 81 => ⟨S_, .f32⟩
  | 82 => ⟨S262144, .f32⟩
  | 83 => ⟨S262144, .f32⟩
  | 84 => ⟨S262144, .f32⟩
  | 85 => ⟨S_, .f32⟩
  | 86 => ⟨S262144, .f32⟩
  | 87 => ⟨S262144, .f32⟩
  | 88 => ⟨S262144, .f32⟩
  | 89 => ⟨S1, .f32⟩
  | 90 => ⟨S_, .f32⟩
  | 91 => ⟨S_, .f32⟩
  | 92 => ⟨S_, .i1⟩
  | 93 => ⟨S1, .f32⟩
  | 94 => ⟨S1, .f32⟩
  | 95 => ⟨S1, .f32⟩
  | 96 => ⟨S1, .f32⟩
  | 97 => ⟨S1, .f32⟩
  | 98 => ⟨S1, .f32⟩
  | 99 => ⟨S262143, .f32⟩
  | 100 => ⟨S262144, .f32⟩
  | 101 => ⟨S1, .f32⟩
  | 102 => ⟨S_, .f32⟩
  | 103 => ⟨S262144, .f32⟩
  | 104 => ⟨S262144, .f32⟩
  | 105 => ⟨S262144, .f32⟩
  | 106 => ⟨S_, .f32⟩
  | 107 => ⟨S262144, .f32⟩
  | 108 => ⟨S262144, .f32⟩
  | 109 => ⟨S1x262144, .f32⟩
  | 110 => ⟨S262144, .f32⟩
  | 111 => ⟨S1x262144, .f32⟩
  | 112 => ⟨S262144, .f32⟩
  | 113 => ⟨S1, .f32⟩
  | 114 => ⟨S_, .f32⟩
  | 115 => ⟨S262144, .f32⟩
  | 116 => ⟨S262144, .f32⟩
  | 117 => ⟨S262144, .f32⟩
  | 118 => ⟨S_, .f32⟩
  | 119 => ⟨S262144, .f32⟩
  | 120 => ⟨S262144, .f32⟩
  | 121 => ⟨S262144, .f32⟩
  | 122 => ⟨S1, .f32⟩
  | 123 => ⟨S_, .f32⟩
  | 124 => ⟨S_, .f32⟩
  | 125 => ⟨S_, .i1⟩
  | 126 => ⟨S1, .f32⟩
  | 127 => ⟨S1, .f32⟩
  | _ => ⟨S262144, .f32⟩

abbrev hbmTy0_1 (i : Nat) : BufTy := match i % 128 with
  | 0 => ⟨S1, .f32⟩
  | 1 => ⟨S1, .f32⟩
  | 2 => ⟨S1, .f32⟩
  | 3 => ⟨S1, .f32⟩
  | 4 => ⟨S262143, .f32⟩
  | 5 => ⟨S262144, .f32⟩
  | 6 => ⟨S1, .f32⟩
  | 7 => ⟨S_, .f32⟩
  | 8 => ⟨S262144, .f32⟩
  | 9 => ⟨S262144, .f32⟩
  | 10 => ⟨S262144, .f32⟩
  | 11 => ⟨S_, .f32⟩
  | 12 => ⟨S262144, .f32⟩
  | 13 => ⟨S262144, .f32⟩
  | 14 => ⟨S1x262144, .f32⟩
  | 15 => ⟨S262144, .f32⟩
  | 16 => ⟨S1x262144, .f32⟩
  | 17 => ⟨S262144, .f32⟩
  | 18 => ⟨S1, .f32⟩
  | 19 => ⟨S_, .f32⟩
  | 20 => ⟨S262144, .f32⟩
  | 21 => ⟨S262144, .f32⟩
  | 22 => ⟨S262144, .f32⟩
  | 23 => ⟨S_, .f32⟩
  | 24 => ⟨S262144, .f32⟩
  | 25 => ⟨S262144, .f32⟩
  | 26 => ⟨S262144, .f32⟩
  | 27 => ⟨S1, .f32⟩
  | 28 => ⟨S_, .f32⟩
  | 29 => ⟨S_, .f32⟩
  | 30 => ⟨S_, .i1⟩
  | 31 => ⟨S1, .f32⟩
  | 32 => ⟨S1, .f32⟩
  | 33 => ⟨S1, .f32⟩
  | 34 => ⟨S1, .f32⟩
  | 35 => ⟨S1, .f32⟩
  | 36 => ⟨S1, .f32⟩
  | 37 => ⟨S262143, .f32⟩
  | 38 => ⟨S262144, .f32⟩
  | 39 => ⟨S1, .f32⟩
  | 40 => ⟨S_, .f32⟩
  | 41 => ⟨S262144, .f32⟩
  | 42 => ⟨S262144, .f32⟩
  | 43 => ⟨S262144, .f32⟩
  | 44 => ⟨S_, .f32⟩
  | 45 => ⟨S262144, .f32⟩
  | 46 => ⟨S262144, .f32⟩
  | _ => ⟨S262144, .f32⟩

abbrev hbmTy (i : Nat) : BufTy := match i / 128 with
  | 0 => hbmTy0_0 i
  | 1 => hbmTy0_1 i
  | _ => ⟨S262144, .f32⟩

abbrev bufTy : (tb : Table) → Fin (tcTables nBuf tb) → BufTy
  | .hbm, ⟨i, _⟩ => hbmTy i
  | _, _ => ⟨S262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_cst : Ref sig .tc := ⟨.hbm, 42, rfl⟩
abbrev main_call1_v0 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call2_cst : Ref sig .tc := ⟨.hbm, 58, rfl⟩
abbrev main_call2_v0 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_8 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_9 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_10 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_11 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_cst_12 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_13 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_cst_14 : Ref sig .tc := ⟨.hbm, 172, rfl⟩
abbrev main_v142 : Ref sig .tc := ⟨.hbm, 173, rfl⟩
abbrev main_v143 : Ref sig .tc := ⟨.hbm, 174, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  shapeCasts_S3x128x1_S3x128 : S3x128x1.ShapeCasts S3x128
  bcast_S3x128_S3x1x128_0_2 : S3x128.BroadcastsInDim S3x1x128 (![0, 2] : Fin 2 → Fin S3x1x128.rank)
  bcast_S262144x1_S1x262144x1_1_2 : S262144x1.BroadcastsInDim S1x262144x1 (![1, 2] : Fin 2 → Fin S1x262144x1.rank)
  bcast_S1x262144x1_S3x262144x128_0_1_2 : S1x262144x1.BroadcastsInDim S3x262144x128 (![0, 1, 2] : Fin 3 → Fin S3x262144x128.rank)
  bcast_S3x1x128_S3x262144x128_0_1_2 : S3x1x128.BroadcastsInDim S3x262144x128 (![0, 1, 2] : Fin 3 → Fin S3x262144x128.rank)
  bcast_S_S3x262144x128 : S_.BroadcastsInDim S3x262144x128 (![] : Fin 0 → Fin S3x262144x128.rank)
  bcast_S_S262144x128 : S_.BroadcastsInDim S262144x128 (![] : Fin 0 → Fin S262144x128.rank)
  bcast_S262144x128_S3x262144x128_1_2 : S262144x128.BroadcastsInDim S3x262144x128 (![1, 2] : Fin 2 → Fin S3x262144x128.rank)
  transposes_S3x128x128_S3x128x128_0_2_1 : S3x128x128.Transposes [0, 2, 1] S3x128x128
  transposes_S3x1x128_S3x128x1_0_2_1 : S3x1x128.Transposes [0, 2, 1] S3x128x1
  bcast_S3x1_S3x1x1_0_2 : S3x1.BroadcastsInDim S3x1x1 (![0, 2] : Fin 2 → Fin S3x1x1.rank)
  bcast_S3x1x1_S3x262144x1_0_1_2 : S3x1x1.BroadcastsInDim S3x262144x1 (![0, 1, 2] : Fin 3 → Fin S3x262144x1.rank)
  shapeCasts_S3x262144x1_S3x262144 : S3x262144x1.ShapeCasts S3x262144
  slices_S3x262144_S1x262144_0_0 : S3x262144.Slices ![0, 0] S1x262144
  shapeCasts_S1x262144_S262144 : S1x262144.ShapeCasts S262144
  slices_S262144_S1_0 : S262144.Slices ![0] S1
  shapeCasts_S1_S_ : S1.ShapeCasts S_
  slices_S262144_S1_1 : S262144.Slices ![1] S1
  bcast_S_S1 : S_.BroadcastsInDim S1 (![] : Fin 0 → Fin S1.rank)
  slices_S262144_S262143_1 : S262144.Slices ![1] S262143
  concatenates_S1_S262143_S262144_d0 : Shape.Concatenates [S1, S262143] S262144 0
  slices_S3x262144_S1x262144_1_0 : S3x262144.Slices ![1, 0] S1x262144
  slices_S3x262144_S1x262144_2_0 : S3x262144.Slices ![2, 0] S1x262144
  dot_S3x262144x128_S3x128x128_S3x262144x128_2_1_1_2_0_0_wf : DotDims.WF S3x262144x128 S3x128x128 S3x262144x128 [2] [1] [1] [2] [0] [0]
  dot_S3x262144x128_S3x128x1_S3x262144x1_2_1_1_2_0_0_wf : DotDims.WF S3x262144x128 S3x128x1 S3x262144x1 [2] [1] [1] [2] [0] [0]

variable [Facts₀]

def dot_S3x262144x128_S3x128x128_S3x262144x128_2_1_1_2_0_0 : DotDims S3x262144x128 S3x128x128 S3x262144x128 where
  lhsContracting := [2]
  rhsContracting := [1]
  lhsNonContracting := [1]
  rhsNonContracting := [2]
  lhsBatch := [0]
  rhsBatch := [0]
  wf := dot_S3x262144x128_S3x128x128_S3x262144x128_2_1_1_2_0_0_wf
def dot_S3x262144x128_S3x128x1_S3x262144x1_2_1_1_2_0_0 : DotDims S3x262144x128 S3x128x1 S3x262144x1 where
  lhsContracting := [2]
  rhsContracting := [1]
  lhsNonContracting := [1]
  rhsNonContracting := [2]
  lhsBatch := [0]
  rhsBatch := [0]
  wf := dot_S3x262144x128_S3x128x1_S3x262144x1_2_1_1_2_0_0_wf

class Facts : Prop extends Facts₀ where

variable [Facts]
-- ==== Proof.KernelOuts.lean ====
/-
  What one grid point's body leaves in the two output blocks, as pure functions of the nine input blocks.

  A point holds 4096 consecutive inputs `t` (the block of window 0) and all weights (windows 1–8, whole arrays).
  For each of the three branches `b` the body loads row `b` of every weight array, runs the four layers on the whole
  block, and stores the branch's value row into row `b` of the first output block and its derivative row into row
  `b` of the second. The three rows tile an output block, so after the body each output block is the join of its
  three stored rows, whatever it held before.
-/
import proofs.«123856_j84945863180832_2_alg».proof.Proof.Gen.Kernel.Skeleton
import Idealize.ShloMosaic.Lib.Pipeline.FrameBody

set_option maxRecDepth 16384

noncomputable section

namespace Cert.Kernel.Hand

open Cert.Kernel Cert.Kernel.Gen
open Idealize.ShloMosaic Idealize.ShloMosaic.TcCoe

variable {F : FTy → Type} [FloatOps F]

/-! ## The rows the body loads and stores -/

/-- The whole block of inputs. -/
abbrev rT : Rect S1x4096 := Rect.unit (s := S1x4096) ![0, 0] S1x4096.size inb_S1x4096_S1x4096_0_0
/-- Row `b` of a [3,128,1] array (a first-layer weight column or a bias column). -/
abbrev rA0 : Rect S3x128x1 := Rect.unit (s := S3x128x1) ![0, 0, 0] S1x128x1.size inb_S3x128x1_S1x128x1_0_0_0
abbrev rA1 : Rect S3x128x1 := Rect.unit (s := S3x128x1) ![1, 0, 0] S1x128x1.size inb_S3x128x1_S1x128x1_1_0_0
abbrev rA2 : Rect S3x128x1 := Rect.unit (s := S3x128x1) ![2, 0, 0] S1x128x1.size inb_S3x128x1_S1x128x1_2_0_0
/-- Row `b` of a [3,128,128] weight array. -/
abbrev rB0 : Rect S3x128x128 := Rect.unit (s := S3x128x128) ![0, 0, 0] S1x128x128.size inb_S3x128x128_S1x128x128_0_0_0
abbrev rB1 : Rect S3x128x128 := Rect.unit (s := S3x128x128) ![1, 0, 0] S1x128x128.size inb_S3x128x128_S1x128x128_1_0_0
abbrev rB2 : Rect S3x128x128 := Rect.unit (s := S3x128x128) ![2, 0, 0] S1x128x128.size inb_S3x128x128_S1x128x128_2_0_0
/-- Row `b` of the last layer's [3,1,128] weights. -/
abbrev rC0 : Rect S3x1x128 := Rect.unit (s := S3x1x128) ![0, 0, 0] S1x1x128.size inb_S3x1x128_S1x1x128_0_0_0
abbrev rC1 : Rect S3x1x128 := Rect.unit (s := S3x1x128) ![1, 0, 0] S1x1x128.size inb_S3x1x128_S1x1x128_1_0_0
abbrev rC2 : Rect S3x1x128 := Rect.unit (s := S3x1x128) ![2, 0, 0] S1x1x128.size inb_S3x1x128_S1x1x128_2_0_0
/-- Row `b` of the last layer's [3,1,1] bias. -/
abbrev rD0 : Rect S3x1x1 := Rect.unit (s := S3x1x1) ![0, 0, 0] S1x1x1.size inb_S3x1x1_S1x1x1_0_0_0
abbrev rD1 : Rect S3x1x1 := Rect.unit (s := S3x1x1) ![1, 0, 0] S1x1x1.size inb_S3x1x1_S1x1x1_1_0_0
abbrev rD2 : Rect S3x1x1 := Rect.unit (s := S3x1x1) ![2, 0, 0] S1x1x1.size inb_S3x1x1_S1x1x1_2_0_0
/-- Row `b` of an output block [3,1,4096]. -/
abbrev rO0 : Rect S3x1x4096 := Rect.unit (s := S3x1x4096) ![0, 0, 0] S1x1x4096.size inb_S3x1x4096_S1x1x4096_0_0_0
abbrev rO1 : Rect S3x1x4096 := Rect.unit (s := S3x1x4096) ![1, 0, 0] S1x1x4096.size inb_S3x1x4096_S1x1x4096_1_0_0
abbrev rO2 : Rect S3x1x4096 := Rect.unit (s := S3x1x4096) ![2, 0, 0] S1x1x4096.size inb_S3x1x4096_S1x1x4096_2_0_0

/-! ## Each branch's two stored rows from the rows it loaded

`t` is the input block; `w1 c1 W2 c2 W3 c3 w4 c4` are the branch's rows of the eight weight arrays. The three branches
are the same network; the body's text groups their operations differently, hence three spellings. -/

def val0 (t : Vec F S1x4096 .f32) (w1 c1 : Vec F S1x128x1 .f32) (W2 : Vec F S1x128x128 .f32) (c2 : Vec F S1x128x1 .f32)
    (W3 : Vec F S1x128x128 .f32) (c3 : Vec F S1x128x1 .f32) (w4 : Vec F S1x1x128 .f32) (c4 : Vec F S1x1x1 .f32) : FVec F S1x1x4096 .f32 :=
  k0_pay19 (k0_pay6 W2) (k0_pay7 c2) (k0_pay8 W3) (k0_pay9 c3) (k0_pay10 w4) (k0_pay11 c4) (k0_pay14 t w1 c1)

def tan0 (t : Vec F S1x4096 .f32) (w1 c1 : Vec F S1x128x1 .f32) (W2 : Vec F S1x128x128 .f32) (c2 : Vec F S1x128x1 .f32)
    (W3 : Vec F S1x128x128 .f32) (c3 : Vec F S1x128x1 .f32) (w4 : Vec F S1x1x128 .f32) : FVec F S1x1x4096 .f32 :=
  k0_pay20 (k0_pay6 W2) (k0_pay7 c2) (k0_pay8 W3) (k0_pay9 c3) (k0_pay10 w4) (k0_pay13 t w1 c1) (k0_pay14 t w1 c1) (k0_pay15 w1) (k0_pay16 (F := F))

def val1 (t : Vec F S1x4096 .f32) (w1 c1 : Vec F S1x128x1 .f32) (W2 : Vec F S1x128x128 .f32) (c2 : Vec F S1x128x1 .f32)
    (W3 : Vec F S1x128x128 .f32) (c3 : Vec F S1x128x1 .f32) (w4 : Vec F S1x1x128 .f32) (c4 : Vec F S1x1x1 .f32) : FVec F S1x1x4096 .f32 :=
  k0_pay32 (k0_pay23 W3) (k0_pay24 c3) (k0_pay25 w4) (k0_pay26 c4) (k0_pay30 (k0_pay4 t) w1 c1 W2 c2)

def tan1 (t : Vec F S1x4096 .f32) (w1 c1 : Vec F S1x128x1 .f32) (W2 : Vec F S1x128x128 .f32) (c2 : Vec F S1x128x1 .f32)
    (W3 : Vec F S1x128x128 .f32) (c3 : Vec F S1x128x1 .f32) (w4 : Vec F S1x1x128 .f32) : FVec F S1x1x4096 .f32 :=
  k0_pay33 (k0_pay23 W3) (k0_pay24 c3) (k0_pay25 w4) (k0_pay28 (k0_pay4 t) w1 c1) (k0_pay29 W2) (k0_pay30 (k0_pay4 t) w1 c1 W2 c2) (Scalar.ofBits .f32 0x00000000#32)

def val2 (t : Vec F S1x4096 .f32) (w1 c1 : Vec F S1x128x1 .f32) (W2 : Vec F S1x128x128 .f32) (c2 : Vec F S1x128x1 .f32)
    (W3 : Vec F S1x128x128 .f32) (c3 : Vec F S1x128x1 .f32) (w4 : Vec F S1x1x128 .f32) (c4 : Vec F S1x1x1 .f32) : FVec F S1x1x4096 .f32 :=
  k0_pay2 (k0_pay37 W3) (k0_pay38 c3) (k0_pay39 w4) (k0_pay40 c4) (k0_pay44 (k0_pay4 t) (k0_pay34 w1) (k0_pay35 c1) W2 c2)

def tan2 (t : Vec F S1x4096 .f32) (w1 c1 : Vec F S1x128x1 .f32) (W2 : Vec F S1x128x128 .f32) (c2 : Vec F S1x128x1 .f32)
    (W3 : Vec F S1x128x128 .f32) (c3 : Vec F S1x128x1 .f32) (w4 : Vec F S1x1x128 .f32) : FVec F S1x1x4096 .f32 :=
  k0_pay3 (k0_pay37 W3) (k0_pay38 c3) (k0_pay39 w4) (k0_pay43 (k0_pay4 t) (k0_pay34 w1) (k0_pay35 c1) W2 c2)
    (k0_pay44 (k0_pay4 t) (k0_pay34 w1) (k0_pay35 c1) W2 c2) (k0_pay45 (k0_pay4 t) (k0_pay34 w1) (k0_pay35 c1) W2) (Scalar.ofBits .f32 0x00000000#32)

/-! ## The output blocks after the body -/

/-- The values' block: its three rows, the last stored first. -/
def out9 (x0 : Vec F S1x4096 .f32) (x1 x2 : Vec F S3x128x1 .f32) (x3 : Vec F S3x128x128 .f32) (x4 : Vec F S3x128x1 .f32)
    (x5 : Vec F S3x128x128 .f32) (x6 : Vec F S3x128x1 .f32) (x7 : Vec F S3x1x128 .f32) (x8 : Vec F S3x1x1 .f32) : Vec F S3x1x4096 .f32 :=
  View.canon [
    ⟨rO2, val2 (View.ld x0 rT) (View.ld x1 rA2) (View.ld x2 rA2) (View.ld x3 rB2) (View.ld x4 rA2) (View.ld x5 rB2) (View.ld x6 rA2) (View.ld x7 rC2) (View.ld x8 rD2)⟩,
    ⟨rO1, val1 (View.ld x0 rT) (View.ld x1 rA1) (View.ld x2 rA1) (View.ld x3 rB1) (View.ld x4 rA1) (View.ld x5 rB1) (View.ld x6 rA1) (View.ld x7 rC1) (View.ld x8 rD1)⟩,
    ⟨rO0, val0 (View.ld x0 rT) (View.ld x1 rA0) (View.ld x2 rA0) (View.ld x3 rB0) (View.ld x4 rA0) (View.ld x5 rB0) (View.ld x6 rA0) (View.ld x7 rC0) (View.ld x8 rD0)⟩]

/-- The derivatives' block. -/
def out10 (x0 : Vec F S1x4096 .f32) (x1 x2 : Vec F S3x128x1 .f32) (x3 : Vec F S3x128x128 .f32) (x4 : Vec F S3x128x1 .f32)
    (x5 : Vec F S3x128x128 .f32) (x6 : Vec F S3x128x1 .f32) (x7 : Vec F S3x1x128 .f32) : Vec F S3x1x4096 .f32 :=
  View.canon [
    ⟨rO2, tan2 (View.ld x0 rT) (View.ld x1 rA2) (View.ld x2 rA2) (View.ld x3 rB2) (View.ld x4 rA2) (View.ld x5 rB2) (View.ld x6 rA2) (View.ld x7 rC2)⟩,
    ⟨rO1, tan1 (View.ld x0 rT) (View.ld x1 rA1) (View.ld x2 rA1) (View.ld x3 rB1) (View.ld x4 rA1) (View.ld x5 rB1) (View.ld x6 rA1) (View.ld x7 rC1)⟩,
    ⟨rO0, tan0 (View.ld x0 rT) (View.ld x1 rA0) (View.ld x2 rA0) (View.ld x3 rB0) (View.ld x4 rA0) (View.ld x5 rB0) (View.ld x6 rA0) (View.ld x7 rC0)⟩]

/-- The three rows tile an output block, so together they cover it. -/
theorem cover3 (p0 p1 p2 : Vec F S1x1x4096 .f32) (y : S3x1x4096.Idx) :
    ∃ pc ∈ ([⟨rO2, p2⟩, ⟨rO1, p1⟩, ⟨rO0, p0⟩] : List (View.Piece (Elt F) S3x1x4096 .f32)), y ∈ pc.1.set :=
  View.cover_of_tiled [⟨rO2, p2⟩, ⟨rO1, p1⟩, ⟨rO0, p0⟩] S1x1x4096.size (by rfl) y

end Cert.Kernel.Hand

end
-- ==== Proof.KernelFrame.lean ====
/-
  The frame of @main: the five reshapes before the one pallas_call region, the region over its 64 grid points, and
  the 101 host operations after it.

  Per grid point the body reads its nine input blocks and writes the two output blocks whole (three rows each), so
  what the region leaves in every staging buffer is a function of the arrays as the region found them. The
  operations after the region write only their own result buffers — none of them an argument of @main, none an
  array the region stages — so the arguments end as they were launched.
-/
import proofs.«123856_j84945863180832_2_alg».proof.Proof.Gen.Kernel.Launch
import proofs.«123856_j84945863180832_2_alg».proof.Proof.Gen.Kernel.Skeleton
import proofs.«123856_j84945863180832_2_alg».proof.Proof.Gen.Kernel.Points
import proofs.«123856_j84945863180832_2_alg».proof.Proof.KernelOuts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations after the region, in order. -/
abbrev tailOps : List (List (HloOp τ sig (Elt F))) :=
  [hostOps1, hostOps1_1, hostOps1_2, hostOps1_3, hostOps1_4, hostOps1_5, hostOps1_6]

/-- Core `c`'s buffer contents when the region is entered: the launch contents after the five reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the reshapes, the region, then the later operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every buffer an operation after the region writes: the operations' own results. -/
abbrev tailW : List (Ref sig .tc) :=
  [main_v6, main_v7, main_v8, main_v9, main_v10, main_v11, main_v12, main_v13, main_v14, main_v15, main_v16, main_cst, main_v17, main_v18, main_v19, main_v20, main_v21, main_cst_0, main_v22, main_v23, main_v24, main_v25, main_v26, main_v27, main_v28, main_v29, main_v30, main_v31, main_v32, main_v33, main_v34, main_v35, main_cst_1, main_v36, main_v37, main_v38, main_v39, main_v40, main_v41, main_v42, main_v43, main_v44, main_v45, main_v46, main_cst_2, main_v47, main_v48, main_v49, main_v50, main_v51, main_cst_3, main_v52, main_v53, main_v54, main_v55, main_v56, main_v57, main_v58, main_v59, main_v60, main_v61, main_v62, main_v63, main_v64, main_v65, main_cst_4, main_v66, main_v67, main_v68, main_v69, main_v70, main_v71, main_v72, main_v73, main_v74, main_v75, main_v76, main_cst_5, main_v77, main_v78, main_v79, main_v80, main_v81, main_cst_6, main_v82, main_v83, main_v84, main_v85, main_v86, main_v87, main_v88, main_v89, main_v90, main_v91, main_v92, main_v93, main_v94, main_v95, main_cst_7, main_v96, main_v97]

theorem singleton_sub_tailW {y : Ref sig .tc} (h : y ∈ tailW) :
    ({Proc.devRef (τ := τ) .tc y} : Finset (DevRef τ sig)) ⊆ (tailW.map (Proc.devRef (τ := τ) .tc)).toFinset :=
  Finset.singleton_subset_iff.mpr (List.mem_toFinset.mpr (List.mem_map_of_mem h))

theorem hostOps1_writes : (hostOps1 : List (HloOp τ sig (Elt F))).Forall fun op => op.writes ⊆ (tailW.map (Proc.devRef (τ := τ) .tc)).toFinset := by
  simp only [List.Forall]
  repeat' apply And.intro
  all_goals exact singleton_sub_tailW (by decide)
theorem hostOps1_1_writes : (hostOps1_1 : List (HloOp τ sig (Elt F))).Forall fun op => op.writes ⊆ (tailW.map (Proc.devRef (τ := τ) .tc)).toFinset := by
  simp only [List.Forall]
  repeat' apply And.intro
  all_goals exact singleton_sub_tailW (by decide)
theorem hostOps1_2_writes : (hostOps1_2 : List (HloOp τ sig (Elt F))).Forall fun op => op.writes ⊆ (tailW.map (Proc.devRef (τ := τ) .tc)).toFinset := by
  simp only [List.Forall]
  repeat' apply And.intro
  all_goals exact singleton_sub_tailW (by decide)
theorem hostOps1_3_writes : (hostOps1_3 : List (HloOp τ sig (Elt F))).Forall fun op => op.writes ⊆ (tailW.map (Proc.devRef (τ := τ) .tc)).toFinset := by
  simp only [List.Forall]
  repeat' apply And.intro
  all_goals exact singleton_sub_tailW (by decide)
theorem hostOps1_4_writes : (hostOps1_4 : List (HloOp τ sig (Elt F))).Forall fun op => op.writes ⊆ (tailW.map (Proc.devRef (τ := τ) .tc)).toFinset := by
  simp only [List.Forall]
  repeat' apply And.intro
  all_goals exact singleton_sub_tailW (by decide)
theorem hostOps1_5_writes : (hostOps1_5 : List (HloOp τ sig (Elt F))).Forall fun op => op.writes ⊆ (tailW.map (Proc.devRef (τ := τ) .tc)).toFinset := by
  simp only [List.Forall]
  repeat' apply And.intro
  all_goals exact singleton_sub_tailW (by decide)
theorem hostOps1_6_writes : (hostOps1_6 : List (HloOp τ sig (Elt F))).Forall fun op => op.writes ⊆ (tailW.map (Proc.devRef (τ := τ) .tc)).toFinset := by
  simp only [List.Forall]
  repeat' apply And.intro
  all_goals exact singleton_sub_tailW (by decide)

/-- Each operation after the region writes only buffers of `tailW`. -/
theorem tail_writes : ∀ ops ∈ (tailOps : List (List (HloOp τ sig (Elt F)))), ∀ op ∈ ops,
    op.writes ⊆ (tailW.map (Proc.devRef (τ := τ) .tc)).toFinset := by
  intro ops hops op hop
  simp only [List.mem_cons, List.mem_nil_iff, or_false] at hops
  rcases hops with rfl | rfl | rfl | rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop
  · exact (List.forall_iff_forall_mem.mp hostOps1_4_writes) op hop
  · exact (List.forall_iff_forall_mem.mp hostOps1_5_writes) op hop
  · exact (List.forall_iff_forall_mem.mp hostOps1_6_writes) op hop

/-- A reference outside `tailW` is written by no operation after the region. -/
theorem not_written {r : Ref sig .tc} (hr : r ∉ tailW) : ∀ ops ∈ (tailOps : List (List (HloOp τ sig (Elt F)))), ∀ op ∈ ops,
    Proc.devRef (τ := τ) .tc r ∉ op.writes := by
  intro ops hops op hop hb
  obtain ⟨y, hy, he⟩ := List.mem_map.mp (List.mem_toFinset.mp (tail_writes ops hops op hop hb))
  exact hr (Proc.devRef_injective _ he ▸ hy)

/-- The operations after the region touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- And write no array the region stages. -/
theorem sfx_keeps : ∀ ops ∈ (tailOps : List (List (HloOp τ sig (Elt F)))), ∀ op ∈ ops,
    ∀ w, Proc.devRef .tc (Pipeline.arrRef spec0 w) ∉ op.writes := by
  intro ops hops op hop w
  exact not_written ((by decide : ∀ w : Fin 11, Pipeline.arrRef spec0 w ∉ tailW) w) ops hops op hop

/-- No reshape before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- An argument no window stages ends, after the later operations, as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact not_written (by decide : main_arg0 ∉ tailW) ops hops op hop'),
    Pipeline.withArrays_of_ne _ c (V0 m c) _ main_arg0 (by exact (by decide : ∀ w, Pipeline.arrRef spec0 w ≠ main_arg0))]
  exact V_main_arg0 m c
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (fun op hop => by
      obtain ⟨ops, hops, hop'⟩ := List.mem_flatten.mp hop
      exact not_written (by decide : main_arg2 ∉ tailW) ops hops op hop'),
    Pipeline.withArrays_of_ne _ c (V0 m c) _ main_arg2 (by exact (by decide : ∀ w, Pipeline.arrRef spec0 w ≠ main_arg2))]
  exact V_main_arg2 m c
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (fun op hop => by
      obtain ⟨ops, hops, hop'⟩ := List.mem_flatten.mp hop
      exact not_written (by decide : main_arg4 ∉ tailW) ops hops op hop'),
    Pipeline.withArrays_of_ne _ c (V0 m c) _ main_arg4 (by exact (by decide : ∀ w, Pipeline.arrRef spec0 w ≠ main_arg4))]
  exact V_main_arg4 m c
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (fun op hop => by
      obtain ⟨ops, hops, hop'⟩ := List.mem_flatten.mp hop
      exact not_written (by decide : main_arg6 ∉ tailW) ops hops op hop'),
    Pipeline.withArrays_of_ne _ c (V0 m c) _ main_arg6 (by exact (by decide : ∀ w, Pipeline.arrRef spec0 w ≠ main_arg6))]
  exact V_main_arg6 m c
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) := by
  unfold Pipeline.afterTail₀
  rw [StableHlo.after_of_forall_not_mem (b := Proc.devRef .tc main_arg8) _ _ (fun op hop => by
      obtain ⟨ops, hops, hop'⟩ := List.mem_flatten.mp hop
      exact not_written (by decide : main_arg8 ∉ tailW) ops hops op hop'),
    Pipeline.withArrays_of_ne _ c (V0 m c) _ main_arg8 (by exact (by decide : ∀ w, Pipeline.arrRef spec0 w ≠ main_arg8))]
  exact V_main_arg8 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).1 1).trans (((dats 0 c).arrAt_in 1 rfl _).trans ((hA c 1).trans (V_main_arg1 m c))),
      ((h c).2 main_arg2 (Pipeline.mem_restRefs_of main_arg2 (by decide) (by decide))).trans (W_main_arg2 m dats c),
      ((h c).1 3).trans (((dats 0 c).arrAt_in 3 rfl _).trans ((hA c 3).trans (V_main_arg3 m c))),
      ((h c).2 main_arg4 (Pipeline.mem_restRefs_of main_arg4 (by decide) (by decide))).trans (W_main_arg4 m dats c),
      ((h c).1 5).trans (((dats 0 c).arrAt_in 5 rfl _).trans ((hA c 5).trans (V_main_arg5 m c))),
      ((h c).2 main_arg6 (Pipeline.mem_restRefs_of main_arg6 (by decide) (by decide))).trans (W_main_arg6 m dats c),
      ((h c).1 7).trans (((dats 0 c).arrAt_in 7 rfl _).trans ((hA c 7).trans (V_main_arg7 m c))),
      ((h c).2 main_arg8 (Pipeline.mem_restRefs_of main_arg8 (by decide) (by decide))).trans (W_main_arg8 m dats c)⟩) h

/-! ## The body's triple -/

set_option maxHeartbeats 4000000 in
/-- The body on whole staging memrefs, the inputs' at read contents `xW` and the outputs' at anything, runs to the
    continuation holding the inputs' as they were and each output's at its three stored rows. -/
theorem sound_kernel (c : Dev nD) (E : Set ℕ) (i : grid0.Coords)
    (arg1 : Memref sig .tc .vmem S1x4096 .f32) (harg1 : arg1.IsWhole) (arg2 : Memref sig .tc .vmem S3x128x1 .f32) (harg2 : arg2.IsWhole) (arg3 : Memref sig .tc .vmem S3x128x1 .f32) (harg3 : arg3.IsWhole) (arg4 : Memref sig .tc .vmem S3x128x128 .f32) (harg4 : arg4.IsWhole) (arg5 : Memref sig .tc .vmem S3x128x1 .f32) (harg5 : arg5.IsWhole) (arg6 : Memref sig .tc .vmem S3x128x128 .f32) (harg6 : arg6.IsWhole) (arg7 : Memref sig .tc .vmem S3x128x1 .f32) (harg7 : arg7.IsWhole) (arg8 : Memref sig .tc .vmem S3x1x128 .f32) (harg8 : arg8.IsWhole) (arg9 : Memref sig .tc .vmem S3x1x1 .f32) (harg9 : arg9.IsWhole)
    (arg10 : Memref sig .tc .vmem S3x1x4096 .f32) (harg10 : arg10.IsWhole) (arg11 : Memref sig .tc .vmem S3x1x4096 .f32) (harg11 : arg11.IsWhole)
    (x0 : Vec F S1x4096 .f32) (x1 : Vec F S3x128x1 .f32) (x2 : Vec F S3x128x1 .f32) (x3 : Vec F S3x128x128 .f32) (x4 : Vec F S3x128x1 .f32) (x5 : Vec F S3x128x128 .f32) (x6 : Vec F S3x128x1 .f32) (x7 : Vec F S3x1x128 .f32) (x8 : Vec F S3x1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out9 x0 x1 x2 x3 x4 x5 x6 x7 x8)
            ∗ owns (c : Thread nD τ) arg11 fullShare (out10 x0 x1 x2 x3 x4 x5 x6 x7)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    unfold out9
    exact View.read_writes_eq_canon _ _ _ (cover3 _ _ _)
  iexists _; isplitr
  swap; · iexact H10
  ipureintro
  unfold out10
  exact View.read_writes_eq_canon _ _ _ (cover3 _ _ _)

/-! ## The pipeline's proof data -/

/-- The proof data on core `c`: the arrays as the region finds them; after the body at point `t` each input's
    buffer at its block and each output's at its three stored rows; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
    | ⟨10, _⟩ => out10 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every staged array ending at what the proof data computes and
    every other unscoped buffer as the later operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.KernelIdealOuts.lean ====
/-
  What one grid point's body leaves in the two output blocks, as pure functions of the nine input blocks.

  A point holds 4096 consecutive inputs `t` (the block of window 0) and all weights (windows 1–8, whole arrays).
  For each of the three branches `b` the body loads row `b` of every weight array, runs the four layers on the whole
  block, and stores the branch's value row into row `b` of the first output block and its derivative row into row
  `b` of the second. The three rows tile an output block, so after the body each output block is the join of its
  three stored rows, whatever it held before.
-/
import proofs.«123856_j84945863180832_2_alg».proof.Proof.Gen.KernelIdeal.Skeleton
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The rows the body loads and stores -/

/-- The whole block of inputs. -/
abbrev rT : Rect S1x4096 := Rect.unit (s := S1x4096) ![0, 0] S1x4096.size inb_S1x4096_S1x4096_0_0
/-- Row `b` of a [3,128,1] array (a first-layer weight column or a bias column). -/
abbrev rA0 : Rect S3x128x1 := Rect.unit (s := S3x128x1) ![0, 0, 0] S1x128x1.size inb_S3x128x1_S1x128x1_0_0_0
abbrev rA1 : Rect S3x128x1 := Rect.unit (s := S3x128x1) ![1, 0, 0] S1x128x1.size inb_S3x128x1_S1x128x1_1_0_0
abbrev rA2 : Rect S3x128x1 := Rect.unit (s := S3x128x1) ![2, 0, 0] S1x128x1.size inb_S3x128x1_S1x128x1_2_0_0
/-- Row `b` of a [3,128,128] weight array. -/
abbrev rB0 : Rect S3x128x128 := Rect.unit (s := S3x128x128) ![0, 0, 0] S1x128x128.size inb_S3x128x128_S1x128x128_0_0_0
abbrev rB1 : Rect S3x128x128 := Rect.unit (s := S3x128x128) ![1, 0, 0] S1x128x128.size inb_S3x128x128_S1x128x128_1_0_0
abbrev rB2 : Rect S3x128x128 := Rect.unit (s := S3x128x128) ![2, 0, 0] S1x128x128.size inb_S3x128x128_S1x128x128_2_0_0
/-- Row `b` of the last layer's [3,1,128] weights. -/
abbrev rC0 : Rect S3x1x128 := Rect.unit (s := S3x1x128) ![0, 0, 0] S1x1x128.size inb_S3x1x128_S1x1x128_0_0_0
abbrev rC1 : Rect S3x1x128 := Rect.unit (s := S3x1x128) ![1, 0, 0] S1x1x128.size inb_S3x1x128_S1x1x128_1_0_0
abbrev rC2 : Rect S3x1x128 := Rect.unit (s := S3x1x128) ![2, 0, 0] S1x1x128.size inb_S3x1x128_S1x1x128_2_0_0
/-- Row `b` of the last layer's [3,1,1] bias. -/
abbrev rD0 : Rect S3x1x1 := Rect.unit (s := S3x1x1) ![0, 0, 0] S1x1x1.size inb_S3x1x1_S1x1x1_0_0_0
abbrev rD1 : Rect S3x1x1 := Rect.unit (s := S3x1x1) ![1, 0, 0] S1x1x1.size inb_S3x1x1_S1x1x1_1_0_0
abbrev rD2 : Rect S3x1x1 := Rect.unit (s := S3x1x1) ![2, 0, 0] S1x1x1.size inb_S3x1x1_S1x1x1_2_0_0
/-- Row `b` of an output block [3,1,4096]. -/
abbrev rO0 : Rect S3x1x4096 := Rect.unit (s := S3x1x4096) ![0, 0, 0] S1x1x4096.size inb_S3x1x4096_S1x1x4096_0_0_0
abbrev rO1 : Rect S3x1x4096 := Rect.unit (s := S3x1x4096) ![1, 0, 0] S1x1x4096.size inb_S3x1x4096_S1x1x4096_1_0_0
abbrev rO2 : Rect S3x1x4096 := Rect.unit (s := S3x1x4096) ![2, 0, 0] S1x1x4096.size inb_S3x1x4096_S1x1x4096_2_0_0

/-! ## Each branch's two stored rows from the rows it loaded

`t` is the input block; `w1 c1 W2 c2 W3 c3 w4 c4` are the branch's rows of the eight weight arrays. The three branches
are the same network; the body's text groups their operations differently, hence three spellings. -/

def val0 (t : Vec F S1x4096 .f32) (w1 c1 : Vec F S1x128x1 .f32) (W2 : Vec F S1x128x128 .f32) (c2 : Vec F S1x128x1 .f32)
    (W3 : Vec F S1x128x128 .f32) (c3 : Vec F S1x128x1 .f32) (w4 : Vec F S1x1x128 .f32) (c4 : Vec F S1x1x1 .f32) : FVec F S1x1x4096 .f32 :=
  k0_pay19 (k0_pay6 W2) (k0_pay7 c2) (k0_pay8 W3) (k0_pay9 c3) (k0_pay10 w4) (k0_pay11 c4) (k0_pay14 t w1 c1)

def tan0 (t : Vec F S1x4096 .f32) (w1 c1 : Vec F S1x128x1 .f32) (W2 : Vec F S1x128x128 .f32) (c2 : Vec F S1x128x1 .f32)
    (W3 : Vec F S1x128x128 .f32) (c3 : Vec F S1x128x1 .f32) (w4 : Vec F S1x1x128 .f32) : FVec F S1x1x4096 .f32 :=
  k0_pay20 (k0_pay6 W2) (k0_pay7 c2) (k0_pay8 W3) (k0_pay9 c3) (k0_pay10 w4) (k0_pay13 t w1 c1) (k0_pay14 t w1 c1) (k0_pay15 w1) (k0_pay16 (F := F))

def val1 (t : Vec F S1x4096 .f32) (w1 c1 : Vec F S1x128x1 .f32) (W2 : Vec F S1x128x128 .f32) (c2 : Vec F S1x128x1 .f32)
    (W3 : Vec F S1x128x128 .f32) (c3 : Vec F S1x128x1 .f32) (w4 : Vec F S1x1x128 .f32) (c4 : Vec F S1x1x1 .f32) : FVec F S1x1x4096 .f32 :=
  k0_pay32 (k0_pay23 W3) (k0_pay24 c3) (k0_pay25 w4) (k0_pay26 c4) (k0_pay30 (k0_pay4 t) w1 c1 W2 c2)

def tan1 (t : Vec F S1x4096 .f32) (w1 c1 : Vec F S1x128x1 .f32) (W2 : Vec F S1x128x128 .f32) (c2 : Vec F S1x128x1 .f32)
    (W3 : Vec F S1x128x128 .f32) (c3 : Vec F S1x128x1 .f32) (w4 : Vec F S1x1x128 .f32) : FVec F S1x1x4096 .f32 :=
  k0_pay33 (k0_pay23 W3) (k0_pay24 c3) (k0_pay25 w4) (k0_pay28 (k0_pay4 t) w1 c1) (k0_pay29 W2) (k0_pay30 (k0_pay4 t) w1 c1 W2 c2) (Scalar.ofBits .f32 0x00000000#32)

def val2 (t : Vec F S1x4096 .f32) (w1 c1 : Vec F S1x128x1 .f32) (W2 : Vec F S1x128x128 .f32) (c2 : Vec F S1x128x1 .f32)
    (W3 : Vec F S1x128x128 .f32) (c3 : Vec F S1x128x1 .f32) (w4 : Vec F S1x1x128 .f32) (c4 : Vec F S1x1x1 .f32) : FVec F S1x1x4096 .f32 :=
  k0_pay2 (k0_pay37 W3) (k0_pay38 c3) (k0_pay39 w4) (k0_pay40 c4) (k0_pay44 (k0_pay4 t) (k0_pay34 w1) (k0_pay35 c1) W2 c2)

def tan2 (t : Vec F S1x4096 .f32) (w1 c1 : Vec F S1x128x1 .f32) (W2 : Vec F S1x128x128 .f32) (c2 : Vec F S1x128x1 .f32)
    (W3 : Vec F S1x128x128 .f32) (c3 : Vec F S1x128x1 .f32) (w4 : Vec F S1x1x128 .f32) : FVec F S1x1x4096 .f32 :=
  k0_pay3 (k0_pay37 W3) (k0_pay38 c3) (k0_pay39 w4) (k0_pay43 (k0_pay4 t) (k0_pay34 w1) (k0_pay35 c1) W2 c2)
    (k0_pay44 (k0_pay4 t) (k0_pay34 w1) (k0_pay35 c1) W2 c2) (k0_pay45 (k0_pay4 t) (k0_pay34 w1) (k0_pay35 c1) W2) (Scalar.ofBits .f32 0x00000000#32)

/-! ## The output blocks after the body -/

/-- The values' block: its three rows, the last stored first. -/
def out9 (x0 : Vec F S1x4096 .f32) (x1 x2 : Vec F S3x128x1 .f32) (x3 : Vec F S3x128x128 .f32) (x4 : Vec F S3x128x1 .f32)
    (x5 : Vec F S3x128x128 .f32) (x6 : Vec F S3x128x1 .f32) (x7 : Vec F S3x1x128 .f32) (x8 : Vec F S3x1x1 .f32) : Vec F S3x1x4096 .f32 :=
  View.canon [
    ⟨rO2, val2 (View.ld x0 rT) (View.ld x1 rA2) (View.ld x2 rA2) (View.ld x3 rB2) (View.ld x4 rA2) (View.ld x5 rB2) (View.ld x6 rA2) (View.ld x7 rC2) (View.ld x8 rD2)⟩,
    ⟨rO1, val1 (View.ld x0 rT) (View.ld x1 rA1) (View.ld x2 rA1) (View.ld x3 rB1) (View.ld x4 rA1) (View.ld x5 rB1) (View.ld x6 rA1) (View.ld x7 rC1) (View.ld x8 rD1)⟩,
    ⟨rO0, val0 (View.ld x0 rT) (View.ld x1 rA0) (View.ld x2 rA0) (View.ld x3 rB0) (View.ld x4 rA0) (View.ld x5 rB0) (View.ld x6 rA0) (View.ld x7 rC0) (View.ld x8 rD0)⟩]

/-- The derivatives' block. -/
def out10 (x0 : Vec F S1x4096 .f32) (x1 x2 : Vec F S3x128x1 .f32) (x3 : Vec F S3x128x128 .f32) (x4 : Vec F S3x128x1 .f32)
    (x5 : Vec F S3x128x128 .f32) (x6 : Vec F S3x128x1 .f32) (x7 : Vec F S3x1x128 .f32) : Vec F S3x1x4096 .f32 :=
  View.canon [
    ⟨rO2, tan2 (View.ld x0 rT) (View.ld x1 rA2) (View.ld x2 rA2) (View.ld x3 rB2) (View.ld x4 rA2) (View.ld x5 rB2) (View.ld x6 rA2) (View.ld x7 rC2)⟩,
    ⟨rO1, tan1 (View.ld x0 rT) (View.ld x1 rA1) (View.ld x2 rA1) (View.ld x3 rB1) (View.ld x4 rA1) (View.ld x5 rB1) (View.ld x6 rA1) (View.ld x7 rC1)⟩,
    ⟨rO0, tan0 (View.ld x0 rT) (View.ld x1 rA0) (View.ld x2 rA0) (View.ld x3 rB0) (View.ld x4 rA0) (View.ld x5 rB0) (View.ld x6 rA0) (View.ld x7 rC0)⟩]

/-- The three rows tile an output block, so together they cover it. -/
theorem cover3 (p0 p1 p2 : Vec F S1x1x4096 .f32) (y : S3x1x4096.Idx) :
    ∃ pc ∈ ([⟨rO2, p2⟩, ⟨rO1, p1⟩, ⟨rO0, p0⟩] : List (View.Piece (Elt F) S3x1x4096 .f32)), y ∈ pc.1.set :=
  View.cover_of_tiled [⟨rO2, p2⟩, ⟨rO1, p1⟩, ⟨rO0, p0⟩] S1x1x4096.size (by rfl) y

end Cert.KernelIdeal.Hand

end
-- ==== Proof.KernelIdealFrame.lean ====
/-
  The frame of @main: the five reshapes before the one pallas_call region, the region over its 64 grid points, and
  the 101 host operations after it.

  Per grid point the body reads its nine input blocks and writes the two output blocks whole (three rows each), so
  what the region leaves in every staging buffer is a function of the arrays as the region found them. The
  operations after the region write only their own result buffers — none of them an argument of @main, none an
  array the region stages — so the arguments end as they were launched.
-/
import proofs.«123856_j84945863180832_2_alg».proof.Proof.Gen.KernelIdeal.Launch
import proofs.«123856_j84945863180832_2_alg».proof.Proof.Gen.KernelIdeal.Skeleton
import proofs.«123856_j84945863180832_2_alg».proof.Proof.Gen.KernelIdeal.Points
import proofs.«123856_j84945863180832_2_alg».proof.Proof.KernelIdealOuts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations after the region, in order. -/
abbrev tailOps : List (List (HloOp τ sig (Elt F))) :=
  [hostOps1, hostOps1_1, hostOps1_2, hostOps1_3, hostOps1_4, hostOps1_5, hostOps1_6]

/-- Core `c`'s buffer contents when the region is entered: the launch contents after the five reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the reshapes, the region, then the later operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every buffer an operation after the region writes: the operations' own results. -/
abbrev tailW : List (Ref sig .tc) :=
  [main_v6, main_v7, main_v8, main_v9, main_v10, main_v11, main_v12, main_v13, main_v14, main_v15, main_v16, main_cst, main_v17, main_v18, main_v19, main_v20, main_v21, main_cst_0, main_v22, main_v23, main_v24, main_v25, main_v26, main_v27, main_v28, main_v29, main_v30, main_v31, main_v32, main_v33, main_v34, main_v35, main_cst_1, main_v36, main_v37, main_v38, main_v39, main_v40, main_v41, main_v42, main_v43, main_v44, main_v45, main_v46, main_cst_2, main_v47, main_v48, main_v49, main_v50, main_v51, main_cst_3, main_v52, main_v53, main_v54, main_v55, main_v56, main_v57, main_v58, main_v59, main_v60, main_v61, main_v62, main_v63, main_v64, main_v65, main_cst_4, main_v66, main_v67, main_v68, main_v69, main_v70, main_v71, main_v72, main_v73, main_v74, main_v75, main_v76, main_cst_5, main_v77, main_v78, main_v79, main_v80, main_v81, main_cst_6, main_v82, main_v83, main_v84, main_v85, main_v86, main_v87, main_v88, main_v89, main_v90, main_v91, main_v92, main_v93, main_v94, main_v95, main_cst_7, main_v96, main_v97]

theorem singleton_sub_tailW {y : Ref sig .tc} (h : y ∈ tailW) :
    ({Proc.devRef (τ := τ) .tc y} : Finset (DevRef τ sig)) ⊆ (tailW.map (Proc.devRef (τ := τ) .tc)).toFinset :=
  Finset.singleton_subset_iff.mpr (List.mem_toFinset.mpr (List.mem_map_of_mem h))

theorem hostOps1_writes : (hostOps1 : List (HloOp τ sig (Elt F))).Forall fun op => op.writes ⊆ (tailW.map (Proc.devRef (τ := τ) .tc)).toFinset := by
  simp only [List.Forall]
  repeat' apply And.intro
  all_goals exact singleton_sub_tailW (by decide)
theorem hostOps1_1_writes : (hostOps1_1 : List (HloOp τ sig (Elt F))).Forall fun op => op.writes ⊆ (tailW.map (Proc.devRef (τ := τ) .tc)).toFinset := by
  simp only [List.Forall]
  repeat' apply And.intro
  all_goals exact singleton_sub_tailW (by decide)
theorem hostOps1_2_writes : (hostOps1_2 : List (HloOp τ sig (Elt F))).Forall fun op => op.writes ⊆ (tailW.map (Proc.devRef (τ := τ) .tc)).toFinset := by
  simp only [List.Forall]
  repeat' apply And.intro
  all_goals exact singleton_sub_tailW (by decide)
theorem hostOps1_3_writes : (hostOps1_3 : List (HloOp τ sig (Elt F))).Forall fun op => op.writes ⊆ (tailW.map (Proc.devRef (τ := τ) .tc)).toFinset := by
  simp only [List.Forall]
  repeat' apply And.intro
  all_goals exact singleton_sub_tailW (by decide)
theorem hostOps1_4_writes : (hostOps1_4 : List (HloOp τ sig (Elt F))).Forall fun op => op.writes ⊆ (tailW.map (Proc.devRef (τ := τ) .tc)).toFinset := by
  simp only [List.Forall]
  repeat' apply And.intro
  all_goals exact singleton_sub_tailW (by decide)
theorem hostOps1_5_writes : (hostOps1_5 : List (HloOp τ sig (Elt F))).Forall fun op => op.writes ⊆ (tailW.map (Proc.devRef (τ := τ) .tc)).toFinset := by
  simp only [List.Forall]
  repeat' apply And.intro
  all_goals exact singleton_sub_tailW (by decide)
theorem hostOps1_6_writes : (hostOps1_6 : List (HloOp τ sig (Elt F))).Forall fun op => op.writes ⊆ (tailW.map (Proc.devRef (τ := τ) .tc)).toFinset := by
  simp only [List.Forall]
  repeat' apply And.intro
  all_goals exact singleton_sub_tailW (by decide)

/-- Each operation after the region writes only buffers of `tailW`. -/
theorem tail_writes : ∀ ops ∈ (tailOps : List (List (HloOp τ sig (Elt F)))), ∀ op ∈ ops,
    op.writes ⊆ (tailW.map (Proc.devRef (τ := τ) .tc)).toFinset := by
  intro ops hops op hop
  simp only [List.mem_cons, List.mem_nil_iff, or_false] at hops
  rcases hops with rfl | rfl | rfl | rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop
  · exact (List.forall_iff_forall_mem.mp hostOps1_4_writes) op hop
  · exact (List.forall_iff_forall_mem.mp hostOps1_5_writes) op hop
  · exact (List.forall_iff_forall_mem.mp hostOps1_6_writes) op hop

/-- A reference outside `tailW` is written by no operation after the region. -/
theorem not_written {r : Ref sig .tc} (hr : r ∉ tailW) : ∀ ops ∈ (tailOps : List (List (HloOp τ sig (Elt F)))), ∀ op ∈ ops,
    Proc.devRef (τ := τ) .tc r ∉ op.writes := by
  intro ops hops op hop hb
  obtain ⟨y, hy, he⟩ := List.mem_map.mp (List.mem_toFinset.mp (tail_writes ops hops op hop hb))
  exact hr (Proc.devRef_injective _ he ▸ hy)

/-- The operations after the region touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- And write no array the region stages. -/
theorem sfx_keeps : ∀ ops ∈ (tailOps : List (List (HloOp τ sig (Elt F)))), ∀ op ∈ ops,
    ∀ w, Proc.devRef .tc (Pipeline.arrRef spec0 w) ∉ op.writes := by
  intro ops hops op hop w
  exact not_written ((by decide : ∀ w : Fin 11, Pipeline.arrRef spec0 w ∉ tailW) w) ops hops op hop

/-- No reshape before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- An argument no window stages ends, after the later operations, as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact not_written (by decide : main_arg0 ∉ tailW) ops hops op hop'),
    Pipeline.withArrays_of_ne _ c (V0 m c) _ main_arg0 (by exact (by decide : ∀ w, Pipeline.arrRef spec0 w ≠ main_arg0))]
  exact V_main_arg0 m c
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (fun op hop => by
      obtain ⟨ops, hops, hop'⟩ := List.mem_flatten.mp hop
      exact not_written (by decide : main_arg2 ∉ tailW) ops hops op hop'),
    Pipeline.withArrays_of_ne _ c (V0 m c) _ main_arg2 (by exact (by decide : ∀ w, Pipeline.arrRef spec0 w ≠ main_arg2))]
  exact V_main_arg2 m c
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (fun op hop => by
      obtain ⟨ops, hops, hop'⟩ := List.mem_flatten.mp hop
      exact not_written (by decide : main_arg4 ∉ tailW) ops hops op hop'),
    Pipeline.withArrays_of_ne _ c (V0 m c) _ main_arg4 (by exact (by decide : ∀ w, Pipeline.arrRef spec0 w ≠ main_arg4))]
  exact V_main_arg4 m c
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (fun op hop => by
      obtain ⟨ops, hops, hop'⟩ := List.mem_flatten.mp hop
      exact not_written (by decide : main_arg6 ∉ tailW) ops hops op hop'),
    Pipeline.withArrays_of_ne _ c (V0 m c) _ main_arg6 (by exact (by decide : ∀ w, Pipeline.arrRef spec0 w ≠ main_arg6))]
  exact V_main_arg6 m c
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) := by
  unfold Pipeline.afterTail₀
  rw [StableHlo.after_of_forall_not_mem (b := Proc.devRef .tc main_arg8) _ _ (fun op hop => by
      obtain ⟨ops, hops, hop'⟩ := List.mem_flatten.mp hop
      exact not_written (by decide : main_arg8 ∉ tailW) ops hops op hop'),
    Pipeline.withArrays_of_ne _ c (V0 m c) _ main_arg8 (by exact (by decide : ∀ w, Pipeline.arrRef spec0 w ≠ main_arg8))]
  exact V_main_arg8 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).1 1).trans (((dats 0 c).arrAt_in 1 rfl _).trans ((hA c 1).trans (V_main_arg1 m c))),
      ((h c).2 main_arg2 (Pipeline.mem_restRefs_of main_arg2 (by decide) (by decide))).trans (W_main_arg2 m dats c),
      ((h c).1 3).trans (((dats 0 c).arrAt_in 3 rfl _).trans ((hA c 3).trans (V_main_arg3 m c))),
      ((h c).2 main_arg4 (Pipeline.mem_restRefs_of main_arg4 (by decide) (by decide))).trans (W_main_arg4 m dats c),
      ((h c).1 5).trans (((dats 0 c).arrAt_in 5 rfl _).trans ((hA c 5).trans (V_main_arg5 m c))),
      ((h c).2 main_arg6 (Pipeline.mem_restRefs_of main_arg6 (by decide) (by decide))).trans (W_main_arg6 m dats c),
      ((h c).1 7).trans (((dats 0 c).arrAt_in 7 rfl _).trans ((hA c 7).trans (V_main_arg7 m c))),
      ((h c).2 main_arg8 (Pipeline.mem_restRefs_of main_arg8 (by decide) (by decide))).trans (W_main_arg8 m dats c)⟩) h

/-! ## The body's triple -/

set_option maxHeartbeats 4000000 in
/-- The body on whole staging memrefs, the inputs' at read contents `xW` and the outputs' at anything, runs to the
    continuation holding the inputs' as they were and each output's at its three stored rows. -/
theorem sound_kernel (c : Dev nD) (E : Set ℕ) (i : grid0.Coords)
    (arg1 : Memref sig .tc .vmem S1x4096 .f32) (harg1 : arg1.IsWhole) (arg2 : Memref sig .tc .vmem S3x128x1 .f32) (harg2 : arg2.IsWhole) (arg3 : Memref sig .tc .vmem S3x128x1 .f32) (harg3 : arg3.IsWhole) (arg4 : Memref sig .tc .vmem S3x128x128 .f32) (harg4 : arg4.IsWhole) (arg5 : Memref sig .tc .vmem S3x128x1 .f32) (harg5 : arg5.IsWhole) (arg6 : Memref sig .tc .vmem S3x128x128 .f32) (harg6 : arg6.IsWhole) (arg7 : Memref sig .tc .vmem S3x128x1 .f32) (harg7 : arg7.IsWhole) (arg8 : Memref sig .tc .vmem S3x1x128 .f32) (harg8 : arg8.IsWhole) (arg9 : Memref sig .tc .vmem S3x1x1 .f32) (harg9 : arg9.IsWhole)
    (arg10 : Memref sig .tc .vmem S3x1x4096 .f32) (harg10 : arg10.IsWhole) (arg11 : Memref sig .tc .vmem S3x1x4096 .f32) (harg11 : arg11.IsWhole)
    (x0 : Vec F S1x4096 .f32) (x1 : Vec F S3x128x1 .f32) (x2 : Vec F S3x128x1 .f32) (x3 : Vec F S3x128x128 .f32) (x4 : Vec F S3x128x1 .f32) (x5 : Vec F S3x128x128 .f32) (x6 : Vec F S3x128x1 .f32) (x7 : Vec F S3x1x128 .f32) (x8 : Vec F S3x1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out9 x0 x1 x2 x3 x4 x5 x6 x7 x8)
            ∗ owns (c : Thread nD τ) arg11 fullShare (out10 x0 x1 x2 x3 x4 x5 x6 x7)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    unfold out9
    exact View.read_writes_eq_canon _ _ _ (cover3 _ _ _)
  iexists _; isplitr
  swap; · iexact H10
  ipureintro
  unfold out10
  exact View.read_writes_eq_canon _ _ _ (cover3 _ _ _)

/-! ## The pipeline's proof data -/

/-- The proof data on core `c`: the arrays as the region finds them; after the body at point `t` each input's
    buffer at its block and each output's at its three stored rows; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
    | ⟨10, _⟩ => out10 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every staged array ending at what the proof data computes and
    every other unscoped buffer as the later operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.Spec.lean ====
/-
  One branch of the network as plain functions on the extended reals.

  A branch is a 1 → 128 → 128 → 128 → 1 perceptron with the rectifier on its three hidden layers, applied to one
  real input `t`; beside the value it carries the derivative with respect to `t` by the chain rule, where the
  rectifier's derivative is the gate "pre-activation > 0". Everything is stated per input `t`, so a whole array of
  inputs is this function applied entry by entry. The kernel computes the hidden layers feature-major (a weight row
  times an activation column), the reference batch-major (an activation row times a transposed weight column): both
  are the same finite sums up to commuting each product, which is why these definitions put the weight on the left.
-/
import Idealize.ShloMosaic.PureOps.Ideal
import Idealize.ShloMosaic.Lib.ValueIdx

noncomputable section

open scoped BigOperators

namespace Cert.Mlp

open Idealize.ShloMosaic Idealize.ShloMosaic.ValueIdx

/-- The extended real the all-zero f32 word denotes (it is 0; kept as the word so that neither side evaluates it). -/
abbrev zeroW : EReal := Ideal.ofBits .f32 0x00000000#32

/-- The rectifier. -/
def act (z : EReal) : EReal := max z zeroW

/-- The rectifier's chain rule: the incoming derivative `d` where the pre-activation is positive, else zero. -/
def gate (z d : EReal) : EReal := Scalar.select (Ideal.cmp .ogt z zeroW) d zeroW

/-- A weight row against an activation vector. -/
def dotp (w x : Fin 128 → EReal) : EReal := ∑ k : Fin 128, w k * x k

/-- One branch's weights and biases. -/
structure Net where
  w1 : Fin 128 → EReal
  c1 : Fin 128 → EReal
  W2 : Fin 128 → Fin 128 → EReal
  c2 : Fin 128 → EReal
  W3 : Fin 128 → Fin 128 → EReal
  c3 : Fin 128 → EReal
  w4 : Fin 128 → EReal
  c4 : EReal

namespace Net

variable (N : Net) (t : EReal)

/-- Layer 1 before the rectifier: `w1 · t + c1`. -/
def z1 (h : Fin 128) : EReal := N.w1 h * t + N.c1 h
def h1 (h : Fin 128) : EReal := act (N.z1 t h)
/-- d/dt of layer 1 after the rectifier: the weight itself where the unit is active. -/
def d1 (h : Fin 128) : EReal := gate (N.z1 t h) (N.w1 h)
def z2 (o : Fin 128) : EReal := dotp (N.W2 o) (N.h1 t) + N.c2 o
def dz2 (o : Fin 128) : EReal := dotp (N.W2 o) (N.d1 t)
def h2 (o : Fin 128) : EReal := act (N.z2 t o)
def d2 (o : Fin 128) : EReal := gate (N.z2 t o) (N.dz2 t o)
def z3 (o : Fin 128) : EReal := dotp (N.W3 o) (N.h2 t) + N.c3 o
def dz3 (o : Fin 128) : EReal := dotp (N.W3 o) (N.d2 t)
def h3 (o : Fin 128) : EReal := act (N.z3 t o)
def d3 (o : Fin 128) : EReal := gate (N.z3 t o) (N.dz3 t o)
/-- The branch's output. -/
def val : EReal := dotp N.w4 (N.h3 t) + N.c4
/-- Its derivative with respect to `t`. -/
def tan : EReal := dotp N.w4 (N.d3 t)

end Net

/-- Branch `b`'s net read off the argument arrays in the shapes the reference takes them
    (W1 : [3,128,1], b1 : [3,128], W2 : [3,128,128], b2 : [3,128], W3, b3 likewise, W4 : [3,1,128], b4 : [3,1]). -/
def netR (a1 : FVec Ideal ⟨3, ![3, 128, 1]⟩ .f32) (a2 : FVec Ideal ⟨2, ![3, 128]⟩ .f32)
    (a3 : FVec Ideal ⟨3, ![3, 128, 128]⟩ .f32) (a4 : FVec Ideal ⟨2, ![3, 128]⟩ .f32)
    (a5 : FVec Ideal ⟨3, ![3, 128, 128]⟩ .f32) (a6 : FVec Ideal ⟨2, ![3, 128]⟩ .f32)
    (a7 : FVec Ideal ⟨3, ![3, 1, 128]⟩ .f32) (a8 : FVec Ideal ⟨2, ![3, 1]⟩ .f32) (b : Fin 3) : Net where
  w1 h := a1 (ix3 b h (0 : Fin 1))
  c1 h := a2 (ix2 b h)
  W2 o k := a3 (ix3 b o k)
  c2 o := a4 (ix2 b o)
  W3 o k := a5 (ix3 b o k)
  c3 o := a6 (ix2 b o)
  w4 k := a7 (ix3 b (0 : Fin 1) k)
  c4 := a8 (ix2 b (0 : Fin 1))

/-- Branch `b`'s net read off the arrays in the shapes the kernel stages them: the biases as columns
    (b1, b2, b3 : [3,128,1], b4 : [3,1,1]). -/
def netK (x1 x2 : FVec Ideal ⟨3, ![3, 128, 1]⟩ .f32) (x3 : FVec Ideal ⟨3, ![3, 128, 128]⟩ .f32)
    (x4 : FVec Ideal ⟨3, ![3, 128, 1]⟩ .f32) (x5 : FVec Ideal ⟨3, ![3, 128, 128]⟩ .f32)
    (x6 : FVec Ideal ⟨3, ![3, 128, 1]⟩ .f32) (x7 : FVec Ideal ⟨3, ![3, 1, 128]⟩ .f32)
    (x8 : FVec Ideal ⟨3, ![3, 1, 1]⟩ .f32) (b : Fin 3) : Net where
  w1 h := x1 (ix3 b h (0 : Fin 1))
  c1 h := x2 (ix3 b h (0 : Fin 1))
  W2 o k := x3 (ix3 b o k)
  c2 o := x4 (ix3 b o (0 : Fin 1))
  W3 o k := x5 (ix3 b o k)
  c3 o := x6 (ix3 b o (0 : Fin 1))
  w4 k := x7 (ix3 b (0 : Fin 1) k)
  c4 := x8 (ix3 b (0 : Fin 1) (0 : Fin 1))

/-- The net of one branch read off the eight ROWS the kernel body loads for it (each row a leading-unit-axis array:
    w1, c1, c2, c3 : [1,128,1], W2, W3 : [1,128,128], w4 : [1,1,128], c4 : [1,1,1]). -/
def netL (w1 c1 : FVec Ideal ⟨3, ![1, 128, 1]⟩ .f32) (W2 : FVec Ideal ⟨3, ![1, 128, 128]⟩ .f32)
    (c2 : FVec Ideal ⟨3, ![1, 128, 1]⟩ .f32) (W3 : FVec Ideal ⟨3, ![1, 128, 128]⟩ .f32)
    (c3 : FVec Ideal ⟨3, ![1, 128, 1]⟩ .f32) (w4 : FVec Ideal ⟨3, ![1, 1, 128]⟩ .f32)
    (c4 : FVec Ideal ⟨3, ![1, 1, 1]⟩ .f32) : Net where
  w1 h := w1 (ix3 (0 : Fin 1) h (0 : Fin 1))
  c1 h := c1 (ix3 (0 : Fin 1) h (0 : Fin 1))
  W2 o k := W2 (ix3 (0 : Fin 1) o k)
  c2 o := c2 (ix3 (0 : Fin 1) o (0 : Fin 1))
  W3 o k := W3 (ix3 (0 : Fin 1) o k)
  c3 o := c3 (ix3 (0 : Fin 1) o (0 : Fin 1))
  w4 k := w4 (ix3 (0 : Fin 1) (0 : Fin 1) k)
  c4 := c4 (ix3 (0 : Fin 1) (0 : Fin 1) (0 : Fin 1))

end Cert.Mlp

end
-- ==== Proof.KernelValue.lean ====
/-
  The kernel body's six stored rows, read at an index, are the network of Spec.lean.

  One grid point holds 4096 inputs t. For each branch the body computes, feature-major, the pre-activations
  z = W · h + c of three rectified hidden layers and a linear last layer on the whole block, and beside them the
  derivative with respect to t by the chain rule: the first layer's derivative is the weight where the unit is
  active, and each later layer multiplies the same weight matrix against the gated derivative of the layer before.
  The derivative path passes through narrowing format changes, which are the identity on the extended reals.

  Read at output entry j, every operation reads its operands at entries that depend only on column j of the block:
  a contraction into a zero accumulator is the finite sum over the 128 features of weight times activation, a
  broadcast reads the column's or the row's one entry, a shape cast that drops or adds a unit axis reads the same
  entry, the rectifier is a maximum against zero and its gate a select on "pre-activation > 0". So each layer of the
  body at column j is the corresponding layer of the per-input network at t_j, by induction over the layers; the three
  branches are the same network with the operations grouped differently, hence three chains of the same lemmas.
-/
import proofs.«123856_j84945863180832_2_alg».proof.Proof.KernelIdealOuts
import proofs.«123856_j84945863180832_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KValue

open Cert.KernelIdeal Cert.KernelIdeal.Gen Cert.KernelIdeal.Hand Idealize.ShloMosaic Idealize.ShloMosaic.ValueIdx Cert.Mlp

/-! ## The two contractions read at an index -/

theorem lhs128_0 (i : S128x4096.Idx) (q : dot_S128x128_S128x4096_S128x4096_1_0_0_1_n_n.contr.Idx) :
    (dot_S128x128_S128x4096_S128x4096_1_0_0_1_n_n.lhsIdx i q 0).val = (i 0).val := by
  unfold DotDims.lhsIdx
  rw [dif_neg (show ¬(0 : Fin S128x128.rank) ∈ dot_S128x128_S128x4096_S128x4096_1_0_0_1_n_n.lhsBatch by decide),
    dif_pos (show (0 : Fin S128x128.rank) ∈ dot_S128x128_S128x4096_S128x4096_1_0_0_1_n_n.lhsNonContracting by decide)]
  rfl
theorem lhs128_1 (i : S128x4096.Idx) (q : dot_S128x128_S128x4096_S128x4096_1_0_0_1_n_n.contr.Idx) :
    (dot_S128x128_S128x4096_S128x4096_1_0_0_1_n_n.lhsIdx i q 1).val = (q ⟨0, by decide⟩).val :=
  dot_S128x128_S128x4096_S128x4096_1_0_0_1_n_n.lhsIdx_val_of_single rfl i q
theorem rhs128_0 (i : S128x4096.Idx) (q : dot_S128x128_S128x4096_S128x4096_1_0_0_1_n_n.contr.Idx) :
    (dot_S128x128_S128x4096_S128x4096_1_0_0_1_n_n.rhsIdx i q 0).val = (q ⟨0, by decide⟩).val :=
  dot_S128x128_S128x4096_S128x4096_1_0_0_1_n_n.rhsIdx_val_of_single rfl i q
theorem rhs128_1 (i : S128x4096.Idx) (q : dot_S128x128_S128x4096_S128x4096_1_0_0_1_n_n.contr.Idx) :
    (dot_S128x128_S128x4096_S128x4096_1_0_0_1_n_n.rhsIdx i q 1).val = (i 1).val := by
  unfold DotDims.rhsIdx
  rw [dif_neg (show ¬(1 : Fin S128x4096.rank) ∈ dot_S128x128_S128x4096_S128x4096_1_0_0_1_n_n.rhsBatch by decide),
    dif_pos (show (1 : Fin S128x4096.rank) ∈ dot_S128x128_S128x4096_S128x4096_1_0_0_1_n_n.rhsNonContracting by decide)]
  rfl

/-- The left operand's index of the [128,128]·[128,4096] contraction at output (o, j) and position k is (o, k). -/
theorem lhs128 (o : Fin 128) (j : Fin 4096) (k : Fin 128) :
    dot_S128x128_S128x4096_S128x4096_1_0_0_1_n_n.lhsIdx (ix2 o j)
      ((contrEquiv1 dot_S128x128_S128x4096_S128x4096_1_0_0_1_n_n 128 rfl rfl).symm k) = ix2 o k := by
  have hk := contrEquiv1_symm_val dot_S128x128_S128x4096_S128x4096_1_0_0_1_n_n 128 rfl rfl k
  funext a
  refine Fin.ext ?_
  match a with
  | ⟨0, _⟩ => exact lhs128_0 _ _
  | ⟨1, _⟩ => exact (lhs128_1 _ _).trans hk

/-- The right operand's index there is (k, j). -/
theorem rhs128 (o : Fin 128) (j : Fin 4096) (k : Fin 128) :
    dot_S128x128_S128x4096_S128x4096_1_0_0_1_n_n.rhsIdx (ix2 o j)
      ((contrEquiv1 dot_S128x128_S128x4096_S128x4096_1_0_0_1_n_n 128 rfl rfl).symm k) = ix2 k j := by
  have hk := contrEquiv1_symm_val dot_S128x128_S128x4096_S128x4096_1_0_0_1_n_n 128 rfl rfl k
  funext a
  refine Fin.ext ?_
  match a with
  | ⟨0, _⟩ => exact (rhs128_0 _ _).trans hk
  | ⟨1, _⟩ => exact rhs128_1 _ _

/-- A weight matrix against an activation block, accumulated into zero: entry (o, j) is the row-o-by-column-j sum. -/
theorem mm128 {φ₁ φ₂ : FTy} (prec : Option ContractPrecision) (A : FVec Ideal S128x128 φ₁) (B : FVec Ideal S128x4096 φ₂)
    (o : Fin 128) (j : Fin 4096) :
    matmul dot_S128x128_S128x4096_S128x4096_1_0_0_1_n_n prec A B (constant (F := Ideal) S128x4096 .f32 0x00000000#32) (ix2 o j)
      = ∑ k : Fin 128, A (ix2 o k) * B (ix2 k j) := by
  refine (Ideal.matmul_constant_zero_apply dot_S128x128_S128x4096_S128x4096_1_0_0_1_n_n prec A B (ix2 o j)).trans ?_
  rw [← Equiv.sum_comp (contrEquiv1 dot_S128x128_S128x4096_S128x4096_1_0_0_1_n_n 128 rfl rfl).symm]
  refine Finset.sum_congr rfl fun k _ => ?_
  rw [lhs128, rhs128]

theorem lhs1_0 (i : S1x4096.Idx) (q : dot_S1x128_S128x4096_S1x4096_1_0_0_1_n_n.contr.Idx) :
    (dot_S1x128_S128x4096_S1x4096_1_0_0_1_n_n.lhsIdx i q 0).val = (i 0).val := by
  unfold DotDims.lhsIdx
  rw [dif_neg (show ¬(0 : Fin S1x128.rank) ∈ dot_S1x128_S128x4096_S1x4096_1_0_0_1_n_n.lhsBatch by decide),
    dif_pos (show (0 : Fin S1x128.rank) ∈ dot_S1x128_S128x4096_S1x4096_1_0_0_1_n_n.lhsNonContracting by decide)]
  rfl
theorem lhs1_1 (i : S1x4096.Idx) (q : dot_S1x128_S128x4096_S1x4096_1_0_0_1_n_n.contr.Idx) :
    (dot_S1x128_S128x4096_S1x4096_1_0_0_1_n_n.lhsIdx i q 1).val = (q ⟨0, by decide⟩).val :=
  dot_S1x128_S128x4096_S1x4096_1_0_0_1_n_n.lhsIdx_val_of_single rfl i q
theorem rhs1_0 (i : S1x4096.Idx) (q : dot_S1x128_S128x4096_S1x4096_1_0_0_1_n_n.contr.Idx) :
    (dot_S1x128_S128x4096_S1x4096_1_0_0_1_n_n.rhsIdx i q 0).val = (q ⟨0, by decide⟩).val :=
  dot_S1x128_S128x4096_S1x4096_1_0_0_1_n_n.rhsIdx_val_of_single rfl i q
theorem rhs1_1 (i : S1x4096.Idx) (q : dot_S1x128_S128x4096_S1x4096_1_0_0_1_n_n.contr.Idx) :
    (dot_S1x128_S128x4096_S1x4096_1_0_0_1_n_n.rhsIdx i q 1).val = (i 1).val := by
  unfold DotDims.rhsIdx
  rw [dif_neg (show ¬(1 : Fin S128x4096.rank) ∈ dot_S1x128_S128x4096_S1x4096_1_0_0_1_n_n.rhsBatch by decide),
    dif_pos (show (1 : Fin S128x4096.rank) ∈ dot_S1x128_S128x4096_S1x4096_1_0_0_1_n_n.rhsNonContracting by decide)]
  rfl

theorem lhs1 (j : Fin 4096) (k : Fin 128) :
    dot_S1x128_S128x4096_S1x4096_1_0_0_1_n_n.lhsIdx (ix2 (0 : Fin 1) j)
      ((contrEquiv1 dot_S1x128_S128x4096_S1x4096_1_0_0_1_n_n 128 rfl rfl).symm k) = ix2 (0 : Fin 1) k := by
  have hk := contrEquiv1_symm_val dot_S1x128_S128x4096_S1x4096_1_0_0_1_n_n 128 rfl rfl k
  funext a
  refine Fin.ext ?_
  match a with
  | ⟨0, _⟩ => exact lhs1_0 _ _
  | ⟨1, _⟩ => exact (lhs1_1 _ _).trans hk

theorem rhs1 (j : Fin 4096) (k : Fin 128) :
    dot_S1x128_S128x4096_S1x4096_1_0_0_1_n_n.rhsIdx (ix2 (0 : Fin 1) j)
      ((contrEquiv1 dot_S1x128_S128x4096_S1x4096_1_0_0_1_n_n 128 rfl rfl).symm k) = ix2 k j := by
  have hk := contrEquiv1_symm_val dot_S1x128_S128x4096_S1x4096_1_0_0_1_n_n 128 rfl rfl k
  funext a
  refine Fin.ext ?_
  match a with
  | ⟨0, _⟩ => exact (rhs1_0 _ _).trans hk
  | ⟨1, _⟩ => exact rhs1_1 _ _

/-- The last layer's weight row against an activation block, accumulated into zero. -/
theorem mm1 {φ₁ φ₂ : FTy} (prec : Option ContractPrecision) (A : FVec Ideal S1x128 φ₁) (B : FVec Ideal S128x4096 φ₂)
    (j : Fin 4096) :
    matmul dot_S1x128_S128x4096_S1x4096_1_0_0_1_n_n prec A B (constant (F := Ideal) S1x4096 .f32 0x00000000#32) (ix2 (0 : Fin 1) j)
      = ∑ k : Fin 128, A (ix2 (0 : Fin 1) k) * B (ix2 k j) := by
  refine (Ideal.matmul_constant_zero_apply dot_S1x128_S128x4096_S1x4096_1_0_0_1_n_n prec A B (ix2 (0 : Fin 1) j)).trans ?_
  rw [← Equiv.sum_comp (contrEquiv1 dot_S1x128_S128x4096_S1x4096_1_0_0_1_n_n 128 rfl rfl).symm]
  refine Finset.sum_congr rfl fun k _ => ?_
  rw [lhs1, rhs1]

/-! ## Broadcasts and shape casts read at an index -/

section Layout
variable {α : Type}

/-- A column broadcast along the inputs reads its row's entry. -/
theorem bcCol (v : S128x1.Idx → α) (h : Fin 128) (j : Fin 4096) :
    broadcastTo S128x4096 v broadcasts_S128x1_S128x4096 (ix2 h j) = v (ix2 h (0 : Fin 1)) :=
  broadcastTo_apply v _ (ix2 h j) (ix2 h (0 : Fin 1)) fun a => by
    match a with
    | ⟨0, _⟩ => rfl
    | ⟨1, _⟩ => rfl

/-- The input row broadcast along the features reads its column's entry. -/
theorem bcRow (v : S1x4096.Idx → α) (h : Fin 128) (j : Fin 4096) :
    broadcastTo S128x4096 v broadcasts_S1x4096_S128x4096 (ix2 h j) = v (ix2 (0 : Fin 1) j) :=
  broadcastTo_apply v _ (ix2 h j) (ix2 (0 : Fin 1) j) fun a => by
    match a with
    | ⟨0, _⟩ => rfl
    | ⟨1, _⟩ => rfl

/-- The last bias broadcast along the inputs. -/
theorem bcOne (v : S1x1.Idx → α) (j : Fin 4096) :
    broadcastTo S1x4096 v broadcasts_S1x1_S1x4096 (ix2 (0 : Fin 1) j) = v (ix2 (0 : Fin 1) (0 : Fin 1)) :=
  broadcastTo_apply v _ (ix2 (0 : Fin 1) j) (ix2 (0 : Fin 1) (0 : Fin 1)) fun a => by
    match a with
    | ⟨0, _⟩ => rfl
    | ⟨1, _⟩ => rfl

theorem castCol (v : S1x128x1.Idx → α) (h : Fin 128) :
    shapeCast S128x1 v shapeCasts_S1x128x1_S128x1 (ix2 h (0 : Fin 1)) = v (ix3 (0 : Fin 1) h (0 : Fin 1)) :=
  shapeCast_apply v _ _ _ (by
    rw [Shape.rowMajor_val_three, Shape.rowMajor_val_two]
    show ((0 : ℕ) * 128 + h.val) * 1 + 0 = h.val * 1 + 0
    omega)

theorem castMat (v : S1x128x128.Idx → α) (o k : Fin 128) :
    shapeCast S128x128 v shapeCasts_S1x128x128_S128x128 (ix2 o k) = v (ix3 (0 : Fin 1) o k) :=
  shapeCast_apply v _ _ _ (by
    rw [Shape.rowMajor_val_three, Shape.rowMajor_val_two]
    show ((0 : ℕ) * 128 + o.val) * 128 + k.val = o.val * 128 + k.val
    omega)

theorem castRow (v : S1x1x128.Idx → α) (k : Fin 128) :
    shapeCast S1x128 v shapeCasts_S1x1x128_S1x128 (ix2 (0 : Fin 1) k) = v (ix3 (0 : Fin 1) (0 : Fin 1) k) :=
  shapeCast_apply v _ _ _ (by
    rw [Shape.rowMajor_val_three, Shape.rowMajor_val_two]
    show ((0 : ℕ) * 1 + 0) * 128 + k.val = 0 * 128 + k.val
    omega)

theorem castOne (v : S1x1x1.Idx → α) :
    shapeCast S1x1 v shapeCasts_S1x1x1_S1x1 (ix2 (0 : Fin 1) (0 : Fin 1)) = v (ix3 (0 : Fin 1) (0 : Fin 1) (0 : Fin 1)) :=
  shapeCast_apply v _ _ _ (by
    rw [Shape.rowMajor_val_three, Shape.rowMajor_val_two]
    rfl)

theorem castOut (v : S1x4096.Idx → α) (j : Fin 4096) :
    shapeCast S1x1x4096 v shapeCasts_S1x4096_S1x1x4096 (ix3 (0 : Fin 1) (0 : Fin 1) j) = v (ix2 (0 : Fin 1) j) :=
  shapeCast_apply v _ _ _ (by
    rw [Shape.rowMajor_val_three, Shape.rowMajor_val_two]
    show (0 : ℕ) * 4096 + j.val = ((0 : ℕ) * 1 + 0) * 4096 + j.val
    omega)

theorem castColId (v : S128x1.Idx → α) : shapeCast S128x1 v shapeCasts_S128x1_S128x1 = v := shapeCast_self v _
theorem castInId (v : S1x4096.Idx → α) : shapeCast S1x4096 v shapeCasts_S1x4096_S1x4096 = v := shapeCast_self v _

end Layout

/-! ## Branch 0 -/

section Branch0
variable (N : Net) (τ : EReal) (j : Fin 4096)

theorem p12 (t : Vec Ideal S1x4096 .f32) (w1 c1 : Vec Ideal S1x128x1 .f32)
    (ht : t (ix2 (0 : Fin 1) j) = τ) (hw1 : ∀ h, w1 (ix3 (0 : Fin 1) h (0 : Fin 1)) = N.w1 h)
    (hc1 : ∀ h, c1 (ix3 (0 : Fin 1) h (0 : Fin 1)) = N.c1 h) (h : Fin 128) :
    k0_pay12 (F := Ideal) t w1 c1 (ix2 h j) = N.z1 τ h := by
  unfold k0_pay12 k0_pay5 k0_pay4
  simp only [addf_apply, mulf_apply, bcCol, bcRow, castCol, castInId, ht, hw1, hc1]
  rfl

theorem p14 (t : Vec Ideal S1x4096 .f32) (w1 c1 : Vec Ideal S1x128x1 .f32)
    (ht : t (ix2 (0 : Fin 1) j) = τ) (hw1 : ∀ h, w1 (ix3 (0 : Fin 1) h (0 : Fin 1)) = N.w1 h)
    (hc1 : ∀ h, c1 (ix3 (0 : Fin 1) h (0 : Fin 1)) = N.c1 h) (h : Fin 128) :
    k0_pay14 (F := Ideal) t w1 c1 (ix2 h j) = N.h1 τ h := by
  unfold k0_pay14
  simp only [maximumf_apply, broadcast_apply, p12 N τ j t w1 c1 ht hw1 hc1]
  rfl

theorem p13 (t : Vec Ideal S1x4096 .f32) (w1 c1 : Vec Ideal S1x128x1 .f32)
    (ht : t (ix2 (0 : Fin 1) j) = τ) (hw1 : ∀ h, w1 (ix3 (0 : Fin 1) h (0 : Fin 1)) = N.w1 h)
    (hc1 : ∀ h, c1 (ix3 (0 : Fin 1) h (0 : Fin 1)) = N.c1 h) (h : Fin 128) :
    k0_pay13 (F := Ideal) t w1 c1 (ix2 h j) = Ideal.cmp .ogt (N.z1 τ h) zeroW := by
  unfold k0_pay13
  simp only [cmpf_apply, broadcast_apply, p12 N τ j t w1 c1 ht hw1 hc1]
  rfl

theorem p15 (w1 : Vec Ideal S1x128x1 .f32) (hw1 : ∀ h, w1 (ix3 (0 : Fin 1) h (0 : Fin 1)) = N.w1 h) (h : Fin 128) :
    k0_pay15 (F := Ideal) w1 (ix2 h j) = N.w1 h := by
  unfold k0_pay15 k0_pay5
  simp only [bcCol, castColId, castCol, hw1]

theorem p16 (h : Fin 128) : k0_pay16 (F := Ideal) (ix2 h j) = zeroW := rfl
end Branch0

section Branch0Dense
variable (N : Net) (τ : EReal) (j : Fin 4096)
variable (A2 : FVec Ideal S128x128 .f32) (b2 : FVec Ideal S128x1 .f32) (A3 : FVec Ideal S128x128 .f32)
  (b3 : FVec Ideal S128x1 .f32) (a4 : FVec Ideal S1x128 .f32) (b4 : FVec Ideal S1x1 .f32) (H : FVec Ideal S128x4096 .f32)
variable (hA2 : ∀ o k, A2 (ix2 o k) = N.W2 o k) (hb2 : ∀ o, b2 (ix2 o (0 : Fin 1)) = N.c2 o)
  (hA3 : ∀ o k, A3 (ix2 o k) = N.W3 o k) (hb3 : ∀ o, b3 (ix2 o (0 : Fin 1)) = N.c3 o)
  (ha4 : ∀ k, a4 (ix2 (0 : Fin 1) k) = N.w4 k) (hb4 : b4 (ix2 (0 : Fin 1) (0 : Fin 1)) = N.c4)
  (hH : ∀ k, H (ix2 k j) = N.h1 τ k)
include hA2 hb2 hH

theorem p17 (o : Fin 128) : k0_pay17 (F := Ideal) A2 b2 H (ix2 o j) = N.z2 τ o := by
  unfold k0_pay17
  simp only [addf_apply, mm128, bcCol, hA2, hb2, hH]
  rfl

include hA3 hb3

theorem p18 (o : Fin 128) : k0_pay18 (F := Ideal) A2 b2 A3 b3 H (ix2 o j) = N.z3 τ o := by
  unfold k0_pay18
  simp only [addf_apply, mm128, bcCol, maximumf_apply, broadcast_apply, hA3, hb3, p17 N τ j A2 b2 H hA2 hb2 hH]
  rfl

include ha4

theorem p20 (M : IVec S128x4096 1) (V28 V29 : FVec Ideal S128x4096 .f32)
    (hM : ∀ h, M (ix2 h j) = Ideal.cmp .ogt (N.z1 τ h) zeroW) (hV28 : ∀ h, V28 (ix2 h j) = N.w1 h)
    (hV29 : ∀ h, V29 (ix2 h j) = zeroW) :
    k0_pay20 (F := Ideal) A2 b2 A3 b3 a4 M H V28 V29 (ix3 (0 : Fin 1) (0 : Fin 1) j) = N.tan τ := by
  unfold k0_pay20
  simp only [castOut, mm1, mm128, truncf_apply, select_apply, cmpf_apply, broadcast_apply, hA2, hA3, ha4, hM, hV28, hV29,
    p17 N τ j A2 b2 H hA2 hb2 hH, p18 N τ j A2 b2 A3 b3 H hA2 hb2 hA3 hb3 hH]
  rfl

include hb4

theorem p19 : k0_pay19 (F := Ideal) A2 b2 A3 b3 a4 b4 H (ix3 (0 : Fin 1) (0 : Fin 1) j) = N.val τ := by
  unfold k0_pay19
  simp only [castOut, addf_apply, mm1, bcOne, maximumf_apply, broadcast_apply, ha4, hb4,
    p18 N τ j A2 b2 A3 b3 H hA2 hb2 hA3 hb3 hH]
  rfl

end Branch0Dense

/-! ## Branch 1 -/

section Branch1
variable (N : Net) (τ : EReal) (j : Fin 4096)
variable (T : FVec Ideal S1x4096 .f32) (w1 c1 : Vec Ideal S1x128x1 .f32) (W2 : Vec Ideal S1x128x128 .f32) (c2 : Vec Ideal S1x128x1 .f32)
variable (hT : T (ix2 (0 : Fin 1) j) = τ) (hw1 : ∀ h, w1 (ix3 (0 : Fin 1) h (0 : Fin 1)) = N.w1 h)
  (hc1 : ∀ h, c1 (ix3 (0 : Fin 1) h (0 : Fin 1)) = N.c1 h)
  (hW2 : ∀ o k, W2 (ix3 (0 : Fin 1) o k) = N.W2 o k) (hc2 : ∀ o, c2 (ix3 (0 : Fin 1) o (0 : Fin 1)) = N.c2 o)

omit hT hc1 hw1 hc2 in
include hW2 in
theorem q29 (o k : Fin 128) : k0_pay29 (F := Ideal) W2 (ix2 o k) = N.W2 o k := by
  unfold k0_pay29 k0_pay22
  simp only [truncf_apply, castMat, hW2]

include hT hw1 hc1

theorem q27 (h : Fin 128) : k0_pay27 (F := Ideal) T w1 c1 (ix2 h j) = N.z1 τ h := by
  unfold k0_pay27 k0_pay21
  simp only [addf_apply, mulf_apply, bcCol, bcRow, castCol, hT, hw1, hc1]
  rfl

theorem q28 (h : Fin 128) : k0_pay28 (F := Ideal) T w1 c1 (ix2 h j) = N.d1 τ h := by
  unfold k0_pay28 k0_pay21
  simp only [truncf_apply, select_apply, cmpf_apply, broadcast_apply, bcCol, castColId, castCol, hw1,
    q27 N τ j T w1 c1 hT hw1 hc1]
  rfl

include hW2 hc2

theorem q30 (o : Fin 128) : k0_pay30 (F := Ideal) T w1 c1 W2 c2 (ix2 o j) = N.z2 τ o := by
  unfold k0_pay30 k0_pay22
  simp only [addf_apply, mm128, bcCol, castCol, castMat, maximumf_apply, broadcast_apply, hW2, hc2,
    q27 N τ j T w1 c1 hT hw1 hc1]
  rfl

end Branch1

section Branch1Dense
variable (N : Net) (τ : EReal) (j : Fin 4096)
variable (A3 : FVec Ideal S128x128 .f32) (b3 : FVec Ideal S128x1 .f32) (a4 : FVec Ideal S1x128 .f32) (b4 : FVec Ideal S1x1 .f32)
  (Z : FVec Ideal S128x4096 .f32)
variable (hA3 : ∀ o k, A3 (ix2 o k) = N.W3 o k) (hb3 : ∀ o, b3 (ix2 o (0 : Fin 1)) = N.c3 o)
  (ha4 : ∀ k, a4 (ix2 (0 : Fin 1) k) = N.w4 k) (hb4 : b4 (ix2 (0 : Fin 1) (0 : Fin 1)) = N.c4)
  (hZ : ∀ k, Z (ix2 k j) = N.z2 τ k)
include hA3 hb3 hZ

theorem q31 (o : Fin 128) : k0_pay31 (F := Ideal) A3 b3 Z (ix2 o j) = N.z3 τ o := by
  unfold k0_pay31
  simp only [addf_apply, mm128, bcCol, maximumf_apply, broadcast_apply, hA3, hb3, hZ]
  rfl

include ha4

theorem q33 (D : FVec Ideal S128x4096 .bf16) (A2bf : FVec Ideal S128x128 .bf16) (cst : Ideal .f32)
    (hD : ∀ k, D (ix2 k j) = N.d1 τ k) (hA2bf : ∀ o k, A2bf (ix2 o k) = N.W2 o k) (hcst : cst = zeroW) :
    k0_pay33 (F := Ideal) A3 b3 a4 D A2bf Z cst (ix3 (0 : Fin 1) (0 : Fin 1) j) = N.tan τ := by
  subst hcst
  unfold k0_pay33
  simp only [castOut, mm1, mm128, truncf_apply, select_apply, cmpf_apply, broadcast_apply, hA3, ha4, hD, hA2bf, hZ,
    q31 N τ j A3 b3 Z hA3 hb3 hZ]
  rfl

include hb4

theorem q32 : k0_pay32 (F := Ideal) A3 b3 a4 b4 Z (ix3 (0 : Fin 1) (0 : Fin 1) j) = N.val τ := by
  unfold k0_pay32
  simp only [castOut, addf_apply, mm1, bcOne, maximumf_apply, broadcast_apply, ha4, hb4, q31 N τ j A3 b3 Z hA3 hb3 hZ]
  rfl

end Branch1Dense

/-! ## Branch 2 -/

section Branch2
variable (N : Net) (τ : EReal) (j : Fin 4096)
variable (T : FVec Ideal S1x4096 .f32) (a1 b1 : FVec Ideal S128x1 .f32) (W2 : Vec Ideal S1x128x128 .f32) (c2 : Vec Ideal S1x128x1 .f32)
variable (hT : T (ix2 (0 : Fin 1) j) = τ) (ha1 : ∀ h, a1 (ix2 h (0 : Fin 1)) = N.w1 h) (hb1 : ∀ h, b1 (ix2 h (0 : Fin 1)) = N.c1 h)
  (hW2 : ∀ o k, W2 (ix3 (0 : Fin 1) o k) = N.W2 o k) (hc2 : ∀ o, c2 (ix3 (0 : Fin 1) o (0 : Fin 1)) = N.c2 o)
include hT ha1 hb1

theorem r41 (h : Fin 128) : k0_pay41 (F := Ideal) T a1 b1 (ix2 h j) = N.z1 τ h := by
  unfold k0_pay41
  simp only [addf_apply, mulf_apply, bcCol, bcRow, hT, ha1, hb1]
  rfl

include hW2

theorem r45 (o : Fin 128) : k0_pay45 (F := Ideal) T a1 b1 W2 (ix2 o j) = N.dz2 τ o := by
  unfold k0_pay45 k0_pay36
  simp only [mm128, truncf_apply, select_apply, cmpf_apply, broadcast_apply, bcCol, castColId, castMat, hW2, ha1,
    r41 N τ j T a1 b1 hT ha1 hb1]
  rfl

include hc2

theorem r42 (o : Fin 128) : k0_pay42 (F := Ideal) T a1 b1 W2 c2 (ix2 o j) = N.z2 τ o := by
  unfold k0_pay42 k0_pay36
  simp only [addf_apply, mm128, bcCol, castCol, castMat, maximumf_apply, broadcast_apply, hW2, hc2,
    r41 N τ j T a1 b1 hT ha1 hb1]
  rfl

theorem r43 (o : Fin 128) : k0_pay43 (F := Ideal) T a1 b1 W2 c2 (ix2 o j) = Ideal.cmp .ogt (N.z2 τ o) zeroW := by
  unfold k0_pay43
  simp only [cmpf_apply, broadcast_apply, r42 N τ j T a1 b1 W2 c2 hT ha1 hb1 hW2 hc2]
  rfl

theorem r44 (o : Fin 128) : k0_pay44 (F := Ideal) T a1 b1 W2 c2 (ix2 o j) = N.h2 τ o := by
  unfold k0_pay44
  simp only [maximumf_apply, broadcast_apply, r42 N τ j T a1 b1 W2 c2 hT ha1 hb1 hW2 hc2]
  rfl

end Branch2

section Branch2Dense
variable (N : Net) (τ : EReal) (j : Fin 4096)
variable (A3 : FVec Ideal S128x128 .f32) (b3 : FVec Ideal S128x1 .f32) (a4 : FVec Ideal S1x128 .f32) (b4 : FVec Ideal S1x1 .f32)
  (H2 : FVec Ideal S128x4096 .f32)
variable (hA3 : ∀ o k, A3 (ix2 o k) = N.W3 o k) (hb3 : ∀ o, b3 (ix2 o (0 : Fin 1)) = N.c3 o)
  (ha4 : ∀ k, a4 (ix2 (0 : Fin 1) k) = N.w4 k) (hb4 : b4 (ix2 (0 : Fin 1) (0 : Fin 1)) = N.c4)
  (hH2 : ∀ k, H2 (ix2 k j) = N.h2 τ k)
include hA3 hb3 hH2

theorem r1 (o : Fin 128) : k0_pay1 (F := Ideal) A3 b3 H2 (ix2 o j) = N.z3 τ o := by
  unfold k0_pay1
  simp only [addf_apply, mm128, bcCol, hA3, hb3, hH2]
  rfl

include ha4

theorem r3 (M2 : IVec S128x4096 1) (Dz2 : FVec Ideal S128x4096 .f32) (cst : Ideal .f32)
    (hM2 : ∀ o, M2 (ix2 o j) = Ideal.cmp .ogt (N.z2 τ o) zeroW) (hDz2 : ∀ o, Dz2 (ix2 o j) = N.dz2 τ o) (hcst : cst = zeroW) :
    k0_pay3 (F := Ideal) A3 b3 a4 M2 H2 Dz2 cst (ix3 (0 : Fin 1) (0 : Fin 1) j) = N.tan τ := by
  subst hcst
  unfold k0_pay3
  simp only [castOut, mm1, mm128, truncf_apply, select_apply, cmpf_apply, broadcast_apply, hA3, ha4, hM2, hDz2,
    r1 N τ j A3 b3 H2 hA3 hb3 hH2]
  rfl

include hb4

theorem r2 : k0_pay2 (F := Ideal) A3 b3 a4 b4 H2 (ix3 (0 : Fin 1) (0 : Fin 1) j) = N.val τ := by
  unfold k0_pay2
  simp only [castOut, addf_apply, mm1, bcOne, maximumf_apply, broadcast_apply, ha4, hb4, r1 N τ j A3 b3 H2 hA3 hb3 hH2]
  rfl

end Branch2Dense

/-! ## The six stored rows -/

theorem val0_at (t : Vec Ideal S1x4096 .f32) (w1 c1 : Vec Ideal S1x128x1 .f32) (W2 : Vec Ideal S1x128x128 .f32)
    (c2 : Vec Ideal S1x128x1 .f32) (W3 : Vec Ideal S1x128x128 .f32) (c3 : Vec Ideal S1x128x1 .f32) (w4 : Vec Ideal S1x1x128 .f32)
    (c4 : Vec Ideal S1x1x1 .f32) (j : Fin 4096) :
    val0 (F := Ideal) t w1 c1 W2 c2 W3 c3 w4 c4 (ix3 (0 : Fin 1) (0 : Fin 1) j) = (netL w1 c1 W2 c2 W3 c3 w4 c4).val (t (ix2 (0 : Fin 1) j)) := by
  unfold val0
  exact p19 (netL w1 c1 W2 c2 W3 c3 w4 c4) (t (ix2 (0 : Fin 1) j)) j _ _ _ _ _ _ _
    (fun o k => castMat W2 o k) (fun o => castCol c2 o) (fun o k => castMat W3 o k) (fun o => castCol c3 o)
    (fun k => castRow w4 k) (castOne c4)
    (fun k => p14 (netL w1 c1 W2 c2 W3 c3 w4 c4) (t (ix2 (0 : Fin 1) j)) j t w1 c1 rfl (fun _ => rfl) (fun _ => rfl) k)

theorem tan0_at (t : Vec Ideal S1x4096 .f32) (w1 c1 : Vec Ideal S1x128x1 .f32) (W2 : Vec Ideal S1x128x128 .f32)
    (c2 : Vec Ideal S1x128x1 .f32) (W3 : Vec Ideal S1x128x128 .f32) (c3 : Vec Ideal S1x128x1 .f32) (w4 : Vec Ideal S1x1x128 .f32)
    (c4 : Vec Ideal S1x1x1 .f32) (j : Fin 4096) :
    tan0 (F := Ideal) t w1 c1 W2 c2 W3 c3 w4 (ix3 (0 : Fin 1) (0 : Fin 1) j) = (netL w1 c1 W2 c2 W3 c3 w4 c4).tan (t (ix2 (0 : Fin 1) j)) := by
  unfold tan0
  exact p20 (netL w1 c1 W2 c2 W3 c3 w4 c4) (t (ix2 (0 : Fin 1) j)) j _ _ _ _ _ _
    (fun o k => castMat W2 o k) (fun o => castCol c2 o) (fun o k => castMat W3 o k) (fun o => castCol c3 o)
    (fun k => castRow w4 k)
    (fun k => p14 (netL w1 c1 W2 c2 W3 c3 w4 c4) (t (ix2 (0 : Fin 1) j)) j t w1 c1 rfl (fun _ => rfl) (fun _ => rfl) k)
    _ _ _
    (fun h => p13 (netL w1 c1 W2 c2 W3 c3 w4 c4) (t (ix2 (0 : Fin 1) j)) j t w1 c1 rfl (fun _ => rfl) (fun _ => rfl) h)
    (fun h => p15 (netL w1 c1 W2 c2 W3 c3 w4 c4) j w1 (fun _ => rfl) h)
    (fun h => p16 j h)

theorem val1_at (t : Vec Ideal S1x4096 .f32) (w1 c1 : Vec Ideal S1x128x1 .f32) (W2 : Vec Ideal S1x128x128 .f32)
    (c2 : Vec Ideal S1x128x1 .f32) (W3 : Vec Ideal S1x128x128 .f32) (c3 : Vec Ideal S1x128x1 .f32) (w4 : Vec Ideal S1x1x128 .f32)
    (c4 : Vec Ideal S1x1x1 .f32) (j : Fin 4096) :
    val1 (F := Ideal) t w1 c1 W2 c2 W3 c3 w4 c4 (ix3 (0 : Fin 1) (0 : Fin 1) j) = (netL w1 c1 W2 c2 W3 c3 w4 c4).val (t (ix2 (0 : Fin 1) j)) := by
  unfold val1
  exact q32 (netL w1 c1 W2 c2 W3 c3 w4 c4) (t (ix2 (0 : Fin 1) j)) j _ _ _ _ _
    (fun o k => castMat W3 o k) (fun o => castCol c3 o) (fun k => castRow w4 k) (castOne c4)
    (fun k => q30 (netL w1 c1 W2 c2 W3 c3 w4 c4) (t (ix2 (0 : Fin 1) j)) j (k0_pay4 t) w1 c1 W2 c2
      (congrFun (castInId t) _) (fun _ => rfl) (fun _ => rfl) (fun _ _ => rfl) (fun _ => rfl) k)

theorem tan1_at (t : Vec Ideal S1x4096 .f32) (w1 c1 : Vec Ideal S1x128x1 .f32) (W2 : Vec Ideal S1x128x128 .f32)
    (c2 : Vec Ideal S1x128x1 .f32) (W3 : Vec Ideal S1x128x128 .f32) (c3 : Vec Ideal S1x128x1 .f32) (w4 : Vec Ideal S1x1x128 .f32)
    (c4 : Vec Ideal S1x1x1 .f32) (j : Fin 4096) :
    tan1 (F := Ideal) t w1 c1 W2 c2 W3 c3 w4 (ix3 (0 : Fin 1) (0 : Fin 1) j) = (netL w1 c1 W2 c2 W3 c3 w4 c4).tan (t (ix2 (0 : Fin 1) j)) := by
  unfold tan1
  exact q33 (netL w1 c1 W2 c2 W3 c3 w4 c4) (t (ix2 (0 : Fin 1) j)) j _ _ _ _
    (fun o k => castMat W3 o k) (fun o => castCol c3 o) (fun k => castRow w4 k)
    (fun k => q30 (netL w1 c1 W2 c2 W3 c3 w4 c4) (t (ix2 (0 : Fin 1) j)) j (k0_pay4 t) w1 c1 W2 c2
      (congrFun (castInId t) _) (fun _ => rfl) (fun _ => rfl) (fun _ _ => rfl) (fun _ => rfl) k)
    _ _ _
    (fun k => q28 (netL w1 c1 W2 c2 W3 c3 w4 c4) (t (ix2 (0 : Fin 1) j)) j (k0_pay4 t) w1 c1
      (congrFun (castInId t) _) (fun _ => rfl) (fun _ => rfl) k)
    (fun o k => q29 (netL w1 c1 W2 c2 W3 c3 w4 c4) W2 (fun _ _ => rfl) o k)
    rfl

theorem val2_at (t : Vec Ideal S1x4096 .f32) (w1 c1 : Vec Ideal S1x128x1 .f32) (W2 : Vec Ideal S1x128x128 .f32)
    (c2 : Vec Ideal S1x128x1 .f32) (W3 : Vec Ideal S1x128x128 .f32) (c3 : Vec Ideal S1x128x1 .f32) (w4 : Vec Ideal S1x1x128 .f32)
    (c4 : Vec Ideal S1x1x1 .f32) (j : Fin 4096) :
    val2 (F := Ideal) t w1 c1 W2 c2 W3 c3 w4 c4 (ix3 (0 : Fin 1) (0 : Fin 1) j) = (netL w1 c1 W2 c2 W3 c3 w4 c4).val (t (ix2 (0 : Fin 1) j)) := by
  unfold val2
  exact r2 (netL w1 c1 W2 c2 W3 c3 w4 c4) (t (ix2 (0 : Fin 1) j)) j _ _ _ _ _
    (fun o k => castMat W3 o k) (fun o => castCol c3 o) (fun k => castRow w4 k) (castOne c4)
    (fun k => r44 (netL w1 c1 W2 c2 W3 c3 w4 c4) (t (ix2 (0 : Fin 1) j)) j (k0_pay4 t) (k0_pay34 w1) (k0_pay35 c1) W2 c2
      (congrFun (castInId t) _) (fun h => castCol w1 h) (fun h => castCol c1 h) (fun _ _ => rfl) (fun _ => rfl) k)

theorem tan2_at (t : Vec Ideal S1x4096 .f32) (w1 c1 : Vec Ideal S1x128x1 .f32) (W2 : Vec Ideal S1x128x128 .f32)
    (c2 : Vec Ideal S1x128x1 .f32) (W3 : Vec Ideal S1x128x128 .f32) (c3 : Vec Ideal S1x128x1 .f32) (w4 : Vec Ideal S1x1x128 .f32)
    (c4 : Vec Ideal S1x1x1 .f32) (j : Fin 4096) :
    tan2 (F := Ideal) t w1 c1 W2 c2 W3 c3 w4 (ix3 (0 : Fin 1) (0 : Fin 1) j) = (netL w1 c1 W2 c2 W3 c3 w4 c4).tan (t (ix2 (0 : Fin 1) j)) := by
  unfold tan2
  exact r3 (netL w1 c1 W2 c2 W3 c3 w4 c4) (t (ix2 (0 : Fin 1) j)) j _ _ _ _
    (fun o k => castMat W3 o k) (fun o => castCol c3 o) (fun k => castRow w4 k)
    (fun k => r44 (netL w1 c1 W2 c2 W3 c3 w4 c4) (t (ix2 (0 : Fin 1) j)) j (k0_pay4 t) (k0_pay34 w1) (k0_pay35 c1) W2 c2
      (congrFun (castInId t) _) (fun h => castCol w1 h) (fun h => castCol c1 h) (fun _ _ => rfl) (fun _ => rfl) k)
    _ _ _
    (fun o => r43 (netL w1 c1 W2 c2 W3 c3 w4 c4) (t (ix2 (0 : Fin 1) j)) j (k0_pay4 t) (k0_pay34 w1) (k0_pay35 c1) W2 c2
      (congrFun (castInId t) _) (fun h => castCol w1 h) (fun h => castCol c1 h) (fun _ _ => rfl) (fun _ => rfl) o)
    (fun o => r45 (netL w1 c1 W2 c2 W3 c3 w4 c4) (t (ix2 (0 : Fin 1) j)) j (k0_pay4 t) (k0_pay34 w1) (k0_pay35 c1) W2
      (congrFun (castInId t) _) (fun h => castCol w1 h) (fun h => castCol c1 h) (fun _ _ => rfl) o)
    rfl

end Cert.KernelIdeal.KValue

end
-- ==== Proof.KernelArrays.lean ====
/-
  The two arrays the region writes, entry by entry, as the network of one branch applied to one input.
-/
import proofs.«123856_j84945863180832_2_alg».proof.Proof.KernelIdealFrame
import proofs.«123856_j84945863180832_2_alg».proof.Proof.Spec
import proofs.«123856_j84945863180832_2_alg».proof.Proof.KernelValue
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KArr

open Cert.KernelIdeal Cert.KernelIdeal.Gen Cert.KernelIdeal.Hand Cert.Mlp

variable (m : (ℓ : Loc nD τ sig) → Buf (Elt Ideal) ℓ) (ρ : Dev nD → PrngReg)

/-! ## The arrays the region finds: the arguments, the biases and the inputs recast -/

theorem V_v0 (c : Dev nD) : (V m c main_v0 : S1x262144.Idx → Elt Ideal .f32)
    = shapeCast S1x262144 (m ((c : Thread nD τ).loc main_arg0) : S262144.Idx → Elt Ideal .f32) shapeCasts_S262144_S1x262144 := by
  show StableHlo.after hostOps0 (fun b => m (c, b)) (Proc.devRef .tc main_v0) = _
  after_results
  rfl

theorem V_v1 (c : Dev nD) : (V m c main_v1 : S3x128x1.Idx → Elt Ideal .f32)
    = shapeCast S3x128x1 (m ((c : Thread nD τ).loc main_arg2) : S3x128.Idx → Elt Ideal .f32) shapeCasts_S3x128_S3x128x1 := by
  show StableHlo.after hostOps0 (fun b => m (c, b)) (Proc.devRef .tc main_v1) = _
  after_results
  rfl

theorem V_v2 (c : Dev nD) : (V m c main_v2 : S3x128x1.Idx → Elt Ideal .f32)
    = shapeCast S3x128x1 (m ((c : Thread nD τ).loc main_arg4) : S3x128.Idx → Elt Ideal .f32) shapeCasts_S3x128_S3x128x1 := by
  show StableHlo.after hostOps0 (fun b => m (c, b)) (Proc.devRef .tc main_v2) = _
  after_results
  rfl

theorem V_v3 (c : Dev nD) : (V m c main_v3 : S3x128x1.Idx → Elt Ideal .f32)
    = shapeCast S3x128x1 (m ((c : Thread nD τ).loc main_arg6) : S3x128.Idx → Elt Ideal .f32) shapeCasts_S3x128_S3x128x1 := by
  show StableHlo.after hostOps0 (fun b => m (c, b)) (Proc.devRef .tc main_v3) = _
  after_results
  rfl

theorem V_v4 (c : Dev nD) : (V m c main_v4 : S3x1x1.Idx → Elt Ideal .f32)
    = shapeCast S3x1x1 (m ((c : Thread nD τ).loc main_arg8) : S3x1.Idx → Elt Ideal .f32) shapeCasts_S3x1_S3x1x1 := by
  show StableHlo.after hostOps0 (fun b => m (c, b)) (Proc.devRef .tc main_v4) = _
  after_results
  rfl

/-! ## The index maps over the grid -/

/-- The inputs' block moves with the point along the long axis; every weight window is the whole array at every point;
    an output block sits at column block `t`. -/
theorem idx_facts : ∀ t : Fin cfg0.N,
    win0_0.index t (0 : Fin 2) = 0 ∧ win0_0.index t (1 : Fin 2) = t.val
    ∧ (∀ a : Fin 3, win0_1.index t a = 0) ∧ (∀ a : Fin 3, win0_2.index t a = 0) ∧ (∀ a : Fin 3, win0_3.index t a = 0)
    ∧ (∀ a : Fin 3, win0_4.index t a = 0) ∧ (∀ a : Fin 3, win0_5.index t a = 0) ∧ (∀ a : Fin 3, win0_6.index t a = 0)
    ∧ (∀ a : Fin 3, win0_7.index t a = 0) ∧ (∀ a : Fin 3, win0_8.index t a = 0)
    ∧ win0_9.index t (0 : Fin 3) = 0 ∧ win0_9.index t (1 : Fin 3) = 0 ∧ win0_9.index t (2 : Fin 3) = t.val
    ∧ win0_10.index t (0 : Fin 3) = 0 ∧ win0_10.index t (1 : Fin 3) = 0 ∧ win0_10.index t (2 : Fin 3) = t.val :=
  (by decide +kernel : ∀ t : Fin grid0.N, _)

/-! ## Each window's block read off the arguments -/

theorem t_lt (t : Fin cfg0.N) : t.val < 64 := by
  have h : cfg0.N = 64 := N_0
  have := t.isLt
  omega

/-- The inputs' block at point `t` is entries `4096 t … 4096 t + 4095` of `t`. -/
theorem iblk0_at (c : Dev nD) (t : Fin cfg0.N) (j : Fin 4096) (n : Fin 262144) (hn : n.val = t.val * 4096 + j.val) :
    (iblk m c 0 t : Vec Ideal S1x4096 .f32) (ix2 (0 : Fin 1) j) = (m ((c : Thread nD τ).loc main_arg0) : S262144.Idx → Elt Ideal .f32) (ix1 n) := by
  obtain ⟨e0, e1, -⟩ := idx_facts t
  unfold iblk
  rw [View.read_apply]
  show V m c main_v0 _ = _
  rw [V_v0]
  refine shapeCast_apply _ _ _ (ix1 n) ?_
  rw [Shape.rowMajor_val_one, Shape.rowMajor_val_two]
  show n.val = (win0_0.index t (0 : Fin 2) * 1 + 1 * 0) * 262144 + (win0_0.index t (1 : Fin 2) * 4096 + 1 * j.val)
  rw [e0, e1, hn]; omega

theorem iblk1_eq (c : Dev nD) (t : Fin cfg0.N) :
    (iblk m c 1 t : Vec Ideal S3x128x1 .f32) = (m ((c : Thread nD τ).loc main_arg1) : S3x128x1.Idx → Elt Ideal .f32) := by
  have e := (idx_facts t).2.2
  have e1 : ∀ a : Fin 3, win0_1.index t a = 0 := e.1
  funext y
  unfold iblk
  rw [View.read_apply]
  show V m c main_arg1 _ = _
  rw [V_main_arg1]
  refine congrArg _ (funext fun a => Fin.ext ?_)
  match a with
  | ⟨0, _⟩ => show win0_1.index t (0 : Fin 3) * 3 + 1 * (y 0).val = (y 0).val; rw [e1]; omega
  | ⟨1, _⟩ => show win0_1.index t (1 : Fin 3) * 128 + 1 * (y 1).val = (y 1).val; rw [e1]; omega
  | ⟨2, _⟩ => show win0_1.index t (2 : Fin 3) * 1 + 1 * (y 2).val = (y 2).val; rw [e1]; omega

theorem iblk2_at (c : Dev nD) (t : Fin cfg0.N) (b : Fin 3) (h : Fin 128) :
    (iblk m c 2 t : Vec Ideal S3x128x1 .f32) (ix3 b h (0 : Fin 1)) = (m ((c : Thread nD τ).loc main_arg2) : S3x128.Idx → Elt Ideal .f32) (ix2 b h) := by
  have e := (idx_facts t).2.2
  have e2 : ∀ a : Fin 3, win0_2.index t a = 0 := e.2.1
  unfold iblk
  rw [View.read_apply]
  show V m c main_v1 _ = _
  rw [V_v1]
  refine shapeCast_apply _ _ _ (ix2 b h) ?_
  rw [Shape.rowMajor_val_two, Shape.rowMajor_val_three]
  show b.val * 128 + h.val = ((win0_2.index t (0 : Fin 3) * 3 + 1 * b.val) * 128 + (win0_2.index t (1 : Fin 3) * 128 + 1 * h.val)) * 1 + (win0_2.index t (2 : Fin 3) * 1 + 1 * 0)
  simp only [e2]; omega

theorem iblk3_eq (c : Dev nD) (t : Fin cfg0.N) :
    (iblk m c 3 t : Vec Ideal S3x128x128 .f32) = (m ((c : Thread nD τ).loc main_arg3) : S3x128x128.Idx → Elt Ideal .f32) := by
  have e := (idx_facts t).2.2
  have e3 : ∀ a : Fin 3, win0_3.index t a = 0 := e.2.2.1
  funext y
  unfold iblk
  rw [View.read_apply]
  show V m c main_arg3 _ = _
  rw [V_main_arg3]
  refine congrArg _ (funext fun a => Fin.ext ?_)
  match a with
  | ⟨0, _⟩ => show win0_3.index t (0 : Fin 3) * 3 + 1 * (y 0).val = (y 0).val; rw [e3]; omega
  | ⟨1, _⟩ => show win0_3.index t (1 : Fin 3) * 128 + 1 * (y 1).val = (y 1).val; rw [e3]; omega
  | ⟨2, _⟩ => show win0_3.index t (2 : Fin 3) * 128 + 1 * (y 2).val = (y 2).val; rw [e3]; omega

theorem iblk4_at (c : Dev nD) (t : Fin cfg0.N) (b : Fin 3) (h : Fin 128) :
    (iblk m c 4 t : Vec Ideal S3x128x1 .f32) (ix3 b h (0 : Fin 1)) = (m ((c : Thread nD τ).loc main_arg4) : S3x128.Idx → Elt Ideal .f32) (ix2 b h) := by
  have e := (idx_facts t).2.2
  have e4 : ∀ a : Fin 3, win0_4.index t a = 0 := e.2.2.2.1
  unfold iblk
  rw [View.read_apply]
  show V m c main_v2 _ = _
  rw [V_v2]
  refine shapeCast_apply _ _ _ (ix2 b h) ?_
  rw [Shape.rowMajor_val_two, Shape.rowMajor_val_three]
  show b.val * 128 + h.val = ((win0_4.index t (0 : Fin 3) * 3 + 1 * b.val) * 128 + (win0_4.index t (1 : Fin 3) * 128 + 1 * h.val)) * 1 + (win0_4.index t (2 : Fin 3) * 1 + 1 * 0)
  simp only [e4]; omega

theorem iblk5_eq (c : Dev nD) (t : Fin cfg0.N) :
    (iblk m c 5 t : Vec Ideal S3x128x128 .f32) = (m ((c : Thread nD τ).loc main_arg5) : S3x128x128.Idx → Elt Ideal .f32) := by
  have e := (idx_facts t).2.2
  have e5 : ∀ a : Fin 3, win0_5.index t a = 0 := e.2.2.2.2.1
  funext y
  unfold iblk
  rw [View.read_apply]
  show V m c main_arg5 _ = _
  rw [V_main_arg5]
  refine congrArg _ (funext fun a => Fin.ext ?_)
  match a with
  | ⟨0, _⟩ => show win0_5.index t (0 : Fin 3) * 3 + 1 * (y 0).val = (y 0).val; rw [e5]; omega
  | ⟨1, _⟩ => show win0_5.index t (1 : Fin 3) * 128 + 1 * (y 1).val = (y 1).val; rw [e5]; omega
  | ⟨2, _⟩ => show win0_5.index t (2 : Fin 3) * 128 + 1 * (y 2).val = (y 2).val; rw [e5]; omega

theorem iblk6_at (c : Dev nD) (t : Fin cfg0.N) (b : Fin 3) (h : Fin 128) :
    (iblk m c 6 t : Vec Ideal S3x128x1 .f32) (ix3 b h (0 : Fin 1)) = (m ((c : Thread nD τ).loc main_arg6) : S3x128.Idx → Elt Ideal .f32) (ix2 b h) := by
  have e := (idx_facts t).2.2
  have e6 : ∀ a : Fin 3, win0_6.index t a = 0 := e.2.2.2.2.2.1
  unfold iblk
  rw [View.read_apply]
  show V m c main_v3 _ = _
  rw [V_v3]
  refine shapeCast_apply _ _ _ (ix2 b h) ?_
  rw [Shape.rowMajor_val_two, Shape.rowMajor_val_three]
  show b.val * 128 + h.val = ((win0_6.index t (0 : Fin 3) * 3 + 1 * b.val) * 128 + (win0_6.index t (1 : Fin 3) * 128 + 1 * h.val)) * 1 + (win0_6.index t (2 : Fin 3) * 1 + 1 * 0)
  simp only [e6]; omega

theorem iblk7_eq (c : Dev nD) (t : Fin cfg0.N) :
    (iblk m c 7 t : Vec Ideal S3x1x128 .f32) = (m ((c : Thread nD τ).loc main_arg7) : S3x1x128.Idx → Elt Ideal .f32) := by
  have e := (idx_facts t).2.2
  have e7 : ∀ a : Fin 3, win0_7.index t a = 0 := e.2.2.2.2.2.2.1
  funext y
  unfold iblk
  rw [View.read_apply]
  show V m c main_arg7 _ = _
  rw [V_main_arg7]
  refine congrArg _ (funext fun a => Fin.ext ?_)
  match a with
  | ⟨0, _⟩ => show win0_7.index t (0 : Fin 3) * 3 + 1 * (y 0).val = (y 0).val; rw [e7]; omega
  | ⟨1, _⟩ => show win0_7.index t (1 : Fin 3) * 1 + 1 * (y 1).val = (y 1).val; rw [e7]; omega
  | ⟨2, _⟩ => show win0_7.index t (2 : Fin 3) * 128 + 1 * (y 2).val = (y 2).val; rw [e7]; omega

theorem iblk8_at (c : Dev nD) (t : Fin cfg0.N) (b : Fin 3) :
    (iblk m c 8 t : Vec Ideal S3x1x1 .f32) (ix3 b (0 : Fin 1) (0 : Fin 1)) = (m ((c : Thread nD τ).loc main_arg8) : S3x1.Idx → Elt Ideal .f32) (ix2 b (0 : Fin 1)) := by
  have e := (idx_facts t).2.2
  have e8 : ∀ a : Fin 3, win0_8.index t a = 0 := e.2.2.2.2.2.2.2.1
  unfold iblk
  rw [View.read_apply]
  show V m c main_v4 _ = _
  rw [V_v4]
  refine shapeCast_apply _ _ _ (ix2 b (0 : Fin 1)) ?_
  rw [Shape.rowMajor_val_two, Shape.rowMajor_val_three]
  show b.val * 1 + 0 = ((win0_8.index t (0 : Fin 3) * 3 + 1 * b.val) * 1 + (win0_8.index t (1 : Fin 3) * 1 + 1 * 0)) * 1 + (win0_8.index t (2 : Fin 3) * 1 + 1 * 0)
  simp only [e8]; omega

/-- The weights a point sees are the arguments': branch `b`'s net read off the blocks is the net read off the arguments. -/
theorem netK_blocks (c : Dev nD) (t : Fin cfg0.N) (b : Fin 3) :
    netK (iblk m c 1 t) (iblk m c 2 t) (iblk m c 3 t) (iblk m c 4 t) (iblk m c 5 t) (iblk m c 6 t) (iblk m c 7 t) (iblk m c 8 t) b
      = netR (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) b := by
  unfold netK netR
  rw [iblk1_eq, iblk3_eq, iblk5_eq, iblk7_eq]
  simp only [iblk2_at, iblk4_at, iblk6_at, iblk8_at]

/-! ## An entry of an output block -/

theorem hzT : (![0, 0] : Fin 2 → Nat) = fun _ => 0 := funext fun a => by fin_cases a <;> rfl

/-- Row `b` of a weight array, loaded, read at an entry is the array's entry in row `b`. -/
theorem ld_rA (x : Vec Ideal S3x128x1 .f32) (h : Fin 128) :
    View.ld x rA0 (ix3 (0 : Fin 1) h (0 : Fin 1)) = x (ix3 (0 : Fin 3) h (0 : Fin 1))
    ∧ View.ld x rA1 (ix3 (0 : Fin 1) h (0 : Fin 1)) = x (ix3 (1 : Fin 3) h (0 : Fin 1))
    ∧ View.ld x rA2 (ix3 (0 : Fin 1) h (0 : Fin 1)) = x (ix3 (2 : Fin 3) h (0 : Fin 1)) := by
  refine ⟨?_, ?_, ?_⟩ <;>
  · refine congrArg x (funext fun a => Fin.ext ?_)
    match a with
    | ⟨0, _⟩ => rfl
    | ⟨1, _⟩ => show 0 + 1 * h.val = h.val; omega
    | ⟨2, _⟩ => rfl
theorem ld_rB (x : Vec Ideal S3x128x128 .f32) (o k : Fin 128) :
    View.ld x rB0 (ix3 (0 : Fin 1) o k) = x (ix3 (0 : Fin 3) o k)
    ∧ View.ld x rB1 (ix3 (0 : Fin 1) o k) = x (ix3 (1 : Fin 3) o k)
    ∧ View.ld x rB2 (ix3 (0 : Fin 1) o k) = x (ix3 (2 : Fin 3) o k) := by
  refine ⟨?_, ?_, ?_⟩ <;>
  · refine congrArg x (funext fun a => Fin.ext ?_)
    match a with
    | ⟨0, _⟩ => rfl
    | ⟨1, _⟩ => show 0 + 1 * o.val = o.val; omega
    | ⟨2, _⟩ => show 0 + 1 * k.val = k.val; omega
theorem ld_rC (x : Vec Ideal S3x1x128 .f32) (k : Fin 128) :
    View.ld x rC0 (ix3 (0 : Fin 1) (0 : Fin 1) k) = x (ix3 (0 : Fin 3) (0 : Fin 1) k)
    ∧ View.ld x rC1 (ix3 (0 : Fin 1) (0 : Fin 1) k) = x (ix3 (1 : Fin 3) (0 : Fin 1) k)
    ∧ View.ld x rC2 (ix3 (0 : Fin 1) (0 : Fin 1) k) = x (ix3 (2 : Fin 3) (0 : Fin 1) k) := by
  refine ⟨?_, ?_, ?_⟩ <;>
  · refine congrArg x (funext fun a => Fin.ext ?_)
    match a with
    | ⟨0, _⟩ => rfl
    | ⟨1, _⟩ => rfl
    | ⟨2, _⟩ => show 0 + 1 * k.val = k.val; omega
theorem ld_rD (x : Vec Ideal S3x1x1 .f32) :
    View.ld x rD0 (ix3 (0 : Fin 1) (0 : Fin 1) (0 : Fin 1)) = x (ix3 (0 : Fin 3) (0 : Fin 1) (0 : Fin 1))
    ∧ View.ld x rD1 (ix3 (0 : Fin 1) (0 : Fin 1) (0 : Fin 1)) = x (ix3 (1 : Fin 3) (0 : Fin 1) (0 : Fin 1))
    ∧ View.ld x rD2 (ix3 (0 : Fin 1) (0 : Fin 1) (0 : Fin 1)) = x (ix3 (2 : Fin 3) (0 : Fin 1) (0 : Fin 1)) := by
  refine ⟨?_, ?_, ?_⟩ <;>
  · refine congrArg x (funext fun a => Fin.ext ?_)
    match a with
    | ⟨0, _⟩ => rfl
    | ⟨1, _⟩ => rfl
    | ⟨2, _⟩ => rfl

/-- The rows the body loads for branch 0 are branch 0's net. -/
theorem netL_rows0 (x1 x2 : Vec Ideal S3x128x1 .f32) (x3 : Vec Ideal S3x128x128 .f32) (x4 : Vec Ideal S3x128x1 .f32) (x5 : Vec Ideal S3x128x128 .f32) (x6 : Vec Ideal S3x128x1 .f32) (x7 : Vec Ideal S3x1x128 .f32) (x8 : Vec Ideal S3x1x1 .f32) :
    netL (View.ld x1 rA0) (View.ld x2 rA0) (View.ld x3 rB0) (View.ld x4 rA0) (View.ld x5 rB0) (View.ld x6 rA0) (View.ld x7 rC0) (View.ld x8 rD0) = netK x1 x2 x3 x4 x5 x6 x7 x8 (0 : Fin 3) := by
  unfold netL netK
  refine congr (congr (congr (congr (congr (congr (congr (congrArg Net.mk ?_) ?_) ?_) ?_) ?_) ?_) ?_) ?_
  · funext h; exact (ld_rA x1 h).1
  · funext h; exact (ld_rA x2 h).1
  · funext o k; exact (ld_rB x3 o k).1
  · funext o; exact (ld_rA x4 o).1
  · funext o k; exact (ld_rB x5 o k).1
  · funext o; exact (ld_rA x6 o).1
  · funext k; exact (ld_rC x7 k).1
  · exact (ld_rD x8).1
/-- The rows the body loads for branch 1 are branch 1's net. -/
theorem netL_rows1 (x1 x2 : Vec Ideal S3x128x1 .f32) (x3 : Vec Ideal S3x128x128 .f32) (x4 : Vec Ideal S3x128x1 .f32) (x5 : Vec Ideal S3x128x128 .f32) (x6 : Vec Ideal S3x128x1 .f32) (x7 : Vec Ideal S3x1x128 .f32) (x8 : Vec Ideal S3x1x1 .f32) :
    netL (View.ld x1 rA1) (View.ld x2 rA1) (View.ld x3 rB1) (View.ld x4 rA1) (View.ld x5 rB1) (View.ld x6 rA1) (View.ld x7 rC1) (View.ld x8 rD1) = netK x1 x2 x3 x4 x5 x6 x7 x8 (1 : Fin 3) := by
  unfold netL netK
  refine congr (congr (congr (congr (congr (congr (congr (congrArg Net.mk ?_) ?_) ?_) ?_) ?_) ?_) ?_) ?_
  · funext h; exact (ld_rA x1 h).2.1
  · funext h; exact (ld_rA x2 h).2.1
  · funext o k; exact (ld_rB x3 o k).2.1
  · funext o; exact (ld_rA x4 o).2.1
  · funext o k; exact (ld_rB x5 o k).2.1
  · funext o; exact (ld_rA x6 o).2.1
  · funext k; exact (ld_rC x7 k).2.1
  · exact (ld_rD x8).2.1
/-- The rows the body loads for branch 2 are branch 2's net. -/
theorem netL_rows2 (x1 x2 : Vec Ideal S3x128x1 .f32) (x3 : Vec Ideal S3x128x128 .f32) (x4 : Vec Ideal S3x128x1 .f32) (x5 : Vec Ideal S3x128x128 .f32) (x6 : Vec Ideal S3x128x1 .f32) (x7 : Vec Ideal S3x1x128 .f32) (x8 : Vec Ideal S3x1x1 .f32) :
    netL (View.ld x1 rA2) (View.ld x2 rA2) (View.ld x3 rB2) (View.ld x4 rA2) (View.ld x5 rB2) (View.ld x6 rA2) (View.ld x7 rC2) (View.ld x8 rD2) = netK x1 x2 x3 x4 x5 x6 x7 x8 (2 : Fin 3) := by
  unfold netL netK
  refine congr (congr (congr (congr (congr (congr (congr (congrArg Net.mk ?_) ?_) ?_) ?_) ?_) ?_) ?_) ?_
  · funext h; exact (ld_rA x1 h).2.2
  · funext h; exact (ld_rA x2 h).2.2
  · funext o k; exact (ld_rB x3 o k).2.2
  · funext o; exact (ld_rA x4 o).2.2
  · funext o k; exact (ld_rB x5 o k).2.2
  · funext o; exact (ld_rA x6 o).2.2
  · funext k; exact (ld_rC x7 k).2.2
  · exact (ld_rD x8).2.2

/-- An entry of the values' block: branch `b`'s value at the block's `j`-th input. -/
theorem out9_at (x0 : Vec Ideal S1x4096 .f32) (x1 x2 : Vec Ideal S3x128x1 .f32) (x3 : Vec Ideal S3x128x128 .f32) (x4 : Vec Ideal S3x128x1 .f32) (x5 : Vec Ideal S3x128x128 .f32) (x6 : Vec Ideal S3x128x1 .f32) (x7 : Vec Ideal S3x1x128 .f32) (x8 : Vec Ideal S3x1x1 .f32) (b : Fin 3) (j : Fin 4096) :
    out9 (F := Ideal) x0 x1 x2 x3 x4 x5 x6 x7 x8 (ix3 b (0 : Fin 1) j) = (netK x1 x2 x3 x4 x5 x6 x7 x8 b).val (x0 (ix2 (0 : Fin 1) j)) := by
  unfold out9
  refine (View.canon_apply_of_pieces (fun y : S3x1x4096.Idx => (netK x1 x2 x3 x4 x5 x6 x7 x8 ⟨(y 0).val, (y 0).isLt⟩).val (x0 (ix2 (0 : Fin 1) ⟨(y 2).val, (y 2).isLt⟩))) _ ?_ (ix3 b (0 : Fin 1) j) (cover3 _ _ _ _)).trans rfl
  intro p hp x
  simp only [List.mem_cons, List.mem_nil_iff, or_false] at hp
  rcases hp with rfl | rfl | rfl
  · obtain ⟨z0, z1, z2, rfl⟩ : ∃ (z0 : Fin 1) (z1 : Fin 1) (z2 : Fin 4096), x = ix3 z0 z1 z2 := ⟨x 0, x 1, x 2, eq_ix3 x⟩
    obtain rfl : z0 = 0 := Subsingleton.elim _ _
    obtain rfl : z1 = 0 := Subsingleton.elim _ _
    show val2 (F := Ideal) (View.ld x0 rT) (View.ld x1 rA2) (View.ld x2 rA2) (View.ld x3 rB2) (View.ld x4 rA2) (View.ld x5 rB2) (View.ld x6 rA2) (View.ld x7 rC2) (View.ld x8 rD2) (ix3 (0 : Fin 1) (0 : Fin 1) z2) = _
    rw [KValue.val2_at (c4 := View.ld x8 rD2), netL_rows2, View.ld_unit_zero hzT]
    refine congrArg₂ (fun (b : Fin 3) (j : Fin 4096) => (netK x1 x2 x3 x4 x5 x6 x7 x8 b).val (x0 (ix2 (0 : Fin 1) j))) (Fin.ext ?_) (Fin.ext ?_)
    · show 2 = 2 + 1 * 0
      rfl
    · show z2.val = 0 + 1 * z2.val
      omega
  · obtain ⟨z0, z1, z2, rfl⟩ : ∃ (z0 : Fin 1) (z1 : Fin 1) (z2 : Fin 4096), x = ix3 z0 z1 z2 := ⟨x 0, x 1, x 2, eq_ix3 x⟩
    obtain rfl : z0 = 0 := Subsingleton.elim _ _
    obtain rfl : z1 = 0 := Subsingleton.elim _ _
    show val1 (F := Ideal) (View.ld x0 rT) (View.ld x1 rA1) (View.ld x2 rA1) (View.ld x3 rB1) (View.ld x4 rA1) (View.ld x5 rB1) (View.ld x6 rA1) (View.ld x7 rC1) (View.ld x8 rD1) (ix3 (0 : Fin 1) (0 : Fin 1) z2) = _
    rw [KValue.val1_at (c4 := View.ld x8 rD1), netL_rows1, View.ld_unit_zero hzT]
    refine congrArg₂ (fun (b : Fin 3) (j : Fin 4096) => (netK x1 x2 x3 x4 x5 x6 x7 x8 b).val (x0 (ix2 (0 : Fin 1) j))) (Fin.ext ?_) (Fin.ext ?_)
    · show 1 = 1 + 1 * 0
      rfl
    · show z2.val = 0 + 1 * z2.val
      omega
  · obtain ⟨z0, z1, z2, rfl⟩ : ∃ (z0 : Fin 1) (z1 : Fin 1) (z2 : Fin 4096), x = ix3 z0 z1 z2 := ⟨x 0, x 1, x 2, eq_ix3 x⟩
    obtain rfl : z0 = 0 := Subsingleton.elim _ _
    obtain rfl : z1 = 0 := Subsingleton.elim _ _
    show val0 (F := Ideal) (View.ld x0 rT) (View.ld x1 rA0) (View.ld x2 rA0) (View.ld x3 rB0) (View.ld x4 rA0) (View.ld x5 rB0) (View.ld x6 rA0) (View.ld x7 rC0) (View.ld x8 rD0) (ix3 (0 : Fin 1) (0 : Fin 1) z2) = _
    rw [KValue.val0_at (c4 := View.ld x8 rD0), netL_rows0, View.ld_unit_zero hzT]
    refine congrArg₂ (fun (b : Fin 3) (j : Fin 4096) => (netK x1 x2 x3 x4 x5 x6 x7 x8 b).val (x0 (ix2 (0 : Fin 1) j))) (Fin.ext ?_) (Fin.ext ?_)
    · show 0 = 0 + 1 * 0
      rfl
    · show z2.val = 0 + 1 * z2.val
      omega

/-- An entry of the derivatives' block. -/
theorem out10_at (x0 : Vec Ideal S1x4096 .f32) (x1 x2 : Vec Ideal S3x128x1 .f32) (x3 : Vec Ideal S3x128x128 .f32) (x4 : Vec Ideal S3x128x1 .f32) (x5 : Vec Ideal S3x128x128 .f32) (x6 : Vec Ideal S3x128x1 .f32) (x7 : Vec Ideal S3x1x128 .f32) (x8 : Vec Ideal S3x1x1 .f32) (b : Fin 3) (j : Fin 4096) :
    out10 (F := Ideal) x0 x1 x2 x3 x4 x5 x6 x7 (ix3 b (0 : Fin 1) j) = (netK x1 x2 x3 x4 x5 x6 x7 x8 b).tan (x0 (ix2 (0 : Fin 1) j)) := by
  unfold out10
  refine (View.canon_apply_of_pieces (fun y : S3x1x4096.Idx => (netK x1 x2 x3 x4 x5 x6 x7 x8 ⟨(y 0).val, (y 0).isLt⟩).tan (x0 (ix2 (0 : Fin 1) ⟨(y 2).val, (y 2).isLt⟩))) _ ?_ (ix3 b (0 : Fin 1) j) (cover3 _ _ _ _)).trans rfl
  intro p hp x
  simp only [List.mem_cons, List.mem_nil_iff, or_false] at hp
  rcases hp with rfl | rfl | rfl
  · obtain ⟨z0, z1, z2, rfl⟩ : ∃ (z0 : Fin 1) (z1 : Fin 1) (z2 : Fin 4096), x = ix3 z0 z1 z2 := ⟨x 0, x 1, x 2, eq_ix3 x⟩
    obtain rfl : z0 = 0 := Subsingleton.elim _ _
    obtain rfl : z1 = 0 := Subsingleton.elim _ _
    show tan2 (F := Ideal) (View.ld x0 rT) (View.ld x1 rA2) (View.ld x2 rA2) (View.ld x3 rB2) (View.ld x4 rA2) (View.ld x5 rB2) (View.ld x6 rA2) (View.ld x7 rC2) (ix3 (0 : Fin 1) (0 : Fin 1) z2) = _
    rw [KValue.tan2_at (c4 := View.ld x8 rD2), netL_rows2, View.ld_unit_zero hzT]
    refine congrArg₂ (fun (b : Fin 3) (j : Fin 4096) => (netK x1 x2 x3 x4 x5 x6 x7 x8 b).tan (x0 (ix2 (0 : Fin 1) j))) (Fin.ext ?_) (Fin.ext ?_)
    · show 2 = 2 + 1 * 0
      rfl
    · show z2.val = 0 + 1 * z2.val
      omega
  · obtain ⟨z0, z1, z2, rfl⟩ : ∃ (z0 : Fin 1) (z1 : Fin 1) (z2 : Fin 4096), x = ix3 z0 z1 z2 := ⟨x 0, x 1, x 2, eq_ix3 x⟩
    obtain rfl : z0 = 0 := Subsingleton.elim _ _
    obtain rfl : z1 = 0 := Subsingleton.elim _ _
    show tan1 (F := Ideal) (View.ld x0 rT) (View.ld x1 rA1) (View.ld x2 rA1) (View.ld x3 rB1) (View.ld x4 rA1) (View.ld x5 rB1) (View.ld x6 rA1) (View.ld x7 rC1) (ix3 (0 : Fin 1) (0 : Fin 1) z2) = _
    rw [KValue.tan1_at (c4 := View.ld x8 rD1), netL_rows1, View.ld_unit_zero hzT]
    refine congrArg₂ (fun (b : Fin 3) (j : Fin 4096) => (netK x1 x2 x3 x4 x5 x6 x7 x8 b).tan (x0 (ix2 (0 : Fin 1) j))) (Fin.ext ?_) (Fin.ext ?_)
    · show 1 = 1 + 1 * 0
      rfl
    · show z2.val = 0 + 1 * z2.val
      omega
  · obtain ⟨z0, z1, z2, rfl⟩ : ∃ (z0 : Fin 1) (z1 : Fin 1) (z2 : Fin 4096), x = ix3 z0 z1 z2 := ⟨x 0, x 1, x 2, eq_ix3 x⟩
    obtain rfl : z0 = 0 := Subsingleton.elim _ _
    obtain rfl : z1 = 0 := Subsingleton.elim _ _
    show tan0 (F := Ideal) (View.ld x0 rT) (View.ld x1 rA0) (View.ld x2 rA0) (View.ld x3 rB0) (View.ld x4 rA0) (View.ld x5 rB0) (View.ld x6 rA0) (View.ld x7 rC0) (ix3 (0 : Fin 1) (0 : Fin 1) z2) = _
    rw [KValue.tan0_at (c4 := View.ld x8 rD0), netL_rows0, View.ld_unit_zero hzT]
    refine congrArg₂ (fun (b : Fin 3) (j : Fin 4096) => (netK x1 x2 x3 x4 x5 x6 x7 x8 b).tan (x0 (ix2 (0 : Fin 1) j))) (Fin.ext ?_) (Fin.ext ?_)
    · show 0 = 0 + 1 * 0
      rfl
    · show z2.val = 0 + 1 * z2.val
      omega

/-! ## From blocks to the arrays -/

/-- The values' array, entry by entry: branch `i 0`'s value at input `i 2`. -/
def G9 (c : Dev nD) : S3x1x262144.Idx → Elt Ideal .f32 := fun i =>
  (netR (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨(i 0).val, (i 0).isLt⟩).val
    ((m ((c : Thread nD τ).loc main_arg0) : S262144.Idx → Elt Ideal .f32) (ix1 ⟨(i 2).val, (i 2).isLt⟩))

theorem G9_at (c : Dev nD) (i : S3x1x262144.Idx) (b : Fin 3) (n : Fin 262144) (hb : (i 0).val = b.val) (hn : (i 2).val = n.val) :
    G9 m c i = (netR (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b).val
      ((m ((c : Thread nD τ).loc main_arg0) : S262144.Idx → Elt Ideal .f32) (ix1 n)) := by
  unfold G9
  have e1 : (⟨(i 0).val, (i 0).isLt⟩ : Fin 3) = b := Fin.ext hb
  have e2 : (⟨(i 2).val, (i 2).isLt⟩ : Fin 262144) = n := Fin.ext hn
  rw [e1, e2]

/-- The derivatives' array, entry by entry: branch `i 0`'s derivative at input `i 2`. -/
def G10 (c : Dev nD) : S3x1x262144.Idx → Elt Ideal .f32 := fun i =>
  (netR (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨(i 0).val, (i 0).isLt⟩).tan
    ((m ((c : Thread nD τ).loc main_arg0) : S262144.Idx → Elt Ideal .f32) (ix1 ⟨(i 2).val, (i 2).isLt⟩))

theorem G10_at (c : Dev nD) (i : S3x1x262144.Idx) (b : Fin 3) (n : Fin 262144) (hb : (i 0).val = b.val) (hn : (i 2).val = n.val) :
    G10 m c i = (netR (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b).tan
      ((m ((c : Thread nD τ).loc main_arg0) : S262144.Idx → Elt Ideal .f32) (ix1 n)) := by
  unfold G10
  have e1 : (⟨(i 0).val, (i 0).isLt⟩ : Fin 3) = b := Fin.ext hb
  have e2 : (⟨(i 2).val, (i 2).isLt⟩ : Fin 262144) = n := Fin.ext hn
  rw [e1, e2]

/-- What point `t` writes back of window 9 is block `t` of `G9`. -/
theorem flushed9_eq (c : Dev nD) (t : Fin cfg0.N) :
    (dats m 0 c).flushed 9 t = ((cfg0.win 9).blk t).view.read (Elt Ideal) (G9 m c) := by
  have ht := t_lt t
  have e := (idx_facts t).2.2.2.2.2.2.2.2.2.2
  show (cfg0.win 9).cut (grid0.coords t) ((dats m 0 c).after 9 t) = _
  rw [after0_9]
  funext y
  obtain ⟨b, z, j, rfl⟩ : ∃ (b : Fin 3) (z : Fin 1) (j : Fin 4096), y = ix3 b z j := ⟨y 0, y 1, y 2, eq_ix3 y⟩
  obtain rfl : z = 0 := Subsingleton.elim _ _
  show out9 (F := Ideal) (iblk m c 0 t) (iblk m c 1 t) (iblk m c 2 t) (iblk m c 3 t) (iblk m c 4 t) (iblk m c 5 t) (iblk m c 6 t) (iblk m c 7 t) (iblk m c 8 t) (ix3 b (0 : Fin 1) j) = G9 m c (((cfg0.win 9).blk t).view.emb (ix3 b (0 : Fin 1) j))
  rw [out9_at (x8 := iblk m c 8 t), netK_blocks, iblk0_at m c t j ⟨t.val * 4096 + j.val, by have := j.isLt; omega⟩ rfl]
  refine (G9_at m c _ b ⟨t.val * 4096 + j.val, by have := j.isLt; omega⟩ ?_ ?_).symm
  · show win0_9.index t (0 : Fin 3) * 3 + 1 * b.val = b.val
    rw [e.1]; omega
  · show win0_9.index t (2 : Fin 3) * 4096 + 1 * j.val = t.val * 4096 + j.val
    rw [e.2.2.1]; omega

/-- An index of the array is in point `t`'s block iff each coordinate is in the block's range on its axis. -/
theorem mem_blk9 (t : Fin cfg0.N) (i : S3x1x262144.Idx) :
    i ∈ ((cfg0.win 9).blk t).view.set ↔ ∀ a : Fin 3, win0_9.index t a * S3x1x4096.size a ≤ (i a).val ∧ (i a).val < win0_9.index t a * S3x1x4096.size a + S3x1x4096.size a := by
  show i ∈ ((View.whole main_v5_0).slice (win0_9.rect t)).set ↔ _
  rw [View.set_slice_whole, Rect.mem_set_unit]
  exact Iff.rfl

/-- Every entry of the array is in the block of the point its column falls in. -/
theorem cover9 (i : S3x1x262144.Idx) : ∃ t : Fin cfg0.N, (cfg0.win 9).flush t = true ∧ i ∈ ((cfg0.win 9).blk t).view.set := by
  have hN : cfg0.N = 64 := N_0
  have h0 : (i 0).val < 3 := (i 0).isLt
  have h1 : (i 1).val < 1 := (i 1).isLt
  have h2 : (i 2).val < 262144 := (i 2).isLt
  have ht : (i 2).val / 4096 < cfg0.N := by omega
  have e := (idx_facts ⟨(i 2).val / 4096, ht⟩).2.2.2.2.2.2.2.2.2.2
  refine ⟨⟨(i 2).val / 4096, ht⟩, flush0_9 _, ?_⟩
  rw [mem_blk9]
  intro a
  match a with
  | ⟨0, _⟩ =>
    show win0_9.index ⟨(i 2).val / 4096, ht⟩ (0 : Fin 3) * 3 ≤ (i 0).val ∧ (i 0).val < win0_9.index ⟨(i 2).val / 4096, ht⟩ (0 : Fin 3) * 3 + 3
    rw [e.1]; omega
  | ⟨1, _⟩ =>
    show win0_9.index ⟨(i 2).val / 4096, ht⟩ (1 : Fin 3) * 1 ≤ (i 1).val ∧ (i 1).val < win0_9.index ⟨(i 2).val / 4096, ht⟩ (1 : Fin 3) * 1 + 1
    rw [e.2.1]; omega
  | ⟨2, _⟩ =>
    show win0_9.index ⟨(i 2).val / 4096, ht⟩ (2 : Fin 3) * 4096 ≤ (i 2).val ∧ (i 2).val < win0_9.index ⟨(i 2).val / 4096, ht⟩ (2 : Fin 3) * 4096 + 4096
    rw [e.2.2.1]
    show (i 2).val / 4096 * 4096 ≤ (i 2).val ∧ (i 2).val < (i 2).val / 4096 * 4096 + 4096
    omega

/-- The array after the run. -/
theorem final9 (c : Dev nD) : (dats m 0 c).arrAt 9 cfg0.N = G9 m c :=
  (dats m 0 c).arrAt_eq_of_cover 9 (G9 m c) (fun t _ => flushed9_eq m c t) cover9

/-- What point `t` writes back of window 10 is block `t` of `G10`. -/
theorem flushed10_eq (c : Dev nD) (t : Fin cfg0.N) :
    (dats m 0 c).flushed 10 t = ((cfg0.win 10).blk t).view.read (Elt Ideal) (G10 m c) := by
  have ht := t_lt t
  have e := (idx_facts t).2.2.2.2.2.2.2.2.2.2
  show (cfg0.win 10).cut (grid0.coords t) ((dats m 0 c).after 10 t) = _
  rw [after0_10]
  funext y
  obtain ⟨b, z, j, rfl⟩ : ∃ (b : Fin 3) (z : Fin 1) (j : Fin 4096), y = ix3 b z j := ⟨y 0, y 1, y 2, eq_ix3 y⟩
  obtain rfl : z = 0 := Subsingleton.elim _ _
  show out10 (F := Ideal) (iblk m c 0 t) (iblk m c 1 t) (iblk m c 2 t) (iblk m c 3 t) (iblk m c 4 t) (iblk m c 5 t) (iblk m c 6 t) (iblk m c 7 t) (ix3 b (0 : Fin 1) j) = G10 m c (((cfg0.win 10).blk t).view.emb (ix3 b (0 : Fin 1) j))
  rw [out10_at (x8 := iblk m c 8 t), netK_blocks, iblk0_at m c t j ⟨t.val * 4096 + j.val, by have := j.isLt; omega⟩ rfl]
  refine (G10_at m c _ b ⟨t.val * 4096 + j.val, by have := j.isLt; omega⟩ ?_ ?_).symm
  · show win0_10.index t (0 : Fin 3) * 3 + 1 * b.val = b.val
    rw [e.2.2.2.1]; omega
  · show win0_10.index t (2 : Fin 3) * 4096 + 1 * j.val = t.val * 4096 + j.val
    rw [e.2.2.2.2.2]; omega

/-- An index of the array is in point `t`'s block iff each coordinate is in the block's range on its axis. -/
theorem mem_blk10 (t : Fin cfg0.N) (i : S3x1x262144.Idx) :
    i ∈ ((cfg0.win 10).blk t).view.set ↔ ∀ a : Fin 3, win0_10.index t a * S3x1x4096.size a ≤ (i a).val ∧ (i a).val < win0_10.index t a * S3x1x4096.size a + S3x1x4096.size a := by
  show i ∈ ((View.whole main_v5_1).slice (win0_10.rect t)).set ↔ _
  rw [View.set_slice_whole, Rect.mem_set_unit]
  exact Iff.rfl

/-- Every entry of the array is in the block of the point its column falls in. -/
theorem cover10 (i : S3x1x262144.Idx) : ∃ t : Fin cfg0.N, (cfg0.win 10).flush t = true ∧ i ∈ ((cfg0.win 10).blk t).view.set := by
  have hN : cfg0.N = 64 := N_0
  have h0 : (i 0).val < 3 := (i 0).isLt
  have h1 : (i 1).val < 1 := (i 1).isLt
  have h2 : (i 2).val < 262144 := (i 2).isLt
  have ht : (i 2).val / 4096 < cfg0.N := by omega
  have e := (idx_facts ⟨(i 2).val / 4096, ht⟩).2.2.2.2.2.2.2.2.2.2
  refine ⟨⟨(i 2).val / 4096, ht⟩, flush0_10 _, ?_⟩
  rw [mem_blk10]
  intro a
  match a with
  | ⟨0, _⟩ =>
    show win0_10.index ⟨(i 2).val / 4096, ht⟩ (0 : Fin 3) * 3 ≤ (i 0).val ∧ (i 0).val < win0_10.index ⟨(i 2).val / 4096, ht⟩ (0 : Fin 3) * 3 + 3
    rw [e.2.2.2.1]; omega
  | ⟨1, _⟩ =>
    show win0_10.index ⟨(i 2).val / 4096, ht⟩ (1 : Fin 3) * 1 ≤ (i 1).val ∧ (i 1).val < win0_10.index ⟨(i 2).val / 4096, ht⟩ (1 : Fin 3) * 1 + 1
    rw [e.2.2.2.2.1]; omega
  | ⟨2, _⟩ =>
    show win0_10.index ⟨(i 2).val / 4096, ht⟩ (2 : Fin 3) * 4096 ≤ (i 2).val ∧ (i 2).val < win0_10.index ⟨(i 2).val / 4096, ht⟩ (2 : Fin 3) * 4096 + 4096
    rw [e.2.2.2.2.2]
    show (i 2).val / 4096 * 4096 ≤ (i 2).val ∧ (i 2).val < (i 2).val / 4096 * 4096 + 4096
    omega

/-- The array after the run. -/
theorem final10 (c : Dev nD) : (dats m 0 c).arrAt 10 cfg0.N = G10 m c :=
  (dats m 0 c).arrAt_eq_of_cover 10 (G10 m c) (fun t _ => flushed10_eq m c t) cover10

end Cert.KernelIdeal.KArr

end
-- ==== Proof.Tail.lean ====
/-
  The host operations that both programs apply after the network: the three "_post" steps.

  Both programs hold the values and the derivatives of the three branches as two [3, 262144] arrays. For branch j
  (row j of each array, read as a vector v of values and a vector dt of derivatives) and the branch's sign s = ±1
  (+1, -1, +1 for the three branches), a _post step returns

    * the value result    s · |v - v₀|, where v₀ is the first entry of v broadcast along the vector, and
    * the derivative result, which is the chain rule of the former: the vector g = (s · sign(v - v₀)) · dt, except for
      its first entry, where v - v₀ vanishes identically and the sign carries no information: that entry is replaced by
      +|dt₀| when the second entry g₁ is at least zero and by -|dt₀| otherwise.

  The definitions spell each step with exactly the operations, in the order and with the operand nesting, that the two
  programs use, as functions of the two [3, 262144] arrays; the shape relations the operations ask for are the program's
  stated side conditions.
-/
import proofs.«123856_j84945863180832_2_alg».proof.KernelIdeal

noncomputable section

namespace Cert.KernelIdeal.Tail

open Idealize.ShloMosaic Idealize.SL.Sem Cert.KernelIdeal Cert.KernelIdeal.Facts₀

variable {F : FTy → Type} [FloatOps F] [Facts₀]

/-- Row 0 of a [3, 262144] array as a vector: the slice [0:1, :] reshaped to [262144]. -/
def row0 (x : FVec F S3x262144 .f32) : FVec F S262144 .f32 :=
  shapeCast _ (extractStridedSlice S1x262144 ![0, 0] x slices_S3x262144_S1x262144_0_0) shapeCasts_S1x262144_S262144

/-- Row 1 as a vector. -/
def row1 (x : FVec F S3x262144 .f32) : FVec F S262144 .f32 :=
  shapeCast _ (extractStridedSlice S1x262144 ![1, 0] x slices_S3x262144_S1x262144_1_0) shapeCasts_S1x262144_S262144

/-- Row 2 as a vector. -/
def row2 (x : FVec F S3x262144 .f32) : FVec F S262144 .f32 :=
  shapeCast _ (extractStridedSlice S1x262144 ![2, 0] x slices_S3x262144_S1x262144_2_0) shapeCasts_S1x262144_S262144

/-- v₀ along the whole vector: the first entry, as a scalar, broadcast to [262144]. -/
def first (v : FVec F S262144 .f32) : FVec F S262144 .f32 :=
  broadcastInDim S262144 ![] bcast_S_S262144
    (shapeCast _ (extractStridedSlice S1 ![0] v slices_S262144_S1_0) shapeCasts_S1_S_)

/-- The branch's sign (an f32 word, 1.0 or -1.0) along the whole vector. -/
def scale (s : BitVec 32) : FVec F S262144 .f32 :=
  broadcastInDim S262144 ![] bcast_S_S262144 (constant (F := F) S_ .f32 s)

/-- The value result s · |v - v₀|. -/
def postVal (s : BitVec 32) (v : FVec F S262144 .f32) : FVec F S262144 .f32 :=
  mulf (scale (F := F) s) (Host.absf (F := F) (subf v (first v)))

/-- The chain-rule vector g = (s · sign(v - v₀)) · dt. -/
def chain (s : BitVec 32) (v dt : FVec F S262144 .f32) : FVec F S262144 .f32 :=
  mulf (mulf (scale (F := F) s) (Host.sign (F := F) (subf v (first v)))) dt

/-- The derivative result: g with its first entry replaced by +|dt₀| if g₁ ≥ 0 and by -|dt₀| otherwise. -/
def postDt (s : BitVec 32) (v dt : FVec F S262144 .f32) : FVec F S262144 .f32 :=
  concatenate S262144 0
    [⟨S1, select
        (broadcastInDim S1 ![] bcast_S_S1
          (cmpf .oge (shapeCast _ (extractStridedSlice S1 ![1] (chain s v dt) slices_S262144_S1_1) shapeCasts_S1_S_)
            (constant (F := F) S_ .f32 0x00000000#32)))
        (Host.absf (F := F) (extractStridedSlice S1 ![0] dt slices_S262144_S1_0))
        (Host.negf (F := F) (Host.absf (F := F) (extractStridedSlice S1 ![0] dt slices_S262144_S1_0)))⟩,
     ⟨S262143, extractStridedSlice S262143 ![1] (chain s v dt) slices_S262144_S262143_1⟩]
    concatenates_S1_S262143_S262144_d0

/-- Branch 0's value result: |v - v₀| with the sign +1. -/
def res0 (vals dts : FVec F S3x262144 .f32) : FVec F S262144 .f32 := postVal 0x3F800000#32 (row0 vals)

/-- Branch 1's value result: the sign is -1. -/
def res1 (vals dts : FVec F S3x262144 .f32) : FVec F S262144 .f32 := postVal 0xBF800000#32 (row1 vals)

/-- Branch 2's value result: the sign is +1. -/
def res2 (vals dts : FVec F S3x262144 .f32) : FVec F S262144 .f32 := postVal 0x3F800000#32 (row2 vals)

/-- Branch 0's derivative result. -/
def res3 (vals dts : FVec F S3x262144 .f32) : FVec F S262144 .f32 := postDt 0x3F800000#32 (row0 vals) (row0 dts)

/-- Branch 1's derivative result. -/
def res4 (vals dts : FVec F S3x262144 .f32) : FVec F S262144 .f32 := postDt 0xBF800000#32 (row1 vals) (row1 dts)

/-- Branch 2's derivative result. -/
def res5 (vals dts : FVec F S3x262144 .f32) : FVec F S262144 .f32 := postDt 0x3F800000#32 (row2 vals) (row2 dts)

end Cert.KernelIdeal.Tail

end
-- ==== Proof.KernelTail.lean ====
/-
  The kernel program's six results are the three "_post" steps of Tail.lean applied to the region's two outputs.

  After the region the host program reshapes the region's two [3, 1, 262144] outputs to [3, 262144] (the values and the
  derivatives of the three branches) and runs the 101 operations of the three _post steps on them. Each operation
  writes its own result buffer as a pure function of its operands' buffers, so what a result buffer holds at the end is
  the composition of those functions along the operands, starting from the two outputs: s · |v - v₀| for the values,
  and the chain-rule vector (s · sign(v - v₀)) · dt with its first entry replaced by ±|dt₀| for the derivatives.
-/
import proofs.«123856_j84945863180832_2_alg».proof.Proof.Tail
import proofs.«123856_j84945863180832_2_alg».proof.Proof.KernelIdealFrame
import Idealize.ShloMosaic.Lib.StableHlo.Run
import Idealize.ShloMosaic.PureOps.Ideal

set_option maxRecDepth 16384

noncomputable section

namespace Cert.KernelIdeal.KTail

open Cert.KernelIdeal Cert.KernelIdeal.Gen
open Idealize.ShloMosaic Idealize.ShloMosaic.TcCoe Idealize.SL.Sem Idealize.ShloMosaic.StableHlo

theorem k_res0 (W : Valuation τ sig (Elt Ideal)) :
    StableHlo.after (List.flatten (Cert.KernelIdeal.Hand.tailOps (F := Ideal))) W (Proc.devRef .tc main_v37)
      = Tail.res0 (F := Ideal)
          (shapeCast S3x262144 (W (Proc.devRef .tc main_v5_0) : S3x1x262144.Idx → Elt Ideal .f32) Facts₀.shapeCasts_S3x1x262144_S3x262144)
          (shapeCast S3x262144 (W (Proc.devRef .tc main_v5_1) : S3x1x262144.Idx → Elt Ideal .f32) Facts₀.shapeCasts_S3x1x262144_S3x262144) := by
  simp only [Hand.tailOps, hostOps1, hostOps1_1, hostOps1_2, hostOps1_3, hostOps1_4, hostOps1_5, hostOps1_6,
    List.flatten_cons, List.flatten_nil, List.append_nil, List.cons_append, List.nil_append]
  after_results_simp <;> rfl

theorem k_res1 (W : Valuation τ sig (Elt Ideal)) :
    StableHlo.after (List.flatten (Cert.KernelIdeal.Hand.tailOps (F := Ideal))) W (Proc.devRef .tc main_v67)
      = Tail.res1 (F := Ideal)
          (shapeCast S3x262144 (W (Proc.devRef .tc main_v5_0) : S3x1x262144.Idx → Elt Ideal .f32) Facts₀.shapeCasts_S3x1x262144_S3x262144)
          (shapeCast S3x262144 (W (Proc.devRef .tc main_v5_1) : S3x1x262144.Idx → Elt Ideal .f32) Facts₀.shapeCasts_S3x1x262144_S3x262144) := by
  simp only [Hand.tailOps, hostOps1, hostOps1_1, hostOps1_2, hostOps1_3, hostOps1_4, hostOps1_5, hostOps1_6,
    List.flatten_cons, List.flatten_nil, List.append_nil, List.cons_append, List.nil_append]
  after_results_simp <;> rfl

theorem k_res2 (W : Valuation τ sig (Elt Ideal)) :
    StableHlo.after (List.flatten (Cert.KernelIdeal.Hand.tailOps (F := Ideal))) W (Proc.devRef .tc main_v97)
      = Tail.res2 (F := Ideal)
          (shapeCast S3x262144 (W (Proc.devRef .tc main_v5_0) : S3x1x262144.Idx → Elt Ideal .f32) Facts₀.shapeCasts_S3x1x262144_S3x262144)
          (shapeCast S3x262144 (W (Proc.devRef .tc main_v5_1) : S3x1x262144.Idx → Elt Ideal .f32) Facts₀.shapeCasts_S3x1x262144_S3x262144) := by
  simp only [Hand.tailOps, hostOps1, hostOps1_1, hostOps1_2, hostOps1_3, hostOps1_4, hostOps1_5, hostOps1_6,
    List.flatten_cons, List.flatten_nil, List.append_nil, List.cons_append, List.nil_append]
  after_results_simp <;> rfl

theorem k_res3 (W : Valuation τ sig (Elt Ideal)) :
    StableHlo.after (List.flatten (Cert.KernelIdeal.Hand.tailOps (F := Ideal))) W (Proc.devRef .tc main_v30)
      = Tail.res3 (F := Ideal)
          (shapeCast S3x262144 (W (Proc.devRef .tc main_v5_0) : S3x1x262144.Idx → Elt Ideal .f32) Facts₀.shapeCasts_S3x1x262144_S3x262144)
          (shapeCast S3x262144 (W (Proc.devRef .tc main_v5_1) : S3x1x262144.Idx → Elt Ideal .f32) Facts₀.shapeCasts_S3x1x262144_S3x262144) := by
  simp only [Hand.tailOps, hostOps1, hostOps1_1, hostOps1_2, hostOps1_3, hostOps1_4, hostOps1_5, hostOps1_6,
    List.flatten_cons, List.flatten_nil, List.append_nil, List.cons_append, List.nil_append]
  after_results_simp <;> rfl

theorem k_res4 (W : Valuation τ sig (Elt Ideal)) :
    StableHlo.after (List.flatten (Cert.KernelIdeal.Hand.tailOps (F := Ideal))) W (Proc.devRef .tc main_v60)
      = Tail.res4 (F := Ideal)
          (shapeCast S3x262144 (W (Proc.devRef .tc main_v5_0) : S3x1x262144.Idx → Elt Ideal .f32) Facts₀.shapeCasts_S3x1x262144_S3x262144)
          (shapeCast S3x262144 (W (Proc.devRef .tc main_v5_1) : S3x1x262144.Idx → Elt Ideal .f32) Facts₀.shapeCasts_S3x1x262144_S3x262144) := by
  simp only [Hand.tailOps, hostOps1, hostOps1_1, hostOps1_2, hostOps1_3, hostOps1_4, hostOps1_5, hostOps1_6,
    List.flatten_cons, List.flatten_nil, List.append_nil, List.cons_append, List.nil_append]
  after_results_simp <;> rfl

theorem k_res5 (W : Valuation τ sig (Elt Ideal)) :
    StableHlo.after (List.flatten (Cert.KernelIdeal.Hand.tailOps (F := Ideal))) W (Proc.devRef .tc main_v90)
      = Tail.res5 (F := Ideal)
          (shapeCast S3x262144 (W (Proc.devRef .tc main_v5_0) : S3x1x262144.Idx → Elt Ideal .f32) Facts₀.shapeCasts_S3x1x262144_S3x262144)
          (shapeCast S3x262144 (W (Proc.devRef .tc main_v5_1) : S3x1x262144.Idx → Elt Ideal .f32) Facts₀.shapeCasts_S3x1x262144_S3x262144) := by
  simp only [Hand.tailOps, hostOps1, hostOps1_1, hostOps1_2, hostOps1_3, hostOps1_4, hostOps1_5, hostOps1_6,
    List.flatten_cons, List.flatten_nil, List.append_nil, List.cons_append, List.nil_append]
  after_results_simp <;> rfl

end Cert.KernelIdeal.KTail

end
-- ==== Proof.RefValue.lean ====
/-
  The reference program's two [3, 262144] results, read one entry at a time, are the network of Spec.lean.

  The reference evaluates the three branches batch-major: every hidden array has shape [3, 262144, 128], and entry
  (b, n, h) is unit h of branch b at input t = a0[n]. Layer 1 is t * w1[h] + c1[h] (the input on the left, which is the
  spec's w1[h] * t by commutativity); the tangent entering layer 1 is 1 * w1[h]. A hidden layer contracts the previous
  activations (and their gated derivatives) with the transposed weight matrix, Σ k, x[b,n,k] * W[b,o,k], which is the
  spec's weight-row-times-activation sum with each product commuted. The rectifier is a maximum with an all-zero array
  and its chain rule a select on "pre-activation > 0" against an all-zero array, so both read as the spec's act and gate
  once every zero array is read as the zero word. The output layer contracts with the transposed row w4 into
  [3, 262144, 1], and the final reshapes drop that unit axis: (262144 b + n) / 262144 = b, (262144 b + n) % 262144 = n.

  Each lemma below reads one stage of the program at an index built from its coordinates and identifies it with the
  corresponding field of the branch's net; the two theorems at the end are the values and the derivatives.
-/
import proofs.«123856_j84945863180832_2_alg».proof.Proof.Gen.ReferenceIdeal.Read
import proofs.«123856_j84945863180832_2_alg».proof.Proof.Spec

noncomputable section

open scoped BigOperators

namespace Cert.ReferenceIdeal.RefValue

open Cert.ReferenceIdeal Cert.ReferenceIdeal.Read Idealize.ShloMosaic Idealize.ShloMosaic.ValueIdx Cert.Mlp

/-- The f32 word of 1.0 denotes the extended real 1. -/
theorem one_word : Ideal.ofBits .f32 0x3F800000#32 = 1 := by
  simp [Ideal.ofBits, Ideal.ieee, -EReal.coe_mul]; norm_num

section

variable (a0 : FVec Ideal S262144 .f32) (a1 : FVec Ideal S3x128x1 .f32) (a2 : FVec Ideal S3x128 .f32)
  (a3 : FVec Ideal S3x128x128 .f32) (a4 : FVec Ideal S3x128 .f32) (a5 : FVec Ideal S3x128x128 .f32)
  (a6 : FVec Ideal S3x128 .f32) (a7 : FVec Ideal S3x1x128 .f32) (a8 : FVec Ideal S3x1 .f32)
  (b : Fin 3) (n : Fin 262144)

/-! ### Layer 1: the input broadcast along features, the weight column broadcast along the batch -/

theorem v6_at (h : Fin 128) : val_main_v6 (F := Ideal) a0 (ix3 b n h) = a0 (ix1 n) := by
  rw [val_main_v6_apply, val_main_v5_apply, val_main_v1_apply]
  exact congrArg a0 (funext fun a => match a with | ⟨0, _⟩ => rfl)

/-- The reshape [3,128,1] → [3,128] reads entry (b, h) at (b, h, 0): (128 b + h) / 128 = b and (128 b + h) % 128 = h. -/
theorem v4_at (u : Fin 1) (h : Fin 128) : val_main_v4 (F := Ideal) a1 (ix3 b u h) = a1 (ix3 b h (0 : Fin 1)) := by
  rw [val_main_v4_apply, val_main_v3_apply]
  refine congrArg a1 (funext fun a => Fin.ext ?_)
  have hb := b.isLt
  have hh := h.isLt
  match a with
  | ⟨0, _⟩ => show (b.val * 128 + h.val) / 128 = b.val; omega
  | ⟨1, _⟩ => show (b.val * 128 + h.val) / 1 % 128 = h.val; omega
  | ⟨2, _⟩ => rfl

theorem v7_at (h : Fin 128) : val_main_v7 (F := Ideal) a1 (ix3 b n h) = a1 (ix3 b h (0 : Fin 1)) := by
  rw [val_main_v7_apply]
  refine Eq.trans (congrArg (val_main_v4 (F := Ideal) a1) ?_) (v4_at a1 b (0 : Fin 1) h)
  exact funext fun a => match a with | ⟨0, _⟩ => rfl | ⟨1, _⟩ => rfl | ⟨2, _⟩ => rfl

theorem v11_at (h : Fin 128) : val_main_v11 (F := Ideal) a1 (ix3 b n h) = a1 (ix3 b h (0 : Fin 1)) := by
  rw [val_main_v11_apply]
  refine Eq.trans (congrArg (val_main_v4 (F := Ideal) a1) ?_) (v4_at a1 b (0 : Fin 1) h)
  exact funext fun a => match a with | ⟨0, _⟩ => rfl | ⟨1, _⟩ => rfl | ⟨2, _⟩ => rfl

theorem v10_at (i : S3x262144x128.Idx) : val_main_v10 (F := Ideal) i = 1 := by
  rw [val_main_v10_apply, val_main_v9_apply, val_main_v2_apply, val_main_v0_apply, val_main_cst_apply]
  exact one_word

/-- The tangent entering layer 1 is the weight: the input's own derivative is 1. -/
theorem v12_at (h : Fin 128) : val_main_v12 (F := Ideal) a1 (ix3 b n h) = a1 (ix3 b h (0 : Fin 1)) := by
  rw [val_main_v12_apply, v10_at, v11_at a1 b n h]
  exact one_mul _

theorem v14_at (h : Fin 128) : val_main_v14 (F := Ideal) a2 (ix3 b n h) = a2 (ix2 b h) := by
  rw [val_main_v14_apply, val_main_v13_apply]
  exact congrArg a2 (funext fun a => match a with | ⟨0, _⟩ => rfl | ⟨1, _⟩ => rfl)

theorem v15_at (h : Fin 128) :
    val_main_v15 (F := Ideal) a0 a1 a2 (ix3 b n h) = (netR a1 a2 a3 a4 a5 a6 a7 a8 b).z1 (a0 (ix1 n)) h := by
  rw [val_main_v15_apply, val_main_v8_apply, v6_at a0 b n h, v7_at a1 b n h, v14_at a2 b n h]
  exact congrArg (· + a2 (ix2 b h)) (mul_comm _ _)

theorem call0_at (i : S3x262144x128.Idx) : val_main_call0_v0 (F := Ideal) i = zeroW :=
  (val_main_call0_v0_apply (F := Ideal) i).trans (val_main_call0_cst_apply (F := Ideal) _)

theorem v17_at (i : S3x262144x128.Idx) : val_main_v17 (F := Ideal) i = zeroW :=
  (val_main_v17_apply (F := Ideal) i).trans (val_main_cst_0_apply (F := Ideal) _)

theorem v20_at (i : S3x262144x128.Idx) : val_main_v20 (F := Ideal) i = zeroW :=
  (val_main_v20_apply (F := Ideal) i).trans ((val_main_v19_apply (F := Ideal) _).trans (val_main_cst_1_apply (F := Ideal) _))

theorem v16_at (h : Fin 128) :
    val_main_v16 (F := Ideal) a0 a1 a2 (ix3 b n h) = (netR a1 a2 a3 a4 a5 a6 a7 a8 b).h1 (a0 (ix1 n)) h := by
  rw [val_main_v16_apply, v15_at a0 a1 a2 a3 a4 a5 a6 a7 a8 b n h, call0_at]
  rfl

theorem v21_at (h : Fin 128) :
    val_main_v21 (F := Ideal) a0 a1 a2 (ix3 b n h) = (netR a1 a2 a3 a4 a5 a6 a7 a8 b).d1 (a0 (ix1 n)) h := by
  rw [val_main_v21_apply, val_main_v18_apply, v15_at a0 a1 a2 a3 a4 a5 a6 a7 a8 b n h, v17_at, v12_at a1 b n h, v20_at]
  rfl

/-! ### Hidden layer: pre-activation z2, its derivative dz2, activation h2, gated derivative d2 -/

theorem v22_at (k o : Fin 128) : val_main_v22 (F := Ideal) a3 (ix3 b k o) = a3 (ix3 b o k) := by
  rw [val_main_v22_apply]
  exact congrArg a3 (funext fun a => match a with | ⟨0, _⟩ => rfl | ⟨1, _⟩ => rfl | ⟨2, _⟩ => rfl)

theorem v23_at (o : Fin 128) :
    val_main_v23 (F := Ideal) a0 a1 a2 a3 (ix3 b n o) = dotp ((netR a1 a2 a3 a4 a5 a6 a7 a8 b).W2 o) ((netR a1 a2 a3 a4 a5 a6 a7 a8 b).h1 (a0 (ix1 n))) := by
  rw [val_main_v23_apply]
  unfold dotp
  refine Finset.sum_congr rfl fun k _ => ?_
  have hl : lidx_main_v23 (ix3 b n o) k = ix3 b n k := funext fun a => match a with | ⟨0, _⟩ => rfl | ⟨1, _⟩ => rfl | ⟨2, _⟩ => rfl
  have hr : ridx_main_v23 (ix3 b n o) k = ix3 b k o := funext fun a => match a with | ⟨0, _⟩ => rfl | ⟨1, _⟩ => rfl | ⟨2, _⟩ => rfl
  rw [hl, hr, v16_at a0 a1 a2 a3 a4 a5 a6 a7 a8 b n k, v22_at a3 b k o]
  exact mul_comm _ _

theorem v24_at (o : Fin 128) :
    val_main_v24 (F := Ideal) a0 a1 a2 a3 (ix3 b n o) = (netR a1 a2 a3 a4 a5 a6 a7 a8 b).dz2 (a0 (ix1 n)) o := by
  rw [val_main_v24_apply]
  unfold Net.dz2 dotp
  refine Finset.sum_congr rfl fun k _ => ?_
  have hl : lidx_main_v24 (ix3 b n o) k = ix3 b n k := funext fun a => match a with | ⟨0, _⟩ => rfl | ⟨1, _⟩ => rfl | ⟨2, _⟩ => rfl
  have hr : ridx_main_v24 (ix3 b n o) k = ix3 b k o := funext fun a => match a with | ⟨0, _⟩ => rfl | ⟨1, _⟩ => rfl | ⟨2, _⟩ => rfl
  rw [hl, hr, v21_at a0 a1 a2 a3 a4 a5 a6 a7 a8 b n k, v22_at a3 b k o]
  exact mul_comm _ _

theorem v26_at (o : Fin 128) : val_main_v26 (F := Ideal) a4 (ix3 b n o) = a4 (ix2 b o) := by
  rw [val_main_v26_apply, val_main_v25_apply]
  exact congrArg a4 (funext fun a => match a with | ⟨0, _⟩ => rfl | ⟨1, _⟩ => rfl)

theorem v27_at (o : Fin 128) :
    val_main_v27 (F := Ideal) a0 a1 a2 a3 a4 (ix3 b n o) = (netR a1 a2 a3 a4 a5 a6 a7 a8 b).z2 (a0 (ix1 n)) o := by
  rw [val_main_v27_apply, v23_at a0 a1 a2 a3 a4 a5 a6 a7 a8 b n o, v26_at a4 b n o]
  rfl

theorem call1_at (i : S3x262144x128.Idx) : val_main_call1_v0 (F := Ideal) i = zeroW :=
  (val_main_call1_v0_apply (F := Ideal) i).trans (val_main_call1_cst_apply (F := Ideal) _)

theorem v29_at (i : S3x262144x128.Idx) : val_main_v29 (F := Ideal) i = zeroW :=
  (val_main_v29_apply (F := Ideal) i).trans (val_main_cst_2_apply (F := Ideal) _)

theorem v32_at (i : S3x262144x128.Idx) : val_main_v32 (F := Ideal) i = zeroW :=
  (val_main_v32_apply (F := Ideal) i).trans ((val_main_v31_apply (F := Ideal) _).trans (val_main_cst_3_apply (F := Ideal) _))

theorem v28_at (o : Fin 128) :
    val_main_v28 (F := Ideal) a0 a1 a2 a3 a4 (ix3 b n o) = (netR a1 a2 a3 a4 a5 a6 a7 a8 b).h2 (a0 (ix1 n)) o := by
  rw [val_main_v28_apply, v27_at a0 a1 a2 a3 a4 a5 a6 a7 a8 b n o, call1_at]
  rfl

theorem v33_at (o : Fin 128) :
    val_main_v33 (F := Ideal) a0 a1 a2 a3 a4 (ix3 b n o) = (netR a1 a2 a3 a4 a5 a6 a7 a8 b).d2 (a0 (ix1 n)) o := by
  rw [val_main_v33_apply, val_main_v30_apply, v27_at a0 a1 a2 a3 a4 a5 a6 a7 a8 b n o, v29_at, v24_at a0 a1 a2 a3 a4 a5 a6 a7 a8 b n o, v32_at]
  rfl

/-! ### Hidden layer: pre-activation z3, its derivative dz3, activation h3, gated derivative d3 -/

theorem v34_at (k o : Fin 128) : val_main_v34 (F := Ideal) a5 (ix3 b k o) = a5 (ix3 b o k) := by
  rw [val_main_v34_apply]
  exact congrArg a5 (funext fun a => match a with | ⟨0, _⟩ => rfl | ⟨1, _⟩ => rfl | ⟨2, _⟩ => rfl)

theorem v35_at (o : Fin 128) :
    val_main_v35 (F := Ideal) a0 a1 a2 a3 a4 a5 (ix3 b n o) = dotp ((netR a1 a2 a3 a4 a5 a6 a7 a8 b).W3 o) ((netR a1 a2 a3 a4 a5 a6 a7 a8 b).h2 (a0 (ix1 n))) := by
  rw [val_main_v35_apply]
  unfold dotp
  refine Finset.sum_congr rfl fun k _ => ?_
  have hl : lidx_main_v35 (ix3 b n o) k = ix3 b n k := funext fun a => match a with | ⟨0, _⟩ => rfl | ⟨1, _⟩ => rfl | ⟨2, _⟩ => rfl
  have hr : ridx_main_v35 (ix3 b n o) k = ix3 b k o := funext fun a => match a with | ⟨0, _⟩ => rfl | ⟨1, _⟩ => rfl | ⟨2, _⟩ => rfl
  rw [hl, hr, v28_at a0 a1 a2 a3 a4 a5 a6 a7 a8 b n k, v34_at a5 b k o]
  exact mul_comm _ _

theorem v36_at (o : Fin 128) :
    val_main_v36 (F := Ideal) a0 a1 a2 a3 a4 a5 (ix3 b n o) = (netR a1 a2 a3 a4 a5 a6 a7 a8 b).dz3 (a0 (ix1 n)) o := by
  rw [val_main_v36_apply]
  unfold Net.dz3 dotp
  refine Finset.sum_congr rfl fun k _ => ?_
  have hl : lidx_main_v36 (ix3 b n o) k = ix3 b n k := funext fun a => match a with | ⟨0, _⟩ => rfl | ⟨1, _⟩ => rfl | ⟨2, _⟩ => rfl
  have hr : ridx_main_v36 (ix3 b n o) k = ix3 b k o := funext fun a => match a with | ⟨0, _⟩ => rfl | ⟨1, _⟩ => rfl | ⟨2, _⟩ => rfl
  rw [hl, hr, v33_at a0 a1 a2 a3 a4 a5 a6 a7 a8 b n k, v34_at a5 b k o]
  exact mul_comm _ _

theorem v38_at (o : Fin 128) : val_main_v38 (F := Ideal) a6 (ix3 b n o) = a6 (ix2 b o) := by
  rw [val_main_v38_apply, val_main_v37_apply]
  exact congrArg a6 (funext fun a => match a with | ⟨0, _⟩ => rfl | ⟨1, _⟩ => rfl)

theorem v39_at (o : Fin 128) :
    val_main_v39 (F := Ideal) a0 a1 a2 a3 a4 a5 a6 (ix3 b n o) = (netR a1 a2 a3 a4 a5 a6 a7 a8 b).z3 (a0 (ix1 n)) o := by
  rw [val_main_v39_apply, v35_at a0 a1 a2 a3 a4 a5 a6 a7 a8 b n o, v38_at a6 b n o]
  rfl

theorem call2_at (i : S3x262144x128.Idx) : val_main_call2_v0 (F := Ideal) i = zeroW :=
  (val_main_call2_v0_apply (F := Ideal) i).trans (val_main_call2_cst_apply (F := Ideal) _)

theorem v41_at (i : S3x262144x128.Idx) : val_main_v41 (F := Ideal) i = zeroW :=
  (val_main_v41_apply (F := Ideal) i).trans (val_main_cst_4_apply (F := Ideal) _)

theorem v44_at (i : S3x262144x128.Idx) : val_main_v44 (F := Ideal) i = zeroW :=
  (val_main_v44_apply (F := Ideal) i).trans ((val_main_v43_apply (F := Ideal) _).trans (val_main_cst_5_apply (F := Ideal) _))

theorem v40_at (o : Fin 128) :
    val_main_v40 (F := Ideal) a0 a1 a2 a3 a4 a5 a6 (ix3 b n o) = (netR a1 a2 a3 a4 a5 a6 a7 a8 b).h3 (a0 (ix1 n)) o := by
  rw [val_main_v40_apply, v39_at a0 a1 a2 a3 a4 a5 a6 a7 a8 b n o, call2_at]
  rfl

theorem v45_at (o : Fin 128) :
    val_main_v45 (F := Ideal) a0 a1 a2 a3 a4 a5 a6 (ix3 b n o) = (netR a1 a2 a3 a4 a5 a6 a7 a8 b).d3 (a0 (ix1 n)) o := by
  rw [val_main_v45_apply, val_main_v42_apply, v39_at a0 a1 a2 a3 a4 a5 a6 a7 a8 b n o, v41_at, v36_at a0 a1 a2 a3 a4 a5 a6 a7 a8 b n o, v44_at]
  rfl

/-! ### Output layer and the final reshapes -/

theorem v46_at (k : Fin 128) (u : Fin 1) : val_main_v46 (F := Ideal) a7 (ix3 b k u) = a7 (ix3 b (0 : Fin 1) k) := by
  rw [val_main_v46_apply]
  refine congrArg a7 (funext fun a => Fin.ext ?_)
  match a with
  | ⟨0, _⟩ => rfl
  | ⟨1, _⟩ => show u.val = 0; omega
  | ⟨2, _⟩ => rfl

theorem v47_at (u : Fin 1) :
    val_main_v47 (F := Ideal) a0 a1 a2 a3 a4 a5 a6 a7 (ix3 b n u) = dotp (netR a1 a2 a3 a4 a5 a6 a7 a8 b).w4 ((netR a1 a2 a3 a4 a5 a6 a7 a8 b).h3 (a0 (ix1 n))) := by
  rw [val_main_v47_apply]
  unfold dotp
  refine Finset.sum_congr rfl fun k _ => ?_
  have hl : lidx_main_v47 (ix3 b n u) k = ix3 b n k := funext fun a => match a with | ⟨0, _⟩ => rfl | ⟨1, _⟩ => rfl | ⟨2, _⟩ => rfl
  have hr : ridx_main_v47 (ix3 b n u) k = ix3 b k u := funext fun a => match a with | ⟨0, _⟩ => rfl | ⟨1, _⟩ => rfl | ⟨2, _⟩ => rfl
  rw [hl, hr, v40_at a0 a1 a2 a3 a4 a5 a6 a7 a8 b n k, v46_at a7 b k u]
  exact mul_comm _ _

theorem v48_at (u : Fin 1) :
    val_main_v48 (F := Ideal) a0 a1 a2 a3 a4 a5 a6 a7 (ix3 b n u) = (netR a1 a2 a3 a4 a5 a6 a7 a8 b).tan (a0 (ix1 n)) := by
  rw [val_main_v48_apply]
  unfold Net.tan dotp
  refine Finset.sum_congr rfl fun k _ => ?_
  have hl : lidx_main_v48 (ix3 b n u) k = ix3 b n k := funext fun a => match a with | ⟨0, _⟩ => rfl | ⟨1, _⟩ => rfl | ⟨2, _⟩ => rfl
  have hr : ridx_main_v48 (ix3 b n u) k = ix3 b k u := funext fun a => match a with | ⟨0, _⟩ => rfl | ⟨1, _⟩ => rfl | ⟨2, _⟩ => rfl
  rw [hl, hr, v45_at a0 a1 a2 a3 a4 a5 a6 a7 a8 b n k, v46_at a7 b k u]
  exact mul_comm _ _

theorem v50_at (u : Fin 1) : val_main_v50 (F := Ideal) a8 (ix3 b n u) = a8 (ix2 b (0 : Fin 1)) := by
  rw [val_main_v50_apply, val_main_v49_apply]
  exact congrArg a8 (funext fun a => match a with | ⟨0, _⟩ => rfl | ⟨1, _⟩ => rfl)

theorem v51_at (u : Fin 1) :
    val_main_v51 (F := Ideal) a0 a1 a2 a3 a4 a5 a6 a7 a8 (ix3 b n u) = (netR a1 a2 a3 a4 a5 a6 a7 a8 b).val (a0 (ix1 n)) := by
  rw [val_main_v51_apply, v47_at a0 a1 a2 a3 a4 a5 a6 a7 a8 b n u, v50_at a8 b n u]
  rfl

/-- The reshape [3,262144,1] → [3,262144] reads entry (b, n) at (b, n, 0). -/
theorem idx52 : idx_main_v52 (ix2 b n) = ix3 b n (0 : Fin 1) := by
  refine funext fun a => Fin.ext ?_
  have hb := b.isLt
  have hn := n.isLt
  match a with
  | ⟨0, _⟩ => show (b.val * 262144 + n.val) / 262144 = b.val; omega
  | ⟨1, _⟩ => show (b.val * 262144 + n.val) / 1 % 262144 = n.val; omega
  | ⟨2, _⟩ => rfl

theorem idx53 : idx_main_v53 (ix2 b n) = ix3 b n (0 : Fin 1) := by
  refine funext fun a => Fin.ext ?_
  have hb := b.isLt
  have hn := n.isLt
  match a with
  | ⟨0, _⟩ => show (b.val * 262144 + n.val) / 262144 = b.val; omega
  | ⟨1, _⟩ => show (b.val * 262144 + n.val) / 1 % 262144 = n.val; omega
  | ⟨2, _⟩ => rfl

theorem ref_vals :
    val_main_v52 (F := Ideal) a0 a1 a2 a3 a4 a5 a6 a7 a8 (ix2 b n) = (netR a1 a2 a3 a4 a5 a6 a7 a8 b).val (a0 (ix1 n)) := by
  rw [val_main_v52_apply, idx52 b n]
  exact v51_at a0 a1 a2 a3 a4 a5 a6 a7 a8 b n (0 : Fin 1)

theorem ref_dts :
    val_main_v53 (F := Ideal) a0 a1 a2 a3 a4 a5 a6 a7 (ix2 b n) = (netR a1 a2 a3 a4 a5 a6 a7 a8 b).tan (a0 (ix1 n)) := by
  rw [val_main_v53_apply]
  rw [idx53 b n]
  exact v48_at a0 a1 a2 a3 a4 a5 a6 a7 a8 b n (0 : Fin 1)

end

end Cert.ReferenceIdeal.RefValue

end
-- ==== Proof.KernelRun.lean ====
/-
  The kernel program's run, read: each of its six results is the shared closing chain applied to the reference's own
  two arrays of values and derivatives, taken at the kernel's arguments.

  The region leaves the values' and derivatives' arrays [3,1,262144] holding, at (b, 0, n), branch b's value and
  derivative at input n; recast to [3,262144] these are entry by entry the reference's two stages, because both are
  the network of the specification at the same weights and the same input. What follows the region in the kernel's
  program is the same chain of operations that follows those stages in the reference.
-/
import proofs.«123856_j84945863180832_2_alg».proof.Proof.KernelArrays
import proofs.«123856_j84945863180832_2_alg».proof.Proof.KernelTail
import proofs.«123856_j84945863180832_2_alg».proof.Proof.RefValue
import proofs.«123856_j84945863180832_2_alg».proof.Proof.Tail
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.Hand Cert.KernelIdeal.KArr Cert.Mlp

variable (m : (ℓ : Loc nD τ sig) → Buf (Elt Ideal) ℓ) (ρ : Dev nD → PrngReg)

/-- The reference's values stage at the kernel's arguments. -/
abbrev refVals (c : Dev nD) : S3x262144.Idx → Elt Ideal .f32 :=
  Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
/-- The reference's derivatives stage at the kernel's arguments. -/
abbrev refDts (c : Dev nD) : S3x262144.Idx → Elt Ideal .f32 :=
  Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The values' array recast to [3,262144] is the reference's values stage. -/
theorem vals_eq (c : Dev nD) : shapeCast S3x262144 (G9 m c) shapeCasts_S3x1x262144_S3x262144 = refVals m c := by
  funext i
  obtain ⟨b, n, rfl⟩ : ∃ (b : Fin 3) (n : Fin 262144), i = ix2 b n := ⟨i 0, i 1, eq_ix2 i⟩
  refine ((shapeCast_apply _ _ _ (ix3 b (0 : Fin 1) n) ?_).trans (G9_at m c _ b n rfl rfl)).trans
    (Cert.ReferenceIdeal.RefValue.ref_vals _ _ _ _ _ _ _ _ _ b n).symm
  rw [Shape.rowMajor_val_three, Shape.rowMajor_val_two]
  show (b.val * 1 + 0) * 262144 + n.val = b.val * 262144 + n.val
  omega

/-- The derivatives' array recast to [3,262144] is the reference's derivatives stage. -/
theorem dts_eq (c : Dev nD) : shapeCast S3x262144 (G10 m c) shapeCasts_S3x1x262144_S3x262144 = refDts m c := by
  funext i
  obtain ⟨b, n, rfl⟩ : ∃ (b : Fin 3) (n : Fin 262144), i = ix2 b n := ⟨i 0, i 1, eq_ix2 i⟩
  refine ((shapeCast_apply _ _ _ (ix3 b (0 : Fin 1) n) ?_).trans (G10_at m c _ b n rfl rfl)).trans
    (Cert.ReferenceIdeal.RefValue.ref_dts _ _ _ _ _ _ _ _ (m ((c : Thread nD τ).loc main_arg8)) b n).symm
  rw [Shape.rowMajor_val_three, Shape.rowMajor_val_two]
  show (b.val * 1 + 0) * 262144 + n.val = b.val * 262144 + n.val
  omega

/-- What the region leaves in its two result arrays, as the later operations find them. -/
theorem arr9 (c : Dev nD) : (Pipeline.withArrays spec0 c (V0 m c) (fun w => (dats m 0 c).arrAt w cfg0.N) (Proc.devRef .tc main_v5_0) : S3x1x262144.Idx → Elt Ideal .f32) = G9 m c :=
  (Pipeline.withArrays_arr spec0 launch0.win.arr_inj c _ _ 9).trans (final9 m c)
theorem arr10 (c : Dev nD) : (Pipeline.withArrays spec0 c (V0 m c) (fun w => (dats m 0 c).arrAt w cfg0.N) (Proc.devRef .tc main_v5_1) : S3x1x262144.Idx → Elt Ideal .f32) = G10 m c :=
  (Pipeline.withArrays_arr spec0 launch0.win.arr_inj c _ _ 10).trans (final10 m c)

/-- Result 0 after the later operations. -/
theorem res0_eq (c : Dev nD) : Pipeline.afterTail₀ cfgs (dats m) 0 (V0 m) tailOps c main_v37
    = Tail.res0 (F := Ideal) (refVals m c) (refDts m c) := by
  unfold Pipeline.afterTail₀
  rw [Cert.KernelIdeal.KTail.k_res0, arr9, arr10, vals_eq, dts_eq]
/-- Result 1 after the later operations. -/
theorem res1_eq (c : Dev nD) : Pipeline.afterTail₀ cfgs (dats m) 0 (V0 m) tailOps c main_v67
    = Tail.res1 (F := Ideal) (refVals m c) (refDts m c) := by
  unfold Pipeline.afterTail₀
  rw [Cert.KernelIdeal.KTail.k_res1, arr9, arr10, vals_eq, dts_eq]
/-- Result 2 after the later operations. -/
theorem res2_eq (c : Dev nD) : Pipeline.afterTail₀ cfgs (dats m) 0 (V0 m) tailOps c main_v97
    = Tail.res2 (F := Ideal) (refVals m c) (refDts m c) := by
  unfold Pipeline.afterTail₀
  rw [Cert.KernelIdeal.KTail.k_res2, arr9, arr10, vals_eq, dts_eq]
/-- Result 3 after the later operations. -/
theorem res3_eq (c : Dev nD) : Pipeline.afterTail₀ cfgs (dats m) 0 (V0 m) tailOps c main_v30
    = Tail.res3 (F := Ideal) (refVals m c) (refDts m c) := by
  unfold Pipeline.afterTail₀
  rw [Cert.KernelIdeal.KTail.k_res3, arr9, arr10, vals_eq, dts_eq]
/-- Result 4 after the later operations. -/
theorem res4_eq (c : Dev nD) : Pipeline.afterTail₀ cfgs (dats m) 0 (V0 m) tailOps c main_v60
    = Tail.res4 (F := Ideal) (refVals m c) (refDts m c) := by
  unfold Pipeline.afterTail₀
  rw [Cert.KernelIdeal.KTail.k_res4, arr9, arr10, vals_eq, dts_eq]
/-- Result 5 after the later operations. -/
theorem res5_eq (c : Dev nD) : Pipeline.afterTail₀ cfgs (dats m) 0 (V0 m) tailOps c main_v90
    = Tail.res5 (F := Ideal) (refVals m c) (refDts m c) := by
  unfold Pipeline.afterTail₀
  rw [Cert.KernelIdeal.KTail.k_res5, arr9, arr10, vals_eq, dts_eq]

/-- The run, read: every weakly fair execution ends with each result at the closing chain of the reference's two
    stages and every argument as launched. -/
theorem value_run : θ_run defs (onTc (τ := τ) (main (F := Ideal))) ⟨m, fun _ => 0, ρ⟩ fun r => ∀ c : Dev nD,
      r.2.mem ((c.tc : Thread nD τ).loc main_v37) = Tail.res0 (F := Ideal) (refVals m c) (refDts m c)
      ∧ r.2.mem ((c.tc : Thread nD τ).loc main_v67) = Tail.res1 (F := Ideal) (refVals m c) (refDts m c)
      ∧ r.2.mem ((c.tc : Thread nD τ).loc main_v97) = Tail.res2 (F := Ideal) (refVals m c) (refDts m c)
      ∧ r.2.mem ((c.tc : Thread nD τ).loc main_v30) = Tail.res3 (F := Ideal) (refVals m c) (refDts m c)
      ∧ r.2.mem ((c.tc : Thread nD τ).loc main_v60) = Tail.res4 (F := Ideal) (refVals m c) (refDts m c)
      ∧ r.2.mem ((c.tc : Thread nD τ).loc main_v90) = Tail.res5 (F := Ideal) (refVals m c) (refDts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v37 (Pipeline.mem_restRefs_of main_v37 (by decide) (by decide))).trans (res0_eq m c),
      ((h c).2 main_v67 (Pipeline.mem_restRefs_of main_v67 (by decide) (by decide))).trans (res1_eq m c),
      ((h c).2 main_v97 (Pipeline.mem_restRefs_of main_v97 (by decide) (by decide))).trans (res2_eq m c),
      ((h c).2 main_v30 (Pipeline.mem_restRefs_of main_v30 (by decide) (by decide))).trans (res3_eq m c),
      ((h c).2 main_v60 (Pipeline.mem_restRefs_of main_v60 (by decide) (by decide))).trans (res4_eq m c),
      ((h c).2 main_v90 (Pipeline.mem_restRefs_of main_v90 (by decide) (by decide))).trans (res5_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c)⟩)
    (run_main m ρ)

end Cert.KernelIdeal.KRun

end
-- ==== Proof.RefTail.lean ====
/-
  The reference program's six results are the three "_post" steps of Tail.lean applied to its two [3, 262144] arrays.

  After the network the reference slices each row of the values array and of the derivatives array and applies to it
  the same chain of operations as the kernel's host program: s · |v - v₀| for the values, and the chain-rule vector
  (s · sign(v - v₀)) · dt with its first entry replaced by ±|dt₀| for the derivatives. Operation by operation the
  reference's terms are those of Tail.lean; the two programs name the same shapes and state the same shape relations,
  so each equation holds by unfolding the stages.
-/
import proofs.«123856_j84945863180832_2_alg».proof.Proof.Tail
import proofs.«123856_j84945863180832_2_alg».proof.Proof.Gen.KernelIdeal
import proofs.«123856_j84945863180832_2_alg».proof.Proof.Gen.ReferenceIdeal.Read

noncomputable section

namespace Cert.ReferenceIdeal.RefTail

open Idealize.ShloMosaic Cert.ReferenceIdeal

variable (a0 : FVec Ideal S262144 .f32) (a1 : FVec Ideal S3x128x1 .f32) (a2 : FVec Ideal S3x128 .f32)
  (a3 : FVec Ideal S3x128x128 .f32) (a4 : FVec Ideal S3x128 .f32) (a5 : FVec Ideal S3x128x128 .f32)
  (a6 : FVec Ideal S3x128 .f32) (a7 : FVec Ideal S3x1x128 .f32) (a8 : FVec Ideal S3x1 .f32)

theorem ref_res0 :
    Read.val_main_v83 (F := Ideal) a0 a1 a2 a3 a4 a5 a6 a7 a8 =
      Cert.KernelIdeal.Tail.res0 (F := Ideal) (Read.val_main_v52 (F := Ideal) a0 a1 a2 a3 a4 a5 a6 a7 a8) (Read.val_main_v53 (F := Ideal) a0 a1 a2 a3 a4 a5 a6 a7) := by
  unfold Read.val_main_v83 Read.val_main_v82 Read.val_main_cst_8 Read.val_main_v81 Read.val_main_v80 Read.val_main_v79 Read.val_main_v78 Read.val_main_v77 Read.val_main_v55 Read.val_main_v54
  generalize Read.val_main_v52 (F := Ideal) a0 a1 a2 a3 a4 a5 a6 a7 a8 = V
  rfl

theorem ref_res1 :
    Read.val_main_v113 (F := Ideal) a0 a1 a2 a3 a4 a5 a6 a7 a8 =
      Cert.KernelIdeal.Tail.res1 (F := Ideal) (Read.val_main_v52 (F := Ideal) a0 a1 a2 a3 a4 a5 a6 a7 a8) (Read.val_main_v53 (F := Ideal) a0 a1 a2 a3 a4 a5 a6 a7) := by
  unfold Read.val_main_v113 Read.val_main_v112 Read.val_main_cst_11 Read.val_main_v111 Read.val_main_v110 Read.val_main_v109 Read.val_main_v108 Read.val_main_v107 Read.val_main_v85 Read.val_main_v84
  generalize Read.val_main_v52 (F := Ideal) a0 a1 a2 a3 a4 a5 a6 a7 a8 = V
  rfl

theorem ref_res2 :
    Read.val_main_v143 (F := Ideal) a0 a1 a2 a3 a4 a5 a6 a7 a8 =
      Cert.KernelIdeal.Tail.res2 (F := Ideal) (Read.val_main_v52 (F := Ideal) a0 a1 a2 a3 a4 a5 a6 a7 a8) (Read.val_main_v53 (F := Ideal) a0 a1 a2 a3 a4 a5 a6 a7) := by
  unfold Read.val_main_v143 Read.val_main_v142 Read.val_main_cst_14 Read.val_main_v141 Read.val_main_v140 Read.val_main_v139 Read.val_main_v138 Read.val_main_v137 Read.val_main_v115 Read.val_main_v114
  generalize Read.val_main_v52 (F := Ideal) a0 a1 a2 a3 a4 a5 a6 a7 a8 = V
  rfl

theorem ref_res3 :
    Read.val_main_v76 (F := Ideal) a0 a1 a2 a3 a4 a5 a6 a7 a8 =
      Cert.KernelIdeal.Tail.res3 (F := Ideal) (Read.val_main_v52 (F := Ideal) a0 a1 a2 a3 a4 a5 a6 a7 a8) (Read.val_main_v53 (F := Ideal) a0 a1 a2 a3 a4 a5 a6 a7) := by
  unfold Read.val_main_v76 Read.val_main_v75 Read.val_main_v74 Read.val_main_v73 Read.val_main_v72 Read.val_main_v71 Read.val_main_v70 Read.val_main_v69 Read.val_main_v68 Read.val_main_cst_7 Read.val_main_v67 Read.val_main_v66 Read.val_main_v65 Read.val_main_v64 Read.val_main_v63 Read.val_main_cst_6 Read.val_main_v62 Read.val_main_v61 Read.val_main_v60 Read.val_main_v59 Read.val_main_v58 Read.val_main_v57 Read.val_main_v56 Read.val_main_v55 Read.val_main_v54
  generalize Read.val_main_v52 (F := Ideal) a0 a1 a2 a3 a4 a5 a6 a7 a8 = V
  generalize Read.val_main_v53 (F := Ideal) a0 a1 a2 a3 a4 a5 a6 a7 = D
  rfl

theorem ref_res4 :
    Read.val_main_v106 (F := Ideal) a0 a1 a2 a3 a4 a5 a6 a7 a8 =
      Cert.KernelIdeal.Tail.res4 (F := Ideal) (Read.val_main_v52 (F := Ideal) a0 a1 a2 a3 a4 a5 a6 a7 a8) (Read.val_main_v53 (F := Ideal) a0 a1 a2 a3 a4 a5 a6 a7) := by
  unfold Read.val_main_v106 Read.val_main_v105 Read.val_main_v104 Read.val_main_v103 Read.val_main_v102 Read.val_main_v101 Read.val_main_v100 Read.val_main_v99 Read.val_main_v98 Read.val_main_cst_10 Read.val_main_v97 Read.val_main_v96 Read.val_main_v95 Read.val_main_v94 Read.val_main_v93 Read.val_main_cst_9 Read.val_main_v92 Read.val_main_v91 Read.val_main_v90 Read.val_main_v89 Read.val_main_v88 Read.val_main_v87 Read.val_main_v86 Read.val_main_v85 Read.val_main_v84
  generalize Read.val_main_v52 (F := Ideal) a0 a1 a2 a3 a4 a5 a6 a7 a8 = V
  generalize Read.val_main_v53 (F := Ideal) a0 a1 a2 a3 a4 a5 a6 a7 = D
  rfl

theorem ref_res5 :
    Read.val_main_v136 (F := Ideal) a0 a1 a2 a3 a4 a5 a6 a7 a8 =
      Cert.KernelIdeal.Tail.res5 (F := Ideal) (Read.val_main_v52 (F := Ideal) a0 a1 a2 a3 a4 a5 a6 a7 a8) (Read.val_main_v53 (F := Ideal) a0 a1 a2 a3 a4 a5 a6 a7) := by
  unfold Read.val_main_v136 Read.val_main_v135 Read.val_main_v134 Read.val_main_v133 Read.val_main_v132 Read.val_main_v131 Read.val_main_v130 Read.val_main_v129 Read.val_main_v128 Read.val_main_cst_13 Read.val_main_v127 Read.val_main_v126 Read.val_main_v125 Read.val_main_v124 Read.val_main_v123 Read.val_main_cst_12 Read.val_main_v122 Read.val_main_v121 Read.val_main_v120 Read.val_main_v119 Read.val_main_v118 Read.val_main_v117 Read.val_main_v116 Read.val_main_v115 Read.val_main_v114
  generalize Read.val_main_v52 (F := Ideal) a0 a1 a2 a3 a4 a5 a6 a7 a8 = V
  generalize Read.val_main_v53 (F := Ideal) a0 a1 a2 a3 a4 a5 a6 a7 = D
  rfl

end Cert.ReferenceIdeal.RefTail

end
-- ==== Proof.lean ====
/-
  Three tiny perceptrons (1 → 128 → 128 → 128 → 1, rectifier on the hidden layers) evaluated at 262144 real inputs,
  each with its exact derivative with respect to the input, followed by a closing step per branch (distance from
  the first value, and the derivative signed by the side of the first value).

  The kernel evaluates a block of 4096 inputs per grid point, feature-major: every hidden layer is a weight matrix
  times a [128, 4096] block of activations plus a bias column, and the derivative is carried forward by the chain
  rule, gated by the sign of each pre-activation. The reference evaluates all inputs at once, batch-major, and takes
  the derivative as a forward-mode tangent with tangent 1 on the input. On the extended reals the two are the same
  finite sums: a product commutes, 1 · w = w, and the rounding to a shorter float on the kernel's derivative path is
  the identity. Both programs then apply the same closing chain of operations to the two [3, 262144] arrays, so
  equal arrays give equal results.

  The frames: the five reshapes before the region and the 101 operations after it write only their own result
  buffers, and the region writes only its two result arrays, so every argument ends as launched.
-/
import proofs.«123856_j84945863180832_2_alg».proof.Defs
import proofs.«123856_j84945863180832_2_alg».proof.Proof.Gen.Kernel
import proofs.«123856_j84945863180832_2_alg».proof.Proof.Gen.KernelIdeal
import proofs.«123856_j84945863180832_2_alg».proof.Proof.Gen.ReferenceIdeal
import proofs.«123856_j84945863180832_2_alg».proof.Proof.Gen.Pre_finite_inputs
import proofs.«123856_j84945863180832_2_alg».proof.Proof.Gen.ReferenceIdeal.Run
import proofs.«123856_j84945863180832_2_alg».proof.Proof.Gen.ReferenceIdeal.Read
import proofs.«123856_j84945863180832_2_alg».proof.Proof.KernelFrame
import proofs.«123856_j84945863180832_2_alg».proof.Proof.KernelIdealFrame
import proofs.«123856_j84945863180832_2_alg».proof.Proof.KernelRun
import proofs.«123856_j84945863180832_2_alg».proof.Proof.RefTail
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference has no kernel: its frame is its run with the results dropped. -/
theorem frame_ri : Cert.frame_ReferenceIdeal := fun m ρ _ =>
  (θ_run Cert.ReferenceIdeal.defs _ _).mono (fun _ h c => (h c).2.2.2.2.2.2)
    (Cert.ReferenceIdeal.Value.run (F := Ideal) m ρ)

/-- The idealization rewrote no operation. -/
theorem preserves : Cert.preserves_Kernel_KernelIdeal := trivial

/-- Both programs end with each result at the closing chain of the reference's two stages (values and derivatives of
    the three branches) taken at the arguments, which agree. -/
theorem algebraic : Cert.algebraic_KernelIdeal_ReferenceIdeal := by
  intro m ρ m' ρ' _ hagree
  refine ⟨_, _, _, _, _, _, Cert.KernelIdeal.KRun.value_run m ρ, ?_⟩
  refine (θ_run Cert.ReferenceIdeal.defs _ _).mono (fun _ h c => ?_) (Cert.ReferenceIdeal.Value.run (F := Ideal) m' ρ')
  obtain ⟨h0, h1, h2, h3, h4, h5, hargs⟩ := h c
  obtain ⟨g0, g1, g2, g3, g4, g5, g6, g7, g8⟩ := hagree c
  refine ⟨h0.trans ?_, h1.trans ?_, h2.trans ?_, h3.trans ?_, h4.trans ?_, h5.trans ?_, hargs⟩
  · rw [Cert.ReferenceIdeal.Read.val_main_v83_eq, Cert.ReferenceIdeal.RefTail.ref_res0, g0, g1, g2, g3, g4, g5, g6, g7, g8]
  · rw [Cert.ReferenceIdeal.Read.val_main_v113_eq, Cert.ReferenceIdeal.RefTail.ref_res1, g0, g1, g2, g3, g4, g5, g6, g7, g8]
  · rw [Cert.ReferenceIdeal.Read.val_main_v143_eq, Cert.ReferenceIdeal.RefTail.ref_res2, g0, g1, g2, g3, g4, g5, g6, g7, g8]
  · rw [Cert.ReferenceIdeal.Read.val_main_v76_eq, Cert.ReferenceIdeal.RefTail.ref_res3, g0, g1, g2, g3, g4, g5, g6, g7, g8]
  · rw [Cert.ReferenceIdeal.Read.val_main_v106_eq, Cert.ReferenceIdeal.RefTail.ref_res4, g0, g1, g2, g3, g4, g5, g6, g7, g8]
  · rw [Cert.ReferenceIdeal.Read.val_main_v136_eq, Cert.ReferenceIdeal.RefTail.ref_res5, g0, g1, g2, g3, g4, g5, g6, g7, g8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
